-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x4096x256 : Shape := ⟨3, ![48, 4096, 256]⟩
abbrev S256x512 : Shape := ⟨2, ![256, 512]⟩
abbrev S256 : Shape := ⟨1, ![256]⟩
abbrev S_ : Shape := ⟨0, ![]⟩

class Facts : Prop where
  bcast_S_S48x4096x256 : S_.BroadcastsInDim S48x4096x256 (![] : Fin 0 → Fin S48x4096x256.rank)
  reducesTo_S48x4096x256_S_d0_1_2 : S48x4096x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S48x4096x256 .f32) (main_arg1 : FVec F S256x512 .f32) (main_arg2 : FVec F S256 .f32) : IVec S_ 1 :=
  let main_v0 : FVec F S48x4096x256 .f32 := Host.absf main_arg0
  let main_cst : FVec F S_ .f32 := constant S_ .f32 0x7F800000#32
  let main_v1 : FVec F S48x4096x256 .f32 := broadcastInDim S48x4096x256 ![] bcast_S_S48x4096x256 main_cst
  let main_v2 : IVec S48x4096x256 1 := cmpf .olt main_v0 main_v1
  let main_c : IVec S_ 1 := constantI S_ 1 1#1
  let main_v3 : IVec S_ 1 := (fun x v => Host.reduce IntOp.andi x v reducesTo_S48x4096x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S48x4096x256 : Shape := ⟨3, ![48, 4096, 256]⟩
abbrev S256x512 : Shape := ⟨2, ![256, 512]⟩
abbrev S256 : Shape := ⟨1, ![256]⟩
abbrev S1x256 : Shape := ⟨2, ![1, 256]⟩
abbrev S512x256 : Shape := ⟨2, ![512, 256]⟩
abbrev S48x10x256 : Shape := ⟨3, ![48, 10, 256]⟩
abbrev S4x4096x256 : Shape := ⟨3, ![4, 4096, 256]⟩
abbrev S4x10x256 : Shape := ⟨3, ![4, 10, 256]⟩
abbrev S4x455x256 : Shape := ⟨3, ![4, 455, 256]⟩
abbrev S4x256 : Shape := ⟨2, ![4, 256]⟩
abbrev S4x1x256 : Shape := ⟨3, ![4, 1, 256]⟩
abbrev S4x10x10 : Shape := ⟨3, ![4, 10, 10]⟩
abbrev S4x10 : Shape := ⟨2, ![4, 10]⟩
abbrev S4x10x1 : Shape := ⟨3, ![4, 10, 1]⟩
abbrev S4x1x455 : Shape := ⟨3, ![4, 1, 455]⟩
abbrev S4x1 : Shape := ⟨2, ![4, 1]⟩
abbrev S4x1x1 : Shape := ⟨3, ![4, 1, 1]⟩
abbrev S4 : Shape := ⟨1, ![4]⟩
abbrev S4x10x512 : Shape := ⟨3, ![4, 10, 512]⟩
abbrev S40x512 : Shape := ⟨2, ![40, 512]⟩
abbrev S40x256 : Shape := ⟨2, ![40, 256]⟩
abbrev S1x1x256 : Shape := ⟨3, ![1, 1, 256]⟩

abbrev nBuf : Space → Nat
  | .hbm => 6
  | .vmem => 6
  | .smem => 0
  | _ => 0

abbrev bufTy : (tb : Table) → Fin (tcTables nBuf tb) → BufTy
  | .hbm, ⟨0, _⟩ => ⟨S48x4096x256, .f32⟩
  | .hbm, ⟨1, _⟩ => ⟨S256x512, .f32⟩
  | .hbm, ⟨2, _⟩ => ⟨S256, .f32⟩
  | .hbm, ⟨3, _⟩ => ⟨S1x256, .f32⟩
  | .hbm, ⟨4, _⟩ => ⟨S512x256, .f32⟩
  | .hbm, ⟨5, _⟩ => ⟨S48x10x256, .f32⟩
  | .local _ .vmem, ⟨0, _⟩ => ⟨S4x4096x256, .f32⟩
  | .local _ .vmem, ⟨1, _⟩ => ⟨S4x4096x256, .f32⟩
  | .local _ .vmem, ⟨2, _⟩ => ⟨S512x256, .f32⟩
  | .local _ .vmem, ⟨3, _⟩ => ⟨S1x256, .f32⟩
  | .local _ .vmem, ⟨4, _⟩ => ⟨S4x10x256, .f32⟩
  | .local _ .vmem, ⟨5, _⟩ => ⟨S4x10x256, .f32⟩
  | _, _ => ⟨S48x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x10x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  transposes_S256x512_S512x256_1_0 : S256x512.Transposes [1, 0] S512x256
  inb_S4x4096x256_S4x455x256_0_0_0 : ∀ a, (![0, 0, 0] : Fin 3 → Nat) a + S4x455x256.size a ≤ S4x4096x256.size a
  h_S4x455x256 : 0 < S4x455x256.numel
  reduces_S4x455x256_S4x256 : S4x455x256.Reduces [1] S4x256
  inb_S4x4096x256_S4x455x256_0_455_0 : ∀ a, (![0, 455, 0] : Fin 3 → Nat) a + S4x455x256.size a ≤ S4x4096x256.size a
  inb_S4x4096x256_S4x455x256_0_910_0 : ∀ a, (![0, 910, 0] : Fin 3 → Nat) a + S4x455x256.size a ≤ S4x4096x256.size a
  inb_S4x4096x256_S4x455x256_0_1365_0 : ∀ a, (![0, 1365, 0] : Fin 3 → Nat) a + S4x455x256.size a ≤ S4x4096x256.size a
  inb_S4x4096x256_S4x455x256_0_1820_0 : ∀ a, (![0, 1820, 0] : Fin 3 → Nat) a + S4x455x256.size a ≤ S4x4096x256.size a
  inb_S4x4096x256_S4x455x256_0_2275_0 : ∀ a, (![0, 2275, 0] : Fin 3 → Nat) a + S4x455x256.size a ≤ S4x4096x256.size a
  inb_S4x4096x256_S4x455x256_0_2730_0 : ∀ a, (![0, 2730, 0] : Fin 3 → Nat) a + S4x455x256.size a ≤ S4x4096x256.size a
  inb_S4x4096x256_S4x455x256_0_3185_0 : ∀ a, (![0, 3185, 0] : Fin 3 → Nat) a + S4x455x256.size a ≤ S4x4096x256.size a
  inb_S4x4096x256_S4x455x256_0_3640_0 : ∀ a, (![0, 3640, 0] : Fin 3 → Nat) a + S4x455x256.size a ≤ S4x4096x256.size a
  inb_S4x4096x256_S4x1x256_0_4095_0 : ∀ a, (![0, 4095, 0] : Fin 3 → Nat) a + S4x1x256.size a ≤ S4x4096x256.size a
  h_S4x1x256 : 0 < S4x1x256.numel
  shapeCasts_S4x1x256_S4x256 : S4x1x256.ShapeCasts S4x256
  shapeCasts_S4x256_S4x1x256 : S4x256.ShapeCasts S4x1x256
  concatenates_S4x1x256_S4x1x256_S4x1x256_S4x1x256_S4x1x256_S4x1x256_S4x1x256_S4x1x256_S4x1x256_S4x1x256_S4x10x256_d1 : Shape.Concatenates [S4x1x256, S4x1x256, S4x1x256, S4x1x256, S4x1x256, S4x1x256, S4x1x256, S4x1x256, S4x1x256, S4x1x256] S4x10x256 1
  reduces_S4x10x10_S4x10 : S4x10x10.Reduces [2] S4x10
  shapeCasts_S4x10_S4x10x1 : S4x10.ShapeCasts S4x10x1
  broadcasts_S4x10x1_S4x10x10 : S4x10x1.Broadcasts S4x10x10
  slices_S4x10x256_o0_0_0_S4x1x256 : S4x10x256.Slices ![0, 0, 0] S4x1x256
  reduces_S4x1x455_S4x1 : S4x1x455.Reduces [2] S4x1
  shapeCasts_S4x1_S4x1x1 : S4x1.ShapeCasts S4x1x1
  broadcasts_S4x1x1_S4x1x455 : S4x1x1.Broadcasts S4x1x455
  slices_S4x10x256_o0_1_0_S4x1x256 : S4x10x256.Slices ![0, 1, 0] S4x1x256
  slices_S4x10x256_o0_2_0_S4x1x256 : S4x10x256.Slices ![0, 2, 0] S4x1x256
  slices_S4x10x256_o0_3_0_S4x1x256 : S4x10x256.Slices ![0, 3, 0] S4x1x256
  slices_S4x10x256_o0_4_0_S4x1x256 : S4x10x256.Slices ![0, 4, 0] S4x1x256
  slices_S4x10x256_o0_5_0_S4x1x256 : S4x10x256.Slices ![0, 5, 0] S4x1x256
  slices_S4x10x256_o0_6_0_S4x1x256 : S4x10x256.Slices ![0, 6, 0] S4x1x256
  slices_S4x10x256_o0_7_0_S4x1x256 : S4x10x256.Slices ![0, 7, 0] S4x1x256
  slices_S4x10x256_o0_8_0_S4x1x256 : S4x10x256.Slices ![0, 8, 0] S4x1x256
  slices_S4x10x256_o0_9_0_S4x1x256 : S4x10x256.Slices ![0, 9, 0] S4x1x256
  reduces_S4x256_S4 : S4x256.Reduces [1] S4
  shapeCasts_S4_S4x1 : S4.ShapeCasts S4x1
  broadcasts_S4x1_S4x256 : S4x1.Broadcasts S4x256
  concatenates_S4x10x256_S4x10x256_S4x10x512_d2 : Shape.Concatenates [S4x10x256, S4x10x256] S4x10x512 2
  shapeCasts_S4x10x512_S40x512 : S4x10x512.ShapeCasts S40x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S40x256_S4x10x256 : S40x256.ShapeCasts S4x10x256
  shapeCasts_S1x256_S1x1x256 : S1x256.ShapeCasts S1x1x256
  broadcasts_S1x1x256_S4x10x256 : S1x1x256.Broadcasts S4x10x256
  inb_S4x10x256_S4x10x256_0_0_0 : ∀ a, (![0, 0, 0] : Fin 3 → Nat) a + S4x10x256.size a ≤ S4x10x256.size a
  h_S4x10x256 : 0 < S4x10x256.numel
  dot_S4x10x256_S4x10x256_S4x10x10_2_2_1_1_0_0_wf : DotDims.WF S4x10x256 S4x10x256 S4x10x10 [2] [2] [1] [1] [0] [0]
  dot_S4x10x10_S4x10x256_S4x10x256_2_1_1_2_0_0_wf : DotDims.WF S4x10x10 S4x10x256 S4x10x256 [2] [1] [1] [2] [0] [0]
  dot_S4x1x256_S4x455x256_S4x1x455_2_2_1_1_0_0_wf : DotDims.WF S4x1x256 S4x455x256 S4x1x455 [2] [2] [1] [1] [0] [0]
  dot_S4x1x455_S4x455x256_S4x1x256_2_1_1_2_0_0_wf : DotDims.WF S4x1x455 S4x455x256 S4x1x256 [2] [1] [1] [2] [0] [0]
  dot_S40x512_S512x256_S40x256_1_0_0_1_n_n_wf : DotDims.WF S40x512 S512x256 S40x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x256.size a ≤ S48x4096x256.size a
  hwx0_0 : ∀ i : grid0.Coords, EltTy.bits .f32 = 32 ∨ (Rect.block (s := S48x4096x256) S4x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x10x256.size a ≤ S48x10x256.size a
  hwx0_3 : ∀ i : grid0.Coords, EltTy.bits .f32 = 32 ∨ (Rect.block (s := S48x10x256) S4x10x256.size (cc0_transform_3 i) (hinb0_3 i)).WholeWords (EltTy.packing .f32)

variable [Facts₀]

def dot_S4x10x256_S4x10x256_S4x10x10_2_2_1_1_0_0 : DotDims S4x10x256 S4x10x256 S4x10x10 where
  lhsContracting := [2]
  rhsContracting := [2]
  lhsNonContracting := [1]
  rhsNonContracting := [1]
  lhsBatch := [0]
  rhsBatch := [0]
  wf := dot_S4x10x256_S4x10x256_S4x10x10_2_2_1_1_0_0_wf
def dot_S4x10x10_S4x10x256_S4x10x256_2_1_1_2_0_0 : DotDims S4x10x10 S4x10x256 S4x10x256 where
  lhsContracting := [2]
  rhsContracting := [1]
  lhsNonContracting := [1]
  rhsNonContracting := [2]
  lhsBatch := [0]
  rhsBatch := [0]
  wf := dot_S4x10x10_S4x10x256_S4x10x256_2_1_1_2_0_0_wf
def dot_S4x1x256_S4x455x256_S4x1x455_2_2_1_1_0_0 : DotDims S4x1x256 S4x455x256 S4x1x455 where
  lhsContracting := [2]
  rhsContracting := [2]
  lhsNonContracting := [1]
  rhsNonContracting := [1]
  lhsBatch := [0]
  rhsBatch := [0]
  wf := dot_S4x1x256_S4x455x256_S4x1x455_2_2_1_1_0_0_wf
def dot_S4x1x455_S4x455x256_S4x1x256_2_1_1_2_0_0 : DotDims S4x1x455 S4x455x256 S4x1x256 where
  lhsContracting := [2]
  rhsContracting := [1]
  lhsNonContracting := [1]
  rhsNonContracting := [2]
  lhsBatch := [0]
  rhsBatch := [0]
  wf := dot_S4x1x455_S4x455x256_S4x1x256_2_1_1_2_0_0_wf
def dot_S40x512_S512x256_S40x256_1_0_0_1_n_n : DotDims S40x512 S512x256 S40x256 where
  lhsContracting := [1]
  rhsContracting := [0]
  lhsNonContracting := [0]
  rhsNonContracting := [1]
  lhsBatch := []
  rhsBatch := []
  wf := dot_S40x512_S512x256_S40x256_1_0_0_1_n_n_wf

abbrev win0_0 : Pipeline.Window sig grid0 :=
  Pipeline.Window.ofSpec (Memref.whole main_arg0) S4x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x10x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S48x4096x256 : Shape := ⟨3, ![48, 4096, 256]⟩
abbrev S256x512 : Shape := ⟨2, ![256, 512]⟩
abbrev S256 : Shape := ⟨1, ![256]⟩
abbrev S_ : Shape := ⟨0, ![]⟩
abbrev S48x4550x256 : Shape := ⟨3, ![48, 4550, 256]⟩
abbrev S480x455x256 : Shape := ⟨3, ![480, 455, 256]⟩
abbrev S480x256 : Shape := ⟨2, ![480, 256]⟩
abbrev S48x10x256 : Shape := ⟨3, ![48, 10, 256]⟩
abbrev S48x256x10 : Shape := ⟨3, ![48, 256, 10]⟩
abbrev S48x10x10 : Shape := ⟨3, ![48, 10, 10]⟩
abbrev S48x10 : Shape := ⟨2, ![48, 10]⟩
abbrev S48x10x1 : Shape := ⟨3, ![48, 10, 1]⟩
abbrev S480x1x256 : Shape := ⟨3, ![480, 1, 256]⟩
abbrev S480x256x455 : Shape := ⟨3, ![480, 256, 455]⟩
abbrev S480x1x455 : Shape := ⟨3, ![480, 1, 455]⟩
abbrev S480x1 : Shape := ⟨2, ![480, 1]⟩
abbrev S480x1x1 : Shape := ⟨3, ![480, 1, 1]⟩
abbrev S48x10x512 : Shape := ⟨3, ![48, 10, 512]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S48x4096x256, .f32⟩
  | .hbm, ⟨1, _⟩ => ⟨S256x512, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S48x4550x256, .f32⟩
  | .hbm, ⟨6, _⟩ => ⟨S480x455x256, .f32⟩
  | .hbm, ⟨7, _⟩ => ⟨S_, .f32⟩
  | .hbm, ⟨8, _⟩ => ⟨S480x256, .f32⟩
  | .hbm, ⟨9, _⟩ => ⟨S48x10x256, .f32⟩
  | .hbm, ⟨10, _⟩ => ⟨S48x256x10, .f32⟩
  | .hbm, ⟨11, _⟩ => ⟨S48x10x10, .f32⟩
  | .hbm, ⟨12, _⟩ => ⟨S_, .f32⟩
  | .hbm, ⟨13, _⟩ => ⟨S_, .f32⟩
  | .hbm, ⟨14, _⟩ => ⟨S48x10x10, .f32⟩
  | .hbm, ⟨15, _⟩ => ⟨S48x10x10, .f32⟩
  | .hbm, ⟨16, _⟩ => ⟨S_, .f32⟩
  | .hbm, ⟨17, _⟩ => ⟨S48x10, .f32⟩
  | .hbm, ⟨18, _⟩ => ⟨S_, .f32⟩
  | .hbm, ⟨19, _⟩ => ⟨S48x10, .f32⟩
  | .hbm, ⟨20, _⟩ => ⟨S48x10, .f32⟩
  | .hbm, ⟨21, _⟩ => ⟨S48x10x1, .f32⟩
  | .hbm, ⟨22, _⟩ => ⟨S48x10x10, .f32⟩
  | .hbm, ⟨23, _⟩ => ⟨S48x10x10, .f32⟩
  | .hbm, ⟨24, _⟩ => ⟨S48x10x10, .f32⟩
  | .hbm, ⟨25, _⟩ => ⟨S_, .f32⟩
  | .hbm, ⟨26, _⟩ => ⟨S48x10, .f32⟩
  | .hbm, ⟨27, _⟩ => ⟨S48x10x1, .f32⟩
  | .hbm, ⟨28, _⟩ => ⟨S48x10x10, .f32⟩
  | .hbm, ⟨29, _⟩ => ⟨S48x10x10, .f32⟩
  | .hbm, ⟨30, _⟩ => ⟨S48x10x256, .f32⟩
  | .hbm, ⟨31, _⟩ => ⟨S480x1x256, .f32⟩
  | .hbm, ⟨32, _⟩ => ⟨S480x256x455, .f32⟩
  | .hbm, ⟨33, _⟩ => ⟨S480x1x455, .f32⟩
  | .hbm, ⟨34, _⟩ => ⟨S_, .f32⟩
  | .hbm, ⟨35, _⟩ => ⟨S_, .f32⟩
  | .hbm, ⟨36, _⟩ => ⟨S480x1x455, .f32⟩
  | .hbm, ⟨37, _⟩ => ⟨S480x1x455, .f32⟩
  | .hbm, ⟨38, _⟩ => ⟨S_, .f32⟩
  | .hbm, ⟨39, _⟩ => ⟨S480x1, .f32⟩
  | .hbm, ⟨40, _⟩ => ⟨S_, .f32⟩
  | .hbm, ⟨41, _⟩ => ⟨S480x1, .f32⟩
  | .hbm, ⟨42, _⟩ => ⟨S480x1, .f32⟩
  | .hbm, ⟨43, _⟩ => ⟨S480x1x1, .f32⟩
  | .hbm, ⟨44, _⟩ => ⟨S480x1x455, .f32⟩
  | .hbm, ⟨45, _⟩ => ⟨S480x1x455, .f32⟩
  | .hbm, ⟨46, _⟩ => ⟨S480x1x455, .f32⟩
  | .hbm, ⟨47, _⟩ => ⟨S_, .f32⟩
  | .hbm, ⟨48, _⟩ => ⟨S480x1, .f32⟩
  | .hbm, ⟨49, _⟩ => ⟨S480x1x1, .f32⟩
  | .hbm, ⟨50, _⟩ => ⟨S480x1x455, .f32⟩
  | .hbm, ⟨51, _⟩ => ⟨S480x1x455, .f32⟩
  | .hbm, ⟨52, _⟩ => ⟨S480x1x256, .f32⟩
  | .hbm, ⟨53, _⟩ => ⟨S48x10x256, .f32⟩
  | .hbm, ⟨54, _⟩ => ⟨S48x10x512, .f32⟩
  | .hbm, ⟨55, _⟩ => ⟨S48x10x256, .f32⟩
  | .hbm, ⟨56, _⟩ => ⟨S1x1x256, .f32⟩
  | .hbm, ⟨57, _⟩ => ⟨S48x10x256, .f32⟩
  | .hbm, ⟨58, _⟩ => ⟨S48x10x256, .f32⟩
  | _, _ => ⟨S48x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  pads_S48x4096x256_S48x4550x256_000_04540_000 : S48x4096x256.Pads (![0, 0, 0] : Fin 3 → Nat) ![0, 454, 0] ![0, 0, 0] S48x4550x256
  h_S_ : 0 < S_.numel
  shapeCasts_S48x4550x256_S480x455x256 : S48x4550x256.ShapeCasts S480x455x256
  reducesTo_S480x455x256_S480x256_d1 : S480x455x256.ReducesTo [1] S480x256
  shapeCasts_S480x256_S48x10x256 : S480x256.ShapeCasts S48x10x256
  transposes_S48x10x256_S48x256x10_0_2_1 : S48x10x256.Transposes [0, 2, 1] S48x256x10
  bcast_S_S48x10x10 : S_.BroadcastsInDim S48x10x10 (![] : Fin 0 → Fin S48x10x10.rank)
  reducesTo_S48x10x10_S48x10_d2 : S48x10x10.ReducesTo [2] S48x10
  bcast_S_S48x10 : S_.BroadcastsInDim S48x10 (![] : Fin 0 → Fin S48x10.rank)
  bcast_S48x10_S48x10x1_0_1 : S48x10.BroadcastsInDim S48x10x1 (![0, 1] : Fin 2 → Fin S48x10x1.rank)
  bcast_S48x10x1_S48x10x10_0_1_2 : S48x10x1.BroadcastsInDim S48x10x10 (![0, 1, 2] : Fin 3 → Fin S48x10x10.rank)
  shapeCasts_S48x10x256_S480x1x256 : S48x10x256.ShapeCasts S480x1x256
  transposes_S480x455x256_S480x256x455_0_2_1 : S480x455x256.Transposes [0, 2, 1] S480x256x455
  bcast_S_S480x1x455 : S_.BroadcastsInDim S480x1x455 (![] : Fin 0 → Fin S480x1x455.rank)
  reducesTo_S480x1x455_S480x1_d2 : S480x1x455.ReducesTo [2] S480x1
  bcast_S_S480x1 : S_.BroadcastsInDim S480x1 (![] : Fin 0 → Fin S480x1.rank)
  bcast_S480x1_S480x1x1_0_1 : S480x1.BroadcastsInDim S480x1x1 (![0, 1] : Fin 2 → Fin S480x1x1.rank)
  bcast_S480x1x1_S480x1x455_0_1_2 : S480x1x1.BroadcastsInDim S480x1x455 (![0, 1, 2] : Fin 3 → Fin S480x1x455.rank)
  shapeCasts_S480x1x256_S48x10x256 : S480x1x256.ShapeCasts S48x10x256
  concatenates_S48x10x256_S48x10x256_S48x10x512_d2 : Shape.Concatenates [S48x10x256, S48x10x256] S48x10x512 2
  bcast_S256_S1x1x256_2 : S256.BroadcastsInDim S1x1x256 (![2] : Fin 1 → Fin S1x1x256.rank)
  bcast_S1x1x256_S48x10x256_0_1_2 : S1x1x256.BroadcastsInDim S48x10x256 (![0, 1, 2] : Fin 3 → Fin S48x10x256.rank)
  dot_S48x10x256_S48x256x10_S48x10x10_2_1_1_2_0_0_wf : DotDims.WF S48x10x256 S48x256x10 S48x10x10 [2] [1] [1] [2] [0] [0]
  dot_S48x10x10_S48x10x256_S48x10x256_2_1_1_2_0_0_wf : DotDims.WF S48x10x10 S48x10x256 S48x10x256 [2] [1] [1] [2] [0] [0]
  dot_S480x1x256_S480x256x455_S480x1x455_2_1_1_2_0_0_wf : DotDims.WF S480x1x256 S480x256x455 S480x1x455 [2] [1] [1] [2] [0] [0]
  dot_S480x1x455_S480x455x256_S480x1x256_2_1_1_2_0_0_wf : DotDims.WF S480x1x455 S480x455x256 S480x1x256 [2] [1] [1] [2] [0] [0]
  dot_S48x10x512_S256x512_S48x10x256_2_1_01_0_n_n_wf : DotDims.WF S48x10x512 S256x512 S48x10x256 [2] [1] [0, 1] [0] [] []

variable [Facts₀]

def dot_S48x10x256_S48x256x10_S48x10x10_2_1_1_2_0_0 : DotDims S48x10x256 S48x256x10 S48x10x10 where
  lhsContracting := [2]
  rhsContracting := [1]
  lhsNonContracting := [1]
  rhsNonContracting := [2]
  lhsBatch := [0]
  rhsBatch := [0]
  wf := dot_S48x10x256_S48x256x10_S48x10x10_2_1_1_2_0_0_wf
def dot_S48x10x10_S48x10x256_S48x10x256_2_1_1_2_0_0 : DotDims S48x10x10 S48x10x256 S48x10x256 where
  lhsContracting := [2]
  rhsContracting := [1]
  lhsNonContracting := [1]
  rhsNonContracting := [2]
  lhsBatch := [0]
  rhsBatch := [0]
  wf := dot_S48x10x10_S48x10x256_S48x10x256_2_1_1_2_0_0_wf
def dot_S480x1x256_S480x256x455_S480x1x455_2_1_1_2_0_0 : DotDims S480x1x256 S480x256x455 S480x1x455 where
  lhsContracting := [2]
  rhsContracting := [1]
  lhsNonContracting := [1]
  rhsNonContracting := [2]
  lhsBatch := [0]
  rhsBatch := [0]
  wf := dot_S480x1x256_S480x256x455_S480x1x455_2_1_1_2_0_0_wf
def dot_S480x1x455_S480x455x256_S480x1x256_2_1_1_2_0_0 : DotDims S480x1x455 S480x455x256 S480x1x256 where
  lhsContracting := [2]
  rhsContracting := [1]
  lhsNonContracting := [1]
  rhsNonContracting := [2]
  lhsBatch := [0]
  rhsBatch := [0]
  wf := dot_S480x1x455_S480x455x256_S480x1x256_2_1_1_2_0_0_wf
def dot_S48x10x512_S256x512_S48x10x256_2_1_01_0_n_n : DotDims S48x10x512 S256x512 S48x10x256 where
  lhsContracting := [2]
  rhsContracting := [1]
  lhsNonContracting := [0, 1]
  rhsNonContracting := [0]
  lhsBatch := []
  rhsBatch := []
  wf := dot_S48x10x512_S256x512_S48x10x256_2_1_01_0_n_n_wf

class Facts : Prop extends Facts₀ where

variable [Facts]
-- ==== Proof.Spec.lean ====
/-
  The specification: what both programs compute, entry by entry, over the extended reals.

  For one batch row x_b : [4096, 256] the sequence is cut into ten chunks of 455 rows, the last chunk being the
  one remaining row followed by 454 rows of zeros ("pchunk").  Each chunk is summarized by its columnwise maximum
  ("summ").  The ten summaries attend to one another (scaled dot products, a softmax along the keys, the weighted sum of
  the summaries: "qblock"); then summary-query s attends to the 455 rows of its own chunk ("qstep").  The two results
  are laid side by side ("fused", 512 features) and mapped by the weight matrix W : [256, 512] and the bias.

  A softmax row is written the way both programs compute it: the running maximum from minus infinity, the
  exponentials of the differences, their sum, the quotients.
-/
import Idealize.ShloMosaic.Lib.ValueIdx
import Idealize.ShloMosaic.PureOps.Ideal.Laws

noncomputable section

namespace Cert.Spec

open Idealize.ShloMosaic Idealize.ShloMosaic.ValueIdx

/-- Minus infinity, as the float word both programs start a running maximum from. -/
abbrev ninf : EReal := Ideal.ofBits .f32 0xFF800000#32

/-- The scale 1/16 = 1/sqrt 256, as the float word the kernel multiplies by. -/
abbrev sixteenth : EReal := Ideal.ofBits .f32 0x3D800000#32

section Softmax

variable {L : ℕ}

/-- The maximum of a row of scores, from minus infinity. -/
def rowMax (s : Fin L → EReal) : EReal := (Finset.univ : Finset (Fin L)).fold max ninf s

/-- The exponential of a score's distance to the row's maximum. -/
def ex (s : Fin L → EReal) (j : Fin L) : EReal := Ideal.exp (s j - rowMax s)

/-- The softmax denominator of a row. -/
def den (s : Fin L → EReal) : EReal := ∑ j : Fin L, ex s j

/-- The softmax weight of key j. -/
def prob (s : Fin L → EReal) (j : Fin L) : EReal := Ideal.div (ex s j) (den s)

/-- The softmax-weighted sum of the values v. -/
def attend (s v : Fin L → EReal) : EReal := ∑ j : Fin L, prob s j * v j

end Softmax

/-- The scaled dot product of a query row and a key row over the 256 features. -/
def score (q k : Fin 256 → EReal) : EReal := (∑ d : Fin 256, q d * k d) * sixteenth

/-- Row k of chunk s of one batch row, the sequence padded with zeros past its 4096 rows. -/
def pchunk (xb : Fin 4096 → Fin 256 → EReal) (s : Fin 10) (k : Fin 455) (d : Fin 256) : EReal :=
  if h : s.val * 455 + k.val < 4096 then xb ⟨s.val * 455 + k.val, h⟩ d else 0

/-- The summary of chunk s: its columnwise maximum. -/
def summ (xb : Fin 4096 → Fin 256 → EReal) (s : Fin 10) (d : Fin 256) : EReal :=
  (Finset.univ : Finset (Fin 455)).fold max ninf (fun k => pchunk xb s k d)

/-- Block attention: summary s attends to the ten summaries. -/
def qblock (xb : Fin 4096 → Fin 256 → EReal) (s : Fin 10) (d : Fin 256) : EReal :=
  attend (fun t : Fin 10 => score (summ xb s) (summ xb t)) (fun t => summ xb t d)

/-- Step attention: the block-attention row s attends to the 455 rows of its own chunk. -/
def qstep (xb : Fin 4096 → Fin 256 → EReal) (s : Fin 10) (d : Fin 256) : EReal :=
  attend (fun k : Fin 455 => score (qblock xb s) (pchunk xb s k)) (fun k => pchunk xb s k d)

/-- The two attention results side by side: features 0…255 from the block attention, 256…511 from the step attention. -/
def fused (xb : Fin 4096 → Fin 256 → EReal) (s : Fin 10) (f : Fin 512) : EReal :=
  if h : f.val < 256 then qblock xb s ⟨f.val, h⟩ else qstep xb s ⟨f.val - 256, by have := f.isLt; omega⟩

/-- The fusion layer on one batch row: out[s, d] = Σ_f fused[s, f] · W[d, f] + bias[d]. -/
def out (xb : Fin 4096 → Fin 256 → EReal) (W : Fin 256 → Fin 512 → EReal) (bias : Fin 256 → EReal)
    (s : Fin 10) (d : Fin 256) : EReal :=
  (∑ f : Fin 512, fused xb s f * W d f) + bias d

/-- The result array as ONE function of the three argument arrays, by coordinates. -/
def Gc (x : (⟨3, ![48, 4096, 256]⟩ : Shape).Idx → EReal) (W : (⟨2, ![256, 512]⟩ : Shape).Idx → EReal)
    (b : (⟨1, ![256]⟩ : Shape).Idx → EReal) (bi : Fin 48) (s : Fin 10) (d : Fin 256) : EReal :=
  out (fun t e => x (ix3 bi t e)) (fun e f => W (ix2 e f)) (fun e => b (ix1 e)) s d

/-- The result array as ONE function of the three argument arrays. -/
def G (x : (⟨3, ![48, 4096, 256]⟩ : Shape).Idx → EReal) (W : (⟨2, ![256, 512]⟩ : Shape).Idx → EReal)
    (b : (⟨1, ![256]⟩ : Shape).Idx → EReal) : (⟨3, ![48, 10, 256]⟩ : Shape).Idx → EReal :=
  fun i => Gc x W b (i 0) (i 1) (i 2)

theorem G_ix3 (x : (⟨3, ![48, 4096, 256]⟩ : Shape).Idx → EReal) (W : (⟨2, ![256, 512]⟩ : Shape).Idx → EReal)
    (b : (⟨1, ![256]⟩ : Shape).Idx → EReal) (bi : Fin 48) (s : Fin 10) (d : Fin 256) :
    G x W b (ix3 bi s d) = Gc x W b bi s d := rfl

end Cert.Spec

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KerDots.lean ====
/-
  The kernel's matrix products read at an entry, over the extended reals.

  Each product is accumulated into zeros, so an entry is the plain sum over the contracted axis of the products of the
  operands' entries.  The four batched products treat the four batch rows of a block separately:

      query · keyᵀ   (b, m, n) ↦ Σ_k L[b, m, k] · R[b, n, k]      (scores)
      weights · values (b, m, n) ↦ Σ_k L[b, m, k] · R[b, k, n]    (weighted sums)

  and the fusion layer's product is an ordinary [40, 512] by [512, 256] one.
-/
import proofs.«103608_j19327352832046_2_alg».proof.Proof.Gen.KernelIdeal
import Idealize.ShloMosaic.PureOps.Ideal.Laws
import Idealize.ShloMosaic.Lib.ValueIdx
import proofs.«103608_j19327352832046_2_alg».proof.Proof.LibMatmulNN

noncomputable section

namespace Cert.KerSide

open Cert.KernelIdeal Cert.KernelIdeal.Gen Idealize.ShloMosaic Idealize.ShloMosaic.ValueIdx

private theorem dotSummaries_apply_l0 (i : S4x10x10.Idx) (q : dot_S4x10x256_S4x10x256_S4x10x10_2_2_1_1_0_0.contr.Idx) :
    (dot_S4x10x256_S4x10x256_S4x10x10_2_2_1_1_0_0.lhsIdx i q 0).val = (i 0).val := by
  unfold DotDims.lhsIdx
  rw [dif_pos (show (0 : Fin S4x10x256.rank) ∈ dot_S4x10x256_S4x10x256_S4x10x10_2_2_1_1_0_0.lhsBatch by decide)]
  rfl
private theorem dotSummaries_apply_l1 (i : S4x10x10.Idx) (q : dot_S4x10x256_S4x10x256_S4x10x10_2_2_1_1_0_0.contr.Idx) :
    (dot_S4x10x256_S4x10x256_S4x10x10_2_2_1_1_0_0.lhsIdx i q 1).val = (i 1).val := by
  unfold DotDims.lhsIdx
  rw [dif_neg (show ¬(1 : Fin S4x10x256.rank) ∈ dot_S4x10x256_S4x10x256_S4x10x10_2_2_1_1_0_0.lhsBatch by decide), dif_pos (show (1 : Fin S4x10x256.rank) ∈ dot_S4x10x256_S4x10x256_S4x10x10_2_2_1_1_0_0.lhsNonContracting by decide)]
  rfl
private theorem dotSummaries_apply_l2 (i : S4x10x10.Idx) (q : dot_S4x10x256_S4x10x256_S4x10x10_2_2_1_1_0_0.contr.Idx) :
    (dot_S4x10x256_S4x10x256_S4x10x10_2_2_1_1_0_0.lhsIdx i q 2).val = (q ⟨0, by decide⟩).val :=
  dot_S4x10x256_S4x10x256_S4x10x10_2_2_1_1_0_0.lhsIdx_val_of_single rfl i q
private theorem dotSummaries_apply_r0 (i : S4x10x10.Idx) (q : dot_S4x10x256_S4x10x256_S4x10x10_2_2_1_1_0_0.contr.Idx) :
    (dot_S4x10x256_S4x10x256_S4x10x10_2_2_1_1_0_0.rhsIdx i q 0).val = (i 0).val := by
  unfold DotDims.rhsIdx
  rw [dif_pos (show (0 : Fin S4x10x256.rank) ∈ dot_S4x10x256_S4x10x256_S4x10x10_2_2_1_1_0_0.rhsBatch by decide)]
  rfl
private theorem dotSummaries_apply_r1 (i : S4x10x10.Idx) (q : dot_S4x10x256_S4x10x256_S4x10x10_2_2_1_1_0_0.contr.Idx) :
    (dot_S4x10x256_S4x10x256_S4x10x10_2_2_1_1_0_0.rhsIdx i q 1).val = (i 2).val := by
  unfold DotDims.rhsIdx
  rw [dif_neg (show ¬(1 : Fin S4x10x256.rank) ∈ dot_S4x10x256_S4x10x256_S4x10x10_2_2_1_1_0_0.rhsBatch by decide), dif_pos (show (1 : Fin S4x10x256.rank) ∈ dot_S4x10x256_S4x10x256_S4x10x10_2_2_1_1_0_0.rhsNonContracting by decide)]
  rfl
private theorem dotSummaries_apply_r2 (i : S4x10x10.Idx) (q : dot_S4x10x256_S4x10x256_S4x10x10_2_2_1_1_0_0.contr.Idx) :
    (dot_S4x10x256_S4x10x256_S4x10x10_2_2_1_1_0_0.rhsIdx i q 2).val = (q ⟨0, by decide⟩).val :=
  dot_S4x10x256_S4x10x256_S4x10x10_2_2_1_1_0_0.rhsIdx_val_of_single rfl i q

/-- The scores of the block attention: summary m against summary n, summed over the 256 features. -/
theorem dotSummaries_apply (prec : Option ContractPrecision) (lhs : FVec Ideal S4x10x256 .f32) (rhs : FVec Ideal S4x10x256 .f32)
    (b : Fin 4) (m : Fin 10) (n : Fin 10) :
    matmul dot_S4x10x256_S4x10x256_S4x10x10_2_2_1_1_0_0 prec lhs rhs (constant (F := Ideal) S4x10x10 .f32 0x00000000#32) (ix3 b m n)
      = ∑ k : Fin 256, lhs (ix3 b m k) * rhs (ix3 b n k) := by
  refine (Ideal.matmul_constant_zero_apply dot_S4x10x256_S4x10x256_S4x10x10_2_2_1_1_0_0 prec lhs rhs (ix3 b m n)).trans ?_
  rw [← Equiv.sum_comp (contrEquiv1 dot_S4x10x256_S4x10x256_S4x10x10_2_2_1_1_0_0 256 rfl rfl).symm]
  refine Finset.sum_congr rfl fun k _ => ?_
  have hk := contrEquiv1_symm_val dot_S4x10x256_S4x10x256_S4x10x10_2_2_1_1_0_0 256 rfl rfl k
  have el : dot_S4x10x256_S4x10x256_S4x10x10_2_2_1_1_0_0.lhsIdx (ix3 b m n) ((contrEquiv1 dot_S4x10x256_S4x10x256_S4x10x10_2_2_1_1_0_0 256 rfl rfl).symm k) = ix3 b m k := funext fun a => Fin.ext (by
    match a with
    | ⟨0, _⟩ => exact dotSummaries_apply_l0 _ _
    | ⟨1, _⟩ => exact dotSummaries_apply_l1 _ _
    | ⟨2, _⟩ => exact (dotSummaries_apply_l2 _ _).trans hk)
  have er : dot_S4x10x256_S4x10x256_S4x10x10_2_2_1_1_0_0.rhsIdx (ix3 b m n) ((contrEquiv1 dot_S4x10x256_S4x10x256_S4x10x10_2_2_1_1_0_0 256 rfl rfl).symm k) = ix3 b n k := funext fun a => Fin.ext (by
    match a with
    | ⟨0, _⟩ => exact dotSummaries_apply_r0 _ _
    | ⟨1, _⟩ => exact dotSummaries_apply_r1 _ _
    | ⟨2, _⟩ => exact (dotSummaries_apply_r2 _ _).trans hk)
  rw [el, er]

private theorem dotBlockValues_apply_l0 (i : S4x10x256.Idx) (q : dot_S4x10x10_S4x10x256_S4x10x256_2_1_1_2_0_0.contr.Idx) :
    (dot_S4x10x10_S4x10x256_S4x10x256_2_1_1_2_0_0.lhsIdx i q 0).val = (i 0).val := by
  unfold DotDims.lhsIdx
  rw [dif_pos (show (0 : Fin S4x10x10.rank) ∈ dot_S4x10x10_S4x10x256_S4x10x256_2_1_1_2_0_0.lhsBatch by decide)]
  rfl
private theorem dotBlockValues_apply_l1 (i : S4x10x256.Idx) (q : dot_S4x10x10_S4x10x256_S4x10x256_2_1_1_2_0_0.contr.Idx) :
    (dot_S4x10x10_S4x10x256_S4x10x256_2_1_1_2_0_0.lhsIdx i q 1).val = (i 1).val := by
  unfold DotDims.lhsIdx
  rw [dif_neg (show ¬(1 : Fin S4x10x10.rank) ∈ dot_S4x10x10_S4x10x256_S4x10x256_2_1_1_2_0_0.lhsBatch by decide), dif_pos (show (1 : Fin S4x10x10.rank) ∈ dot_S4x10x10_S4x10x256_S4x10x256_2_1_1_2_0_0.lhsNonContracting by decide)]
  rfl
private theorem dotBlockValues_apply_l2 (i : S4x10x256.Idx) (q : dot_S4x10x10_S4x10x256_S4x10x256_2_1_1_2_0_0.contr.Idx) :
    (dot_S4x10x10_S4x10x256_S4x10x256_2_1_1_2_0_0.lhsIdx i q 2).val = (q ⟨0, by decide⟩).val :=
  dot_S4x10x10_S4x10x256_S4x10x256_2_1_1_2_0_0.lhsIdx_val_of_single rfl i q
private theorem dotBlockValues_apply_r0 (i : S4x10x256.Idx) (q : dot_S4x10x10_S4x10x256_S4x10x256_2_1_1_2_0_0.contr.Idx) :
    (dot_S4x10x10_S4x10x256_S4x10x256_2_1_1_2_0_0.rhsIdx i q 0).val = (i 0).val := by
  unfold DotDims.rhsIdx
  rw [dif_pos (show (0 : Fin S4x10x256.rank) ∈ dot_S4x10x10_S4x10x256_S4x10x256_2_1_1_2_0_0.rhsBatch by decide)]
  rfl
private theorem dotBlockValues_apply_r1 (i : S4x10x256.Idx) (q : dot_S4x10x10_S4x10x256_S4x10x256_2_1_1_2_0_0.contr.Idx) :
    (dot_S4x10x10_S4x10x256_S4x10x256_2_1_1_2_0_0.rhsIdx i q 1).val = (q ⟨0, by decide⟩).val :=
  dot_S4x10x10_S4x10x256_S4x10x256_2_1_1_2_0_0.rhsIdx_val_of_single rfl i q
private theorem dotBlockValues_apply_r2 (i : S4x10x256.Idx) (q : dot_S4x10x10_S4x10x256_S4x10x256_2_1_1_2_0_0.contr.Idx) :
    (dot_S4x10x10_S4x10x256_S4x10x256_2_1_1_2_0_0.rhsIdx i q 2).val = (i 2).val := by
  unfold DotDims.rhsIdx
  rw [dif_neg (show ¬(2 : Fin S4x10x256.rank) ∈ dot_S4x10x10_S4x10x256_S4x10x256_2_1_1_2_0_0.rhsBatch by decide), dif_pos (show (2 : Fin S4x10x256.rank) ∈ dot_S4x10x10_S4x10x256_S4x10x256_2_1_1_2_0_0.rhsNonContracting by decide)]
  rfl

/-- The block attention's weighted sum: the weights of row m against feature n of the ten summaries. -/
theorem dotBlockValues_apply (prec : Option ContractPrecision) (lhs : FVec Ideal S4x10x10 .f32) (rhs : FVec Ideal S4x10x256 .f32)
    (b : Fin 4) (m : Fin 10) (n : Fin 256) :
    matmul dot_S4x10x10_S4x10x256_S4x10x256_2_1_1_2_0_0 prec lhs rhs (constant (F := Ideal) S4x10x256 .f32 0x00000000#32) (ix3 b m n)
      = ∑ k : Fin 10, lhs (ix3 b m k) * rhs (ix3 b k n) := by
  refine (Ideal.matmul_constant_zero_apply dot_S4x10x10_S4x10x256_S4x10x256_2_1_1_2_0_0 prec lhs rhs (ix3 b m n)).trans ?_
  rw [← Equiv.sum_comp (contrEquiv1 dot_S4x10x10_S4x10x256_S4x10x256_2_1_1_2_0_0 10 rfl rfl).symm]
  refine Finset.sum_congr rfl fun k _ => ?_
  have hk := contrEquiv1_symm_val dot_S4x10x10_S4x10x256_S4x10x256_2_1_1_2_0_0 10 rfl rfl k
  have el : dot_S4x10x10_S4x10x256_S4x10x256_2_1_1_2_0_0.lhsIdx (ix3 b m n) ((contrEquiv1 dot_S4x10x10_S4x10x256_S4x10x256_2_1_1_2_0_0 10 rfl rfl).symm k) = ix3 b m k := funext fun a => Fin.ext (by
    match a with
    | ⟨0, _⟩ => exact dotBlockValues_apply_l0 _ _
    | ⟨1, _⟩ => exact dotBlockValues_apply_l1 _ _
    | ⟨2, _⟩ => exact (dotBlockValues_apply_l2 _ _).trans hk)
  have er : dot_S4x10x10_S4x10x256_S4x10x256_2_1_1_2_0_0.rhsIdx (ix3 b m n) ((contrEquiv1 dot_S4x10x10_S4x10x256_S4x10x256_2_1_1_2_0_0 10 rfl rfl).symm k) = ix3 b k n := funext fun a => Fin.ext (by
    match a with
    | ⟨0, _⟩ => exact dotBlockValues_apply_r0 _ _
    | ⟨1, _⟩ => exact (dotBlockValues_apply_r1 _ _).trans hk
    | ⟨2, _⟩ => exact dotBlockValues_apply_r2 _ _)
  rw [el, er]

private theorem dotChunkScores_apply_l0 (i : S4x1x455.Idx) (q : dot_S4x1x256_S4x455x256_S4x1x455_2_2_1_1_0_0.contr.Idx) :
    (dot_S4x1x256_S4x455x256_S4x1x455_2_2_1_1_0_0.lhsIdx i q 0).val = (i 0).val := by
  unfold DotDims.lhsIdx
  rw [dif_pos (show (0 : Fin S4x1x256.rank) ∈ dot_S4x1x256_S4x455x256_S4x1x455_2_2_1_1_0_0.lhsBatch by decide)]
  rfl
private theorem dotChunkScores_apply_l1 (i : S4x1x455.Idx) (q : dot_S4x1x256_S4x455x256_S4x1x455_2_2_1_1_0_0.contr.Idx) :
    (dot_S4x1x256_S4x455x256_S4x1x455_2_2_1_1_0_0.lhsIdx i q 1).val = (i 1).val := by
  unfold DotDims.lhsIdx
  rw [dif_neg (show ¬(1 : Fin S4x1x256.rank) ∈ dot_S4x1x256_S4x455x256_S4x1x455_2_2_1_1_0_0.lhsBatch by decide), dif_pos (show (1 : Fin S4x1x256.rank) ∈ dot_S4x1x256_S4x455x256_S4x1x455_2_2_1_1_0_0.lhsNonContracting by decide)]
  rfl
private theorem dotChunkScores_apply_l2 (i : S4x1x455.Idx) (q : dot_S4x1x256_S4x455x256_S4x1x455_2_2_1_1_0_0.contr.Idx) :
    (dot_S4x1x256_S4x455x256_S4x1x455_2_2_1_1_0_0.lhsIdx i q 2).val = (q ⟨0, by decide⟩).val :=
  dot_S4x1x256_S4x455x256_S4x1x455_2_2_1_1_0_0.lhsIdx_val_of_single rfl i q
private theorem dotChunkScores_apply_r0 (i : S4x1x455.Idx) (q : dot_S4x1x256_S4x455x256_S4x1x455_2_2_1_1_0_0.contr.Idx) :
    (dot_S4x1x256_S4x455x256_S4x1x455_2_2_1_1_0_0.rhsIdx i q 0).val = (i 0).val := by
  unfold DotDims.rhsIdx
  rw [dif_pos (show (0 : Fin S4x455x256.rank) ∈ dot_S4x1x256_S4x455x256_S4x1x455_2_2_1_1_0_0.rhsBatch by decide)]
  rfl
private theorem dotChunkScores_apply_r1 (i : S4x1x455.Idx) (q : dot_S4x1x256_S4x455x256_S4x1x455_2_2_1_1_0_0.contr.Idx) :
    (dot_S4x1x256_S4x455x256_S4x1x455_2_2_1_1_0_0.rhsIdx i q 1).val = (i 2).val := by
  unfold DotDims.rhsIdx
  rw [dif_neg (show ¬(1 : Fin S4x455x256.rank) ∈ dot_S4x1x256_S4x455x256_S4x1x455_2_2_1_1_0_0.rhsBatch by decide), dif_pos (show (1 : Fin S4x455x256.rank) ∈ dot_S4x1x256_S4x455x256_S4x1x455_2_2_1_1_0_0.rhsNonContracting by decide)]
  rfl
private theorem dotChunkScores_apply_r2 (i : S4x1x455.Idx) (q : dot_S4x1x256_S4x455x256_S4x1x455_2_2_1_1_0_0.contr.Idx) :
    (dot_S4x1x256_S4x455x256_S4x1x455_2_2_1_1_0_0.rhsIdx i q 2).val = (q ⟨0, by decide⟩).val :=
  dot_S4x1x256_S4x455x256_S4x1x455_2_2_1_1_0_0.rhsIdx_val_of_single rfl i q

/-- The scores of a step attention: the one query row against row n of the chunk, summed over the 256 features. -/
theorem dotChunkScores_apply (prec : Option ContractPrecision) (lhs : FVec Ideal S4x1x256 .f32) (rhs : FVec Ideal S4x455x256 .f32)
    (b : Fin 4) (m : Fin 1) (n : Fin 455) :
    matmul dot_S4x1x256_S4x455x256_S4x1x455_2_2_1_1_0_0 prec lhs rhs (constant (F := Ideal) S4x1x455 .f32 0x00000000#32) (ix3 b m n)
      = ∑ k : Fin 256, lhs (ix3 b m k) * rhs (ix3 b n k) := by
  refine (Ideal.matmul_constant_zero_apply dot_S4x1x256_S4x455x256_S4x1x455_2_2_1_1_0_0 prec lhs rhs (ix3 b m n)).trans ?_
  rw [← Equiv.sum_comp (contrEquiv1 dot_S4x1x256_S4x455x256_S4x1x455_2_2_1_1_0_0 256 rfl rfl).symm]
  refine Finset.sum_congr rfl fun k _ => ?_
  have hk := contrEquiv1_symm_val dot_S4x1x256_S4x455x256_S4x1x455_2_2_1_1_0_0 256 rfl rfl k
  have el : dot_S4x1x256_S4x455x256_S4x1x455_2_2_1_1_0_0.lhsIdx (ix3 b m n) ((contrEquiv1 dot_S4x1x256_S4x455x256_S4x1x455_2_2_1_1_0_0 256 rfl rfl).symm k) = ix3 b m k := funext fun a => Fin.ext (by
    match a with
    | ⟨0, _⟩ => exact dotChunkScores_apply_l0 _ _
    | ⟨1, _⟩ => exact dotChunkScores_apply_l1 _ _
    | ⟨2, _⟩ => exact (dotChunkScores_apply_l2 _ _).trans hk)
  have er : dot_S4x1x256_S4x455x256_S4x1x455_2_2_1_1_0_0.rhsIdx (ix3 b m n) ((contrEquiv1 dot_S4x1x256_S4x455x256_S4x1x455_2_2_1_1_0_0 256 rfl rfl).symm k) = ix3 b n k := funext fun a => Fin.ext (by
    match a with
    | ⟨0, _⟩ => exact dotChunkScores_apply_r0 _ _
    | ⟨1, _⟩ => exact dotChunkScores_apply_r1 _ _
    | ⟨2, _⟩ => exact (dotChunkScores_apply_r2 _ _).trans hk)
  rw [el, er]

private theorem dotChunkValues_apply_l0 (i : S4x1x256.Idx) (q : dot_S4x1x455_S4x455x256_S4x1x256_2_1_1_2_0_0.contr.Idx) :
    (dot_S4x1x455_S4x455x256_S4x1x256_2_1_1_2_0_0.lhsIdx i q 0).val = (i 0).val := by
  unfold DotDims.lhsIdx
  rw [dif_pos (show (0 : Fin S4x1x455.rank) ∈ dot_S4x1x455_S4x455x256_S4x1x256_2_1_1_2_0_0.lhsBatch by decide)]
  rfl
private theorem dotChunkValues_apply_l1 (i : S4x1x256.Idx) (q : dot_S4x1x455_S4x455x256_S4x1x256_2_1_1_2_0_0.contr.Idx) :
    (dot_S4x1x455_S4x455x256_S4x1x256_2_1_1_2_0_0.lhsIdx i q 1).val = (i 1).val := by
  unfold DotDims.lhsIdx
  rw [dif_neg (show ¬(1 : Fin S4x1x455.rank) ∈ dot_S4x1x455_S4x455x256_S4x1x256_2_1_1_2_0_0.lhsBatch by decide), dif_pos (show (1 : Fin S4x1x455.rank) ∈ dot_S4x1x455_S4x455x256_S4x1x256_2_1_1_2_0_0.lhsNonContracting by decide)]
  rfl
private theorem dotChunkValues_apply_l2 (i : S4x1x256.Idx) (q : dot_S4x1x455_S4x455x256_S4x1x256_2_1_1_2_0_0.contr.Idx) :
    (dot_S4x1x455_S4x455x256_S4x1x256_2_1_1_2_0_0.lhsIdx i q 2).val = (q ⟨0, by decide⟩).val :=
  dot_S4x1x455_S4x455x256_S4x1x256_2_1_1_2_0_0.lhsIdx_val_of_single rfl i q
private theorem dotChunkValues_apply_r0 (i : S4x1x256.Idx) (q : dot_S4x1x455_S4x455x256_S4x1x256_2_1_1_2_0_0.contr.Idx) :
    (dot_S4x1x455_S4x455x256_S4x1x256_2_1_1_2_0_0.rhsIdx i q 0).val = (i 0).val := by
  unfold DotDims.rhsIdx
  rw [dif_pos (show (0 : Fin S4x455x256.rank) ∈ dot_S4x1x455_S4x455x256_S4x1x256_2_1_1_2_0_0.rhsBatch by decide)]
  rfl
private theorem dotChunkValues_apply_r1 (i : S4x1x256.Idx) (q : dot_S4x1x455_S4x455x256_S4x1x256_2_1_1_2_0_0.contr.Idx) :
    (dot_S4x1x455_S4x455x256_S4x1x256_2_1_1_2_0_0.rhsIdx i q 1).val = (q ⟨0, by decide⟩).val :=
  dot_S4x1x455_S4x455x256_S4x1x256_2_1_1_2_0_0.rhsIdx_val_of_single rfl i q
private theorem dotChunkValues_apply_r2 (i : S4x1x256.Idx) (q : dot_S4x1x455_S4x455x256_S4x1x256_2_1_1_2_0_0.contr.Idx) :
    (dot_S4x1x455_S4x455x256_S4x1x256_2_1_1_2_0_0.rhsIdx i q 2).val = (i 2).val := by
  unfold DotDims.rhsIdx
  rw [dif_neg (show ¬(2 : Fin S4x455x256.rank) ∈ dot_S4x1x455_S4x455x256_S4x1x256_2_1_1_2_0_0.rhsBatch by decide), dif_pos (show (2 : Fin S4x455x256.rank) ∈ dot_S4x1x455_S4x455x256_S4x1x256_2_1_1_2_0_0.rhsNonContracting by decide)]
  rfl

/-- A step attention's weighted sum: the weights against feature n of the chunk's 455 rows. -/
theorem dotChunkValues_apply (prec : Option ContractPrecision) (lhs : FVec Ideal S4x1x455 .f32) (rhs : FVec Ideal S4x455x256 .f32)
    (b : Fin 4) (m : Fin 1) (n : Fin 256) :
    matmul dot_S4x1x455_S4x455x256_S4x1x256_2_1_1_2_0_0 prec lhs rhs (constant (F := Ideal) S4x1x256 .f32 0x00000000#32) (ix3 b m n)
      = ∑ k : Fin 455, lhs (ix3 b m k) * rhs (ix3 b k n) := by
  refine (Ideal.matmul_constant_zero_apply dot_S4x1x455_S4x455x256_S4x1x256_2_1_1_2_0_0 prec lhs rhs (ix3 b m n)).trans ?_
  rw [← Equiv.sum_comp (contrEquiv1 dot_S4x1x455_S4x455x256_S4x1x256_2_1_1_2_0_0 455 rfl rfl).symm]
  refine Finset.sum_congr rfl fun k _ => ?_
  have hk := contrEquiv1_symm_val dot_S4x1x455_S4x455x256_S4x1x256_2_1_1_2_0_0 455 rfl rfl k
  have el : dot_S4x1x455_S4x455x256_S4x1x256_2_1_1_2_0_0.lhsIdx (ix3 b m n) ((contrEquiv1 dot_S4x1x455_S4x455x256_S4x1x256_2_1_1_2_0_0 455 rfl rfl).symm k) = ix3 b m k := funext fun a => Fin.ext (by
    match a with
    | ⟨0, _⟩ => exact dotChunkValues_apply_l0 _ _
    | ⟨1, _⟩ => exact dotChunkValues_apply_l1 _ _
    | ⟨2, _⟩ => exact (dotChunkValues_apply_l2 _ _).trans hk)
  have er : dot_S4x1x455_S4x455x256_S4x1x256_2_1_1_2_0_0.rhsIdx (ix3 b m n) ((contrEquiv1 dot_S4x1x455_S4x455x256_S4x1x256_2_1_1_2_0_0 455 rfl rfl).symm k) = ix3 b k n := funext fun a => Fin.ext (by
    match a with
    | ⟨0, _⟩ => exact dotChunkValues_apply_r0 _ _
    | ⟨1, _⟩ => exact (dotChunkValues_apply_r1 _ _).trans hk
    | ⟨2, _⟩ => exact dotChunkValues_apply_r2 _ _)
  rw [el, er]

/-- The fusion layer's product: row p of the 40 fused rows against column q of the transposed weights. -/
theorem dotFusion_apply (prec : Option ContractPrecision) (lhs : FVec Ideal S40x512 .f32) (rhs : FVec Ideal S512x256 .f32)
    (p : Fin 40) (q : Fin 256) :
    matmul dot_S40x512_S512x256_S40x256_1_0_0_1_n_n prec lhs rhs (constant (F := Ideal) S40x256 .f32 0x00000000#32) (ix2 p q)
      = ∑ k : Fin 512, lhs (ix2 p k) * rhs (ix2 k q) :=
  Cert.MatmulNN.matmul_zero_apply (M := 40) (K := 512) (N := 256) dot_S40x512_S512x256_S40x256_1_0_0_1_n_n rfl prec lhs rhs p q

end Cert.KerSide

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.KerLayout.lean ====
/-
  Layout operations of the kernel body read at an entry.

  A block holds four batch rows.  Its [4, 4096, 256] input is read chunk by chunk ([4, 455, 256]); a chunk's columnwise
  maximum is a reduction over the MIDDLE axis.  Ten [4, 256] rows are stacked into a [4, 10, 256] array by giving each a
  unit middle axis and concatenating along it; row s is taken out again as a [4, 1, 256] slice.  Two [4, 10, 256]
  arrays are joined along the feature axis into [4, 10, 512].  Each lemma reads one such operation at an entry written
  by its coordinates; generic in the extents where the operation is.
-/
import Idealize.ShloMosaic.Lib.Pipeline.Value
import Idealize.ShloMosaic.Lib.ValueIdx
import Idealize.ShloMosaic.PureOps.Ideal.Laws
import proofs.«103608_j19327352832046_2_alg».proof.Proof.LibSlabLayout

noncomputable section

namespace Cert.KerLayout

open Idealize.ShloMosaic Idealize.ShloMosaic.ValueIdx

variable {α : Type} {a b c c2 : ℕ}

/-- An [a, 1, c] array viewed [a, c] reads, at (i, j), the operand at (i, 0, j). -/
theorem shapeCast_a1c_ac_apply (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_two, Shape.rowMajor_val_three]
    show (i.val * 1 + 0) * c + j.val = i.val * c + j.val
    rw [Nat.mul_one, Nat.add_zero])

/-- A [1, c] row viewed [1, 1, c] reads, at (u, v, j), the operand at (0, j). -/
theorem shapeCast_1c_11c_apply (x : (⟨2, ![1, c]⟩ : Shape).Idx → α)
    (h : (⟨2, ![1, c]⟩ : Shape).ShapeCasts ⟨3, ![1, 1, c]⟩) (u v : Fin 1) (j : Fin c) :
    shapeCast ⟨3, ![1, 1, c]⟩ x h (ix3 u v j) = x (ix2 (0 : Fin 1) j) :=
  shapeCast_apply x h _ _ (by
    have hu : u.val = 0 := by omega
    have hv : v.val = 0 := by omega
    rw [Shape.rowMajor_val_three, Shape.rowMajor_val_two]
    show 0 * c + j.val = (u.val * 1 + v.val) * c + j.val
    simp only [hu, hv, Nat.zero_mul, Nat.zero_add, Nat.mul_one, Nat.add_zero])

/-- Over the extended reals a running maximum along the MIDDLE axis of an [a, b, c] array is at (i, j) the fold of
    max, from the accumulator's value, over the entries (i, k, j). -/
theorem midMax_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.maximumf.neutral φ hφ) (i : Fin a) (j : Fin c) :
    multiReduction .maximumf [(1 : Fin 3)] ⟨2, ![a, c]⟩ src acc h hφ hacc (ix2 i j)
      = (Finset.univ : Finset (Fin b)).fold max (Ideal.ofBits φ acc) (fun k => src (ix3 i k j)) := by
  refine (Ideal.multiReduction_maximumf_single src acc h hφ hacc (ix2 i j)).trans ?_
  have e : (src ∘ h.lift (ix2 i j)) = fun k => src (ix3 i k j) :=
    funext fun k => congrArg src (Cert.SlabLayout.lift_mid h i j k)
  show (Finset.univ : Finset (Fin b)).fold max (Ideal.ofBits φ acc) (src ∘ h.lift (ix2 i j)) = _
  rw [e]
  rfl

/-- Row s of an [a, b, c] array taken out as an [a, 1, c] slice reads, at (i, u, j), the operand at (i, s, j). -/
theorem sliceRow_apply (x : (⟨3, ![a, b, c]⟩ : Shape).Idx → α) (off : Fin 3 → ℕ)
    (h : (⟨3, ![a, b, c]⟩ : Shape).Slices off ⟨3, ![a, 1, c]⟩) (s : Fin b) (hoff : off = ![0, s.val, 0])
    (i : Fin a) (u : Fin 1) (j : Fin c) :
    extractStridedSlice ⟨3, ![a, 1, c]⟩ off x h (ix3 i u j) = x (ix3 i s j) :=
  extractStridedSlice_apply off x h (ix3 i u j) (ix3 i s j) (fun ax => by
    subst hoff
    have hu : u.val = 0 := by omega
    match ax with
    | ⟨0, _⟩ => show i.val = 0 + i.val; omega
    | ⟨1, _⟩ => show s.val = s.val + u.val; omega
    | ⟨2, _⟩ => show j.val = 0 + j.val; omega)

/-- Ten [a, 1, c] rows stacked along the middle axis: row s of the result is the s-th piece. -/
theorem stack10_apply (p : Fin 10 → ((⟨3, ![a, 1, c]⟩ : Shape).Idx → α))
    (h : Shape.Concatenates [(⟨3, ![a, 1, c]⟩ : Shape), ⟨3, ![a, 1, c]⟩, ⟨3, ![a, 1, c]⟩, ⟨3, ![a, 1, c]⟩, ⟨3, ![a, 1, c]⟩,
      ⟨3, ![a, 1, c]⟩, ⟨3, ![a, 1, c]⟩, ⟨3, ![a, 1, c]⟩, ⟨3, ![a, 1, c]⟩, ⟨3, ![a, 1, c]⟩] ⟨3, ![a, 10, c]⟩ 1)
    (i : Fin a) (s : Fin 10) (j : Fin c) :
    concatenate ⟨3, ![a, 10, c]⟩ 1 [⟨⟨3, ![a, 1, c]⟩, p 0⟩, ⟨⟨3, ![a, 1, c]⟩, p 1⟩, ⟨⟨3, ![a, 1, c]⟩, p 2⟩, ⟨⟨3, ![a, 1, c]⟩, p 3⟩,
      ⟨⟨3, ![a, 1, c]⟩, p 4⟩, ⟨⟨3, ![a, 1, c]⟩, p 5⟩, ⟨⟨3, ![a, 1, c]⟩, p 6⟩, ⟨⟨3, ![a, 1, c]⟩, p 7⟩, ⟨⟨3, ![a, 1, c]⟩, p 8⟩,
      ⟨⟨3, ![a, 1, c]⟩, p 9⟩] h (ix3 i s j) = p s (ix3 i (0 : Fin 1) j) :=
  concatenate_ofFn_unit_apply (t := ⟨3, ![a, 10, c]⟩) (s₁ := ⟨3, ![a, 1, c]⟩) 1 p h rfl rfl (ix3 i s j) s rfl
    (ix3 i (0 : Fin 1) j) (fun ax hax => by
      match ax with
      | ⟨0, _⟩ => rfl
      | ⟨1, _⟩ => exact absurd rfl hax
      | ⟨2, _⟩ => rfl)

/-- Two [a, b, c] arrays joined along the last axis: a column of the first half comes from the first array. -/
theorem joinLast_left (x₁ x₂ : (⟨3, ![a, b, c]⟩ : Shape).Idx → α)
    (h : Shape.Concatenates [(⟨3, ![a, b, c]⟩ : Shape), ⟨3, ![a, b, c]⟩] ⟨3, ![a, b, c2]⟩ 2)
    (i : Fin a) (k : Fin b) (j : Fin c2) (j' : Fin c) (hj : j'.val = j.val) :
    concatenate ⟨3, ![a, b, c2]⟩ 2 [⟨⟨3, ![a, b, c]⟩, x₁⟩, ⟨⟨3, ![a, b, c]⟩, x₂⟩] h (ix3 i k j) = x₁ (ix3 i k j') :=
  concatenate_pair_apply_left 2 x₁ x₂ h (ix3 i k j) rfl (ix3 i k j') (fun ax => by
    match ax with
    | ⟨0, _⟩ => rfl
    | ⟨1, _⟩ => rfl
    | ⟨2, _⟩ => exact hj)

/-- … and a column of the second half from the second array, c columns back. -/
theorem joinLast_right (x₁ x₂ : (⟨3, ![a, b, c]⟩ : Shape).Idx → α)
    (h : Shape.Concatenates [(⟨3, ![a, b, c]⟩ : Shape), ⟨3, ![a, b, c]⟩] ⟨3, ![a, b, c2]⟩ 2)
    (i : Fin a) (k : Fin b) (j : Fin c2) (j' : Fin c) (hj : j'.val + c = j.val) :
    concatenate ⟨3, ![a, b, c2]⟩ 2 [⟨⟨3, ![a, b, c]⟩, x₁⟩, ⟨⟨3, ![a, b, c]⟩, x₂⟩] h (ix3 i k j) = x₂ (ix3 i k j') :=
  concatenate_pair_apply_right 2 x₁ x₂ h (ix3 i k j) rfl rfl (ix3 i k j') (fun ax hax => by
    match ax with
    | ⟨0, _⟩ => rfl
    | ⟨1, _⟩ => rfl
    | ⟨2, _⟩ => exact absurd rfl hax) hj

end Cert.KerLayout

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.KerSoftmax.lean ====
/-
  The kernel's softmax along the last axis of an [a, b, c] array of scores, read at an entry.

  The kernel computes the row maxima (a reduction over the last axis from minus infinity, kept as a trailing unit axis
  and spread back along the row), the exponentials of the differences, their row sums (kept and spread back the same
  way) and the quotients.  At (i, k, j) that is the specification's softmax weight of key j in the row of scores (i, k).
-/
import proofs.«103608_j19327352832046_2_alg».proof.Proof.Spec
import proofs.«103608_j19327352832046_2_alg».proof.Proof.LibLastAxis
import proofs.«103608_j19327352832046_2_alg».proof.Proof.LibSlabLayout

noncomputable section

namespace Cert.KerSoftmax

open Idealize.ShloMosaic Idealize.ShloMosaic.ValueIdx

variable {a b c : ℕ}

/-- The row maxima spread back along the rows. -/
def rowMaxSpread (sc : FVec Ideal ⟨3, ![a, b, c]⟩ .f32)
    (hR : (⟨3, ![a, b, c]⟩ : Shape).Reduces [(2 : Fin 3)] ⟨2, ![a, b]⟩)
    (hC : (⟨2, ![a, b]⟩ : Shape).ShapeCasts ⟨3, ![a, b, 1]⟩)
    (hB : (⟨3, ![a, b, 1]⟩ : Shape).Broadcasts ⟨3, ![a, b, c]⟩) (hφ : FKind.Formats FTy.f32)
    (hm : (0xFF800000#32 : BitVec FTy.f32.bits) = FKind.maximumf.neutral .f32 hφ) : FVec Ideal ⟨3, ![a, b, c]⟩ .f32 :=
  broadcastTo ⟨3, ![a, b, c]⟩
    (shapeCast ⟨3, ![a, b, 1]⟩ (multiReduction .maximumf [(2 : Fin 3)] ⟨2, ![a, b]⟩ sc 0xFF800000#32 hR hφ hm) hC) hB

/-- The exponentials of the scores' distances to their row maxima, the maxima given. -/
def expOf (sc mx : FVec Ideal ⟨3, ![a, b, c]⟩ .f32) : FVec Ideal ⟨3, ![a, b, c]⟩ .f32 := exp (subf sc mx)

/-- The quotients of the exponentials by their row sums. -/
def normalize (e : FVec Ideal ⟨3, ![a, b, c]⟩ .f32)
    (hR : (⟨3, ![a, b, c]⟩ : Shape).Reduces [(2 : Fin 3)] ⟨2, ![a, b]⟩)
    (hC : (⟨2, ![a, b]⟩ : Shape).ShapeCasts ⟨3, ![a, b, 1]⟩)
    (hB : (⟨3, ![a, b, 1]⟩ : Shape).Broadcasts ⟨3, ![a, b, c]⟩) (hφ : FKind.Formats FTy.f32)
    (ha : (0x00000000#32 : BitVec FTy.f32.bits) = FKind.add.neutral .f32 hφ) : FVec Ideal ⟨3, ![a, b, c]⟩ .f32 :=
  divf e (broadcastTo ⟨3, ![a, b, c]⟩
    (shapeCast ⟨3, ![a, b, 1]⟩ (multiReduction .add [(2 : Fin 3)] ⟨2, ![a, b]⟩ e 0x00000000#32 hR hφ ha) hC) hB)

variable (sc : FVec Ideal ⟨3, ![a, b, c]⟩ .f32)
  (hR : (⟨3, ![a, b, c]⟩ : Shape).Reduces [(2 : Fin 3)] ⟨2, ![a, b]⟩)
  (hC : (⟨2, ![a, b]⟩ : Shape).ShapeCasts ⟨3, ![a, b, 1]⟩)
  (hB : (⟨3, ![a, b, 1]⟩ : Shape).Broadcasts ⟨3, ![a, b, c]⟩)
  (hφ hφ' : FKind.Formats FTy.f32) (hm : (0xFF800000#32 : BitVec FTy.f32.bits) = FKind.maximumf.neutral .f32 hφ)
  (ha : (0x00000000#32 : BitVec FTy.f32.bits) = FKind.add.neutral .f32 hφ')

/-- Every entry of a row sees the row's maximum. -/
theorem rowMaxSpread_apply (i : Fin a) (k : Fin b) (j : Fin c) :
    rowMaxSpread sc hR hC hB hφ hm (ix3 i k j) = Cert.Spec.rowMax (fun j' : Fin c => sc (ix3 i k j')) := by
  unfold rowMaxSpread
  rw [Cert.SlabLayout.broadcastTo_ab1_abc_apply, Cert.SlabLayout.shapeCast_ab_ab1_apply, Cert.LastAxis.lastMax_apply]
  rfl

/-- The exponential at an entry. -/
theorem expOf_apply (i : Fin a) (k : Fin b) (j : Fin c) :
    expOf sc (rowMaxSpread sc hR hC hB hφ hm) (ix3 i k j) = Cert.Spec.ex (fun j' : Fin c => sc (ix3 i k j')) j := by
  show Ideal.exp (sc (ix3 i k j) - rowMaxSpread sc hR hC hB hφ hm (ix3 i k j)) = _
  rw [rowMaxSpread_apply]
  rfl

/-- The softmax weight at an entry. -/
theorem softmax_apply (i : Fin a) (k : Fin b) (j : Fin c) :
    normalize (expOf sc (rowMaxSpread sc hR hC hB hφ hm)) hR hC hB hφ' ha (ix3 i k j)
      = Cert.Spec.prob (fun j' : Fin c => sc (ix3 i k j')) j := by
  unfold normalize
  rw [divf_apply, Cert.SlabLayout.broadcastTo_ab1_abc_apply, Cert.SlabLayout.shapeCast_ab_ab1_apply,
    Cert.LastAxis.lastSum_apply, expOf_apply]
  unfold Cert.Spec.prob Cert.Spec.den
  congr 1
  exact Finset.sum_congr rfl fun j' _ => expOf_apply sc hR hC hB hφ hm i k j'

end Cert.KerSoftmax

end
-- ==== Proof.SpecLaws.lean ====
/-
  Laws of the specification over the extended reals.

  (1) Dividing by the square root of 256 is multiplying by 1/16.
  (2) The last chunk of a batch row is its last row followed by 454 rows of zeros.  Its columnwise maximum is the
      maximum of that row's entry and zero.  In the step attention of that chunk the 454 zero keys all have score zero
      and contribute nothing to the weighted sum, so with σ the scaled score of the one real row and m = max σ 0 the
      softmax denominator is exp (σ - m) + 454 · exp (0 - m) and the result is the real row scaled by
      exp (σ - m) / (exp (σ - m) + 454 · exp (0 - m)).
-/
import proofs.«103608_j19327352832046_2_alg».proof.Proof.Spec

noncomputable section

namespace Cert.Spec

open Idealize.ShloMosaic Idealize.ShloMosaic.ValueIdx

/-- Zero, as the float word both programs write it. -/
abbrev zeroW : EReal := Ideal.ofBits .f32 0x00000000#32

/-- The number of zero rows of the last chunk, as the float word the kernel multiplies by. -/
abbrev padCount : EReal := Ideal.ofBits .f32 0x43E30000#32

/-- The last row of a batch row. -/
def lastRow (xb : Fin 4096 → Fin 256 → EReal) : Fin 256 → EReal := xb ⟨4095, by norm_num⟩

/-- The float word of 256.0 denotes the real 256. -/
theorem ofBits_256 : Ideal.ofBits .f32 0x43800000#32 = ((256 : ℝ) : EReal) := by
  simp [Ideal.ofBits, Ideal.ieee, -EReal.coe_mul]; norm_num

/-- The scale word denotes the real 1/16. -/
theorem sixteenth_eq : sixteenth = ((1 / 16 : ℝ) : EReal) := by
  simp [sixteenth, Ideal.ofBits, Ideal.ieee, -EReal.coe_mul]; norm_num

/-- The word a running maximum starts from denotes minus infinity. -/
theorem ninf_eq : ninf = ⊥ := by
  simp [ninf, Ideal.ofBits, Ideal.ieee]

/-- The zero word denotes zero. -/
theorem zeroW_eq : zeroW = 0 := by
  simp [zeroW, Ideal.ofBits, Ideal.ieee]

/-- The pad-count word denotes the real 454. -/
theorem padCount_eq : padCount = ((454 : ℝ) : EReal) := by
  simp [padCount, Ideal.ofBits, Ideal.ieee, -EReal.coe_mul]; norm_num

/-- The square root of 256 is 16. -/
theorem sqrt_256 : Ideal.sqrt ((256 : ℝ) : EReal) = ((16 : ℝ) : EReal) := by
  show (if (256:ℝ) < 0 then (⊥ : EReal) else ((Real.sqrt 256 : ℝ) : EReal)) = _
  rw [if_neg (by norm_num)]
  congr 1
  rw [show (256:ℝ) = 16 ^ 2 by norm_num, Real.sqrt_sq (by norm_num)]

/-- Dividing by sqrt 256 = 16 is multiplying by 1/16, on every extended real. -/
theorem div_sqrt256 (x : EReal) : Ideal.div x (Ideal.sqrt (Ideal.ofBits .f32 0x43800000#32)) = x * sixteenth := by
  rw [ofBits_256, sqrt_256, Ideal.div_coe (by norm_num), sixteenth_eq]

/-- Inside the sequence a padded chunk's row is the sequence's row. -/
theorem pchunk_of_lt (xb : Fin 4096 → Fin 256 → EReal) (s : Fin 10) (k : Fin 455) (d : Fin 256)
    (h : s.val * 455 + k.val < 4096) : pchunk xb s k d = xb ⟨s.val * 455 + k.val, h⟩ d := by
  unfold pchunk
  rw [dif_pos h]

/-- The summary of a chunk that lies inside the sequence: the columnwise maximum of its rows. -/
theorem summ_of_lt (xb : Fin 4096 → Fin 256 → EReal) (s : Fin 10) (hs : s.val < 9) (d : Fin 256) :
    summ xb s d = (Finset.univ : Finset (Fin 455)).fold max ninf
      (fun k => xb ⟨s.val * 455 + k.val, by have := k.isLt; omega⟩ d) := by
  unfold summ
  congr 1
  funext k
  exact pchunk_of_lt xb s k d _

/-- Row 0 of the last chunk is the last row of the sequence. -/
theorem pchunk_last_zero (xb : Fin 4096 → Fin 256 → EReal) (d : Fin 256) :
    pchunk xb 9 0 d = lastRow xb d := by
  unfold pchunk lastRow
  rw [dif_pos (by decide)]
  rfl

/-- Every later row of the last chunk is a row of zeros. -/
theorem pchunk_last_succ (xb : Fin 4096 → Fin 256 → EReal) (k : Fin 455) (hk : k ≠ 0) (d : Fin 256) :
    pchunk xb 9 k d = 0 := by
  unfold pchunk
  rw [dif_neg]
  have h9 : ((9 : Fin 10) : ℕ) = 9 := rfl
  have hk' : k.val ≠ 0 := fun h => hk (Fin.ext h)
  omega

/-- The running maximum, from minus infinity, of a row that is zero off its first entry. -/
theorem fold_max_single (f : Fin 455 → EReal) (hf : ∀ k : Fin 455, k ≠ 0 → f k = 0) :
    (Finset.univ : Finset (Fin 455)).fold max ninf f = max (f 0) 0 := by
  apply le_antisymm
  · rw [Finset.fold_max_le]
    refine ⟨by rw [ninf_eq]; exact bot_le, fun k _ => ?_⟩
    by_cases hk : k = 0
    · subst hk; exact le_max_left _ _
    · rw [hf k hk]; exact le_max_right _ _
  · apply max_le
    · exact (Finset.le_fold_max _).2 (Or.inr ⟨0, Finset.mem_univ _, le_refl _⟩)
    · exact (Finset.le_fold_max _).2 (Or.inr ⟨1, Finset.mem_univ _, by rw [hf 1 (by decide)]⟩)

/-- The summary of the last chunk: the maximum of the last row's entry and zero. -/
theorem summ_last (xb : Fin 4096 → Fin 256 → EReal) (d : Fin 256) :
    summ xb 9 d = max (lastRow xb d) zeroW := by
  unfold summ
  rw [fold_max_single _ (fun k hk => pchunk_last_succ xb k hk d), pchunk_last_zero, zeroW_eq]

/-- The softmax-weighted sum of a row whose scores and values are zero off the first key: the 454 zero keys
    each add exp (0 - m) to the denominator and nothing to the weighted sum. -/
theorem attend_single (s v : Fin 455 → EReal) (hs : ∀ k : Fin 455, k ≠ 0 → s k = 0)
    (hv : ∀ k : Fin 455, k ≠ 0 → v k = 0) :
    attend s v = Ideal.div (Ideal.exp (s 0 - max (s 0) 0))
        (Ideal.exp (s 0 - max (s 0) 0) + ((454 : ℝ) : EReal) * Ideal.exp (0 - max (s 0) 0)) * v 0 := by
  have hm : rowMax s = max (s 0) 0 := fold_max_single s hs
  have hex0 : ex s 0 = Ideal.exp (s 0 - max (s 0) 0) := by unfold ex; rw [hm]
  have hexk : ∀ k : Fin 455, k ≠ 0 → ex s k = Ideal.exp (0 - max (s 0) 0) := by
    intro k hk; unfold ex; rw [hm, hs k hk]
  have hcard : ((Finset.univ : Finset (Fin 455)).erase 0).card = 454 := by
    rw [Finset.card_erase_of_mem (Finset.mem_univ _), Finset.card_univ, Fintype.card_fin]
  have hrestd : ∑ k ∈ (Finset.univ : Finset (Fin 455)).erase 0, ex s k
      = ((454 : ℝ) : EReal) * Ideal.exp (0 - max (s 0) 0) := by
    rw [Finset.sum_congr rfl (fun k hk => hexk k (Finset.ne_of_mem_erase hk)), Finset.sum_const, hcard,
      EReal.nsmul_eq_mul]
    rfl
  have hden : den s = Ideal.exp (s 0 - max (s 0) 0) + ((454 : ℝ) : EReal) * Ideal.exp (0 - max (s 0) 0) := by
    unfold den
    rw [← Finset.add_sum_erase _ _ (Finset.mem_univ (0 : Fin 455)), hex0, hrestd]
  have hrest : ∑ k ∈ (Finset.univ : Finset (Fin 455)).erase 0, prob s k * v k = 0 := by
    apply Finset.sum_eq_zero
    intro k hk
    rw [hv k (Finset.ne_of_mem_erase hk), mul_zero]
  unfold attend
  rw [← Finset.add_sum_erase _ _ (Finset.mem_univ (0 : Fin 455)), hrest, add_zero]
  unfold prob
  rw [hex0, hden]

/-- The score of the one real row of the last chunk. -/
theorem score_last_zero (xb : Fin 4096 → Fin 256 → EReal) (q : Fin 256 → EReal) :
    score q (pchunk xb 9 0) = (∑ e : Fin 256, q e * lastRow xb e) * sixteenth := by
  unfold score
  simp only [pchunk_last_zero]

/-- The score of a zero row is zero. -/
theorem score_last_succ (xb : Fin 4096 → Fin 256 → EReal) (q : Fin 256 → EReal) (k : Fin 455) (hk : k ≠ 0) :
    score q (pchunk xb 9 k) = 0 := by
  unfold score
  rw [Finset.sum_eq_zero (fun e _ => by rw [pchunk_last_succ xb k hk e, mul_zero]), zero_mul]

/-- The step attention of the last chunk in closed form, for any query row q. -/
theorem attend_last (xb : Fin 4096 → Fin 256 → EReal) (q : Fin 256 → EReal) (d : Fin 256) :
    attend (fun k : Fin 455 => score q (pchunk xb 9 k)) (fun k => pchunk xb 9 k d)
      = Ideal.div (Ideal.exp ((∑ e : Fin 256, q e * lastRow xb e) * sixteenth - max ((∑ e : Fin 256, q e * lastRow xb e) * sixteenth) zeroW))
          (Ideal.exp ((∑ e : Fin 256, q e * lastRow xb e) * sixteenth - max ((∑ e : Fin 256, q e * lastRow xb e) * sixteenth) zeroW)
            + padCount * Ideal.exp (zeroW - max ((∑ e : Fin 256, q e * lastRow xb e) * sixteenth) zeroW))
        * lastRow xb d := by
  rw [attend_single _ _ (fun k hk => score_last_succ xb q k hk) (fun k hk => pchunk_last_succ xb k hk d)]
  beta_reduce
  rw [score_last_zero, pchunk_last_zero, zeroW_eq, padCount_eq]

end Cert.Spec

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.LibFlattenRows.lean ====
/-
  Reusable lemmas: the two leading axes of an array merged into one axis of rows, and split again, read at an entry.

  A program that treats a [A, B, C] array as A·B rows of length C reshapes it to [R, C] (R = A·B) on the way in and
  reshapes its [R, C] and [R, 1] results back to [A, B, C] and [A, B] on the way out.  In row-major order row (b, m)
  is row r = b·B + m, so

      merge  [A, B, C] → [R, C]    at (r, n)     is the operand at (b, m, n),
      split  [R, C] → [A, B, C]    at (b, m, n)  is the operand at (r, n),
      split  [R, 1] → [A, B]       at (b, m)     is the operand at (r, 0),

  whenever r = b·B + m.  Generic in the extents and in the element type.
-/
import Idealize.ShloMosaic.Lib.Pipeline.Value
import Idealize.ShloMosaic.Lib.ValueIdx

noncomputable section

namespace Cert.FlattenRows

open Idealize.ShloMosaic Idealize.ShloMosaic.ValueIdx

variable {α : Type} {A B C R : ℕ}

/-- An [A, B, C] array viewed as [R, C] reads, at (r, n) with r = b·B + m, the operand at (b, m, n). -/
theorem merge_apply (x : (⟨3, ![A, B, C]⟩ : Shape).Idx → α) (h : (⟨3, ![A, B, C]⟩ : Shape).ShapeCasts ⟨2, ![R, C]⟩)
    (b : Fin A) (m : Fin B) (n : Fin C) (r : Fin R) (hr : r.val = b.val * B + m.val) :
    shapeCast ⟨2, ![R, C]⟩ x h (ix2 r n) = x (ix3 b m n) :=
  shapeCast_apply x h _ _ (by
    rw [Shape.rowMajor_val_three, Shape.rowMajor_val_two]
    show (b.val * B + m.val) * C + n.val = r.val * C + n.val
    rw [hr])

/-- An [R, C] array viewed as [A, B, C] reads, at (b, m, n), the operand at (r, n) with r = b·B + m. -/
theorem split_apply (x : (⟨2, ![R, C]⟩ : Shape).Idx → α) (h : (⟨2, ![R, C]⟩ : Shape).ShapeCasts ⟨3, ![A, B, C]⟩)
    (b : Fin A) (m : Fin B) (n : Fin C) (r : Fin R) (hr : r.val = b.val * B + m.val) :
    shapeCast ⟨3, ![A, B, C]⟩ x h (ix3 b m n) = x (ix2 r n) :=
  shapeCast_apply x h _ _ (by
    rw [Shape.rowMajor_val_three, Shape.rowMajor_val_two]
    show r.val * C + n.val = (b.val * B + m.val) * C + n.val
    rw [hr])

/-- An [R, 1] column viewed as [A, B] reads, at (b, m), the operand at (r, 0) with r = b·B + m. -/
theorem splitColumn_apply (x : (⟨2, ![R, 1]⟩ : Shape).Idx → α) (h : (⟨2, ![R, 1]⟩ : Shape).ShapeCasts ⟨2, ![A, B]⟩)
    (b : Fin A) (m : Fin B) (r : Fin R) (hr : r.val = b.val * B + m.val) :
    shapeCast ⟨2, ![A, B]⟩ x h (ix2 b m) = x (ix2 r (0 : Fin 1)) :=
  shapeCast_apply x h _ _ (by
    rw [Shape.rowMajor_val_two, Shape.rowMajor_val_two]
    show r.val * 1 + 0 = b.val * B + m.val
    rw [hr, Nat.mul_one, Nat.add_zero])

end Cert.FlattenRows

end
-- ==== Proof.KerBody.lean ====
/-
  The kernel body's stages read at an entry, each against the specification.

  For one batch row b of a block: the ten summary rows are stacked into q : [4, 10, 256]; the block attention turns q
  into qb (scaled scores of every pair of summaries, softmax along the keys, weighted sum of the summaries); the step
  attention of chunk s takes row s of qb as its one query against the chunk's 455 rows; the last chunk, one real row
  followed by zeros, is done in closed form; the ten step results are stacked, joined to qb along the features,
  flattened to 40 rows, multiplied by the transposed weights and shifted by the bias.
-/
import proofs.«103608_j19327352832046_2_alg».proof.Proof.Gen.KernelIdeal.Skeleton
import proofs.«103608_j19327352832046_2_alg».proof.Proof.KerDots
import proofs.«103608_j19327352832046_2_alg».proof.Proof.KerLayout
import proofs.«103608_j19327352832046_2_alg».proof.Proof.KerSoftmax
import proofs.«103608_j19327352832046_2_alg».proof.Proof.SpecLaws
import proofs.«103608_j19327352832046_2_alg».proof.Proof.LibKeepdimsColumn
import proofs.«103608_j19327352832046_2_alg».proof.Proof.LibSlabLayout
import proofs.«103608_j19327352832046_2_alg».proof.Proof.LibPairLayout
import proofs.«103608_j19327352832046_2_alg».proof.Proof.LibFlattenRows

noncomputable section

namespace Cert.KerSide

open Cert.KernelIdeal Cert.KernelIdeal.Gen Idealize.ShloMosaic Idealize.ShloMosaic.ValueIdx Cert.KerSoftmax

/-! ## Stacking ten rows -/

/-- Ten [4, 256] rows stacked into a [4, 10, 256] array, the way the kernel does it. -/
def stackRows (r : Fin 10 → FVec Ideal S4x256 .f32) : FVec Ideal S4x10x256 .f32 :=
  concatenate S4x10x256 1 [⟨S4x1x256, shapeCast S4x1x256 (r 0) shapeCasts_S4x256_S4x1x256⟩,
    ⟨S4x1x256, shapeCast S4x1x256 (r 1) shapeCasts_S4x256_S4x1x256⟩,
    ⟨S4x1x256, shapeCast S4x1x256 (r 2) shapeCasts_S4x256_S4x1x256⟩,
    ⟨S4x1x256, shapeCast S4x1x256 (r 3) shapeCasts_S4x256_S4x1x256⟩,
    ⟨S4x1x256, shapeCast S4x1x256 (r 4) shapeCasts_S4x256_S4x1x256⟩,
    ⟨S4x1x256, shapeCast S4x1x256 (r 5) shapeCasts_S4x256_S4x1x256⟩,
    ⟨S4x1x256, shapeCast S4x1x256 (r 6) shapeCasts_S4x256_S4x1x256⟩,
    ⟨S4x1x256, shapeCast S4x1x256 (r 7) shapeCasts_S4x256_S4x1x256⟩,
    ⟨S4x1x256, shapeCast S4x1x256 (r 8) shapeCasts_S4x256_S4x1x256⟩,
    ⟨S4x1x256, shapeCast S4x1x256 (r 9) shapeCasts_S4x256_S4x1x256⟩]
    concatenates_S4x1x256_S4x1x256_S4x1x256_S4x1x256_S4x1x256_S4x1x256_S4x1x256_S4x1x256_S4x1x256_S4x1x256_S4x10x256_d1

theorem stackRows_apply (r : Fin 10 → FVec Ideal S4x256 .f32) (b : Fin 4) (s : Fin 10) (d : Fin 256) :
    stackRows r (ix3 b s d) = r s (ix2 b d) :=
  (Cert.KerLayout.stack10_apply (a := 4) (c := 256) (fun t => shapeCast S4x1x256 (r t) shapeCasts_S4x256_S4x1x256)
    concatenates_S4x1x256_S4x1x256_S4x1x256_S4x1x256_S4x1x256_S4x1x256_S4x1x256_S4x1x256_S4x1x256_S4x1x256_S4x10x256_d1 b s d).trans
    (Cert.PairLayout.shapeCast_ac_a1c_apply (a := 4) (c := 256) (r s) shapeCasts_S4x256_S4x1x256 b 0 d)

/-! ## The block attention -/

/-- The scaled scores of every pair of summaries. -/
def blockScores (q : FVec Ideal S4x10x256 .f32) : FVec Ideal S4x10x10 .f32 :=
  mulf (matmul dot_S4x10x256_S4x10x256_S4x10x10_2_2_1_1_0_0 (some .fp32) q q (constant S4x10x10 .f32 0x00000000#32))
    (broadcast S4x10x10 (Scalar.ofBits .f32 0x3D800000#32))

theorem blockScores_apply (q : FVec Ideal S4x10x256 .f32) (b : Fin 4) (s t : Fin 10) :
    blockScores q (ix3 b s t) = Spec.score (fun e => q (ix3 b s e)) (fun e => q (ix3 b t e)) := by
  unfold blockScores
  rw [mulf_apply, dotSummaries_apply]
  rfl

/-- The block attention at an entry: summary s attends to the ten summaries. -/
theorem blockAtt_apply (q : FVec Ideal S4x10x256 .f32) (hφ hφ' : FKind.Formats FTy.f32)
    (hm : (0xFF800000#32 : BitVec FTy.f32.bits) = FKind.maximumf.neutral .f32 hφ)
    (ha : (0x00000000#32 : BitVec FTy.f32.bits) = FKind.add.neutral .f32 hφ') (b : Fin 4) (s : Fin 10) (d : Fin 256) :
    matmul dot_S4x10x10_S4x10x256_S4x10x256_2_1_1_2_0_0 (some .fp32)
        (normalize (expOf (blockScores q) (rowMaxSpread (blockScores q) reduces_S4x10x10_S4x10 shapeCasts_S4x10_S4x10x1
          broadcasts_S4x10x1_S4x10x10 hφ hm)) reduces_S4x10x10_S4x10 shapeCasts_S4x10_S4x10x1 broadcasts_S4x10x1_S4x10x10 hφ' ha)
        q (constant (F := Ideal) S4x10x256 .f32 0x00000000#32) (ix3 b s d)
      = Spec.attend (fun t : Fin 10 => Spec.score (fun e => q (ix3 b s e)) (fun e => q (ix3 b t e)))
          (fun t => q (ix3 b t d)) := by
  rw [dotBlockValues_apply]
  unfold Spec.attend
  refine Finset.sum_congr rfl fun t _ => ?_
  rw [softmax_apply (a := 4) (b := 10) (c := 10)]
  have e : (fun j' : Fin 10 => blockScores q (ix3 b s j'))
      = fun t : Fin 10 => Spec.score (fun e => q (ix3 b s e)) (fun e => q (ix3 b t e)) :=
    funext fun t => blockScores_apply q b s t
  rw [e]

/-! ## A step attention -/

/-- The scaled scores of row s of qb (taken out as a slice) against the 455 rows of a chunk. -/
def stepScores (off : Fin 3 → ℕ) (hs : S4x10x256.Slices off S4x1x256) (chunk : FVec Ideal S4x455x256 .f32)
    (qb : FVec Ideal S4x10x256 .f32) : FVec Ideal S4x1x455 .f32 :=
  mulf (matmul dot_S4x1x256_S4x455x256_S4x1x455_2_2_1_1_0_0 (some .fp32) (extractStridedSlice S4x1x256 off qb hs) chunk
      (constant S4x1x455 .f32 0x00000000#32))
    (broadcast S4x1x455 (Scalar.ofBits .f32 0x3D800000#32))

theorem stepScores_apply (off : Fin 3 → ℕ) (hs : S4x10x256.Slices off S4x1x256) (s : Fin 10) (hoff : off = ![0, s.val, 0])
    (chunk : FVec Ideal S4x455x256 .f32) (qb : FVec Ideal S4x10x256 .f32) (b : Fin 4) (u : Fin 1) (k : Fin 455) :
    stepScores off hs chunk qb (ix3 b u k)
      = Spec.score (fun e => qb (ix3 b s e)) (fun e => chunk (ix3 b k e)) := by
  unfold stepScores
  rw [mulf_apply, dotChunkScores_apply]
  have e : ∀ e : Fin 256, extractStridedSlice S4x1x256 off qb hs (ix3 b u e) = qb (ix3 b s e) := fun e =>
    Cert.KerLayout.sliceRow_apply (a := 4) (b := 10) (c := 256) qb off hs s hoff b u e
  simp only [e]
  rfl

/-- The rest of a step attention from the scores: softmax along the 455 keys, weighted sum of the chunk's rows,
    the unit query axis dropped. -/
theorem stepFinish_apply (chunk : FVec Ideal S4x455x256 .f32) (sc : FVec Ideal S4x1x455 .f32)
    (hφ hφ' : FKind.Formats FTy.f32)
    (hm : (0xFF800000#32 : BitVec FTy.f32.bits) = FKind.maximumf.neutral .f32 hφ)
    (ha : (0x00000000#32 : BitVec FTy.f32.bits) = FKind.add.neutral .f32 hφ') (b : Fin 4) (d : Fin 256) :
    shapeCast S4x256 (matmul dot_S4x1x455_S4x455x256_S4x1x256_2_1_1_2_0_0 (some .fp32)
        (normalize (expOf sc (rowMaxSpread sc reduces_S4x1x455_S4x1 shapeCasts_S4x1_S4x1x1 broadcasts_S4x1x1_S4x1x455 hφ hm))
          reduces_S4x1x455_S4x1 shapeCasts_S4x1_S4x1x1 broadcasts_S4x1x1_S4x1x455 hφ' ha)
        chunk (constant (F := Ideal) S4x1x256 .f32 0x00000000#32)) shapeCasts_S4x1x256_S4x256 (ix2 b d)
      = Spec.attend (fun k : Fin 455 => sc (ix3 b (0 : Fin 1) k)) (fun k => chunk (ix3 b k d)) := by
  rw [Cert.KerLayout.shapeCast_a1c_ac_apply (a := 4) (c := 256), dotChunkValues_apply]
  unfold Spec.attend
  refine Finset.sum_congr rfl fun k _ => ?_
  rw [softmax_apply (a := 4) (b := 1) (c := 455)]

/-- A whole step attention, the way the kernel spells it. -/
@[irreducible] def stepAtt (off : Fin 3 → ℕ) (hs : S4x10x256.Slices off S4x1x256) (chunk : FVec Ideal S4x455x256 .f32)
    (qb : FVec Ideal S4x10x256 .f32) : FVec Ideal S4x256 .f32 :=
  k0_pay16 (F := Ideal) chunk (stepScores off hs chunk qb)
    (multiReduction .maximumf [2] S4x1 (stepScores off hs chunk qb) 0xFF800000#32 reduces_S4x1x455_S4x1 (.inl rfl) rfl)

theorem stepAtt_apply (off : Fin 3 → ℕ) (hs : S4x10x256.Slices off S4x1x256) (s : Fin 10) (hoff : off = ![0, s.val, 0])
    (chunk : FVec Ideal S4x455x256 .f32) (qb : FVec Ideal S4x10x256 .f32) (b : Fin 4) (d : Fin 256) :
    stepAtt off hs chunk qb (ix2 b d)
      = Spec.attend (fun k : Fin 455 => Spec.score (fun e => qb (ix3 b s e)) (fun e => chunk (ix3 b k e)))
          (fun k => chunk (ix3 b k d)) := by
  unfold stepAtt
  refine (stepFinish_apply chunk (stepScores off hs chunk qb) (.inl rfl) (.inl rfl) rfl rfl b d).trans ?_
  have e : (fun k : Fin 455 => stepScores off hs chunk qb (ix3 b (0 : Fin 1) k))
      = fun k : Fin 455 => Spec.score (fun e => qb (ix3 b s e)) (fun e => chunk (ix3 b k e)) :=
    funext fun k => stepScores_apply off hs s hoff chunk qb b 0 k
  rw [e]

/-! ## The last chunk, in closed form -/

/-- An exponential at an entry. -/
theorem exp_at {s : Shape} {φ : FTy} (v : FVec Ideal s φ) (i : s.Idx) : exp v i = Ideal.exp (v i) := rfl

theorem lastStep_apply (rt : FVec Ideal S4x256 .f32) (qb : FVec Ideal S4x10x256 .f32) (b : Fin 4) (d : Fin 256) :
    k0_pay28 (F := Ideal) rt qb (ix2 b d)
      = Ideal.div (Ideal.exp ((∑ e : Fin 256, qb (ix3 b 9 e) * rt (ix2 b e)) * Spec.sixteenth
            - max ((∑ e : Fin 256, qb (ix3 b 9 e) * rt (ix2 b e)) * Spec.sixteenth) Spec.zeroW))
          (Ideal.exp ((∑ e : Fin 256, qb (ix3 b 9 e) * rt (ix2 b e)) * Spec.sixteenth
              - max ((∑ e : Fin 256, qb (ix3 b 9 e) * rt (ix2 b e)) * Spec.sixteenth) Spec.zeroW)
            + Spec.padCount * Ideal.exp (Spec.zeroW - max ((∑ e : Fin 256, qb (ix3 b 9 e) * rt (ix2 b e)) * Spec.sixteenth) Spec.zeroW))
        * rt (ix2 b d) := by
  -- the scaled score of the one real row, as the kernel forms it: a lane sum kept as a column
  have hσ : mulf (shapeCast S4x1 (multiReduction .add [1] S4
        (mulf (shapeCast S4x256 (extractStridedSlice S4x1x256 ![0, 9, 0] qb slices_S4x10x256_o0_9_0_S4x1x256) shapeCasts_S4x1x256_S4x256) rt)
        0x00000000#32 reduces_S4x256_S4 (.inl rfl) rfl) shapeCasts_S4_S4x1)
      (broadcast S4x1 (Scalar.ofBits (F := Ideal) .f32 0x3D800000#32)) (ix2 b (0 : Fin 1))
      = (∑ e : Fin 256, qb (ix3 b 9 e) * rt (ix2 b e)) * Spec.sixteenth := by
    rw [mulf_apply]
    refine congrArg (· * Spec.sixteenth) ?_
    refine (Cert.KeepdimsColumn.shapeCast_a_a1_apply (a := 4) _ shapeCasts_S4_S4x1 b 0).trans ?_
    refine (Cert.SlabLayout.rowSum_apply (a := 4) (b := 256) _ 0x00000000#32 reduces_S4x256_S4 (.inl rfl) rfl b).trans ?_
    refine Finset.sum_congr rfl fun e _ => ?_
    rw [mulf_apply]
    refine congrArg (· * rt (ix2 b e)) ?_
    refine (Cert.KerLayout.shapeCast_a1c_ac_apply (a := 4) (c := 256) _ shapeCasts_S4x1x256_S4x256 b e).trans ?_
    exact Cert.KerLayout.sliceRow_apply (a := 4) (b := 10) (c := 256) qb ![0, 9, 0] slices_S4x10x256_o0_9_0_S4x1x256 9 rfl b 0 e
  unfold k0_pay28
  rw [mulf_apply, Cert.KeepdimsColumn.broadcastTo_a1_ab_apply (a := 4) (b := 256), divf_apply, addf_apply, mulf_apply]
  simp only [exp_at, subf_apply, maximumf_apply, broadcast_apply, hσ]
  rfl

/-! ## The stages as named terms

  The printed body computes each stage several times over (once per use); naming the stages keeps the comparison of
  the body with the specification a comparison of small terms. -/

/-- A chunk's columnwise maximum. -/
@[irreducible] def chunkMax (c : FVec Ideal S4x455x256 .f32) : FVec Ideal S4x256 .f32 :=
  multiReduction .maximumf [1] S4x256 c 0xFF800000#32 reduces_S4x455x256_S4x256 (.inl rfl) rfl

theorem chunkMax_apply (c : FVec Ideal S4x455x256 .f32) (b : Fin 4) (d : Fin 256) :
    chunkMax c (ix2 b d) = (Finset.univ : Finset (Fin 455)).fold max Spec.ninf (fun k => c (ix3 b k d)) := by
  unfold chunkMax
  exact Cert.KerLayout.midMax_apply (a := 4) (b := 455) (c := 256) c 0xFF800000#32 reduces_S4x455x256_S4x256 _ _ b d

theorem pay2_eq (c : FVec Ideal S4x455x256 .f32) : k0_pay2 (F := Ideal) c = chunkMax c := by unfold chunkMax; rfl
theorem pay3_eq (c : FVec Ideal S4x455x256 .f32) : k0_pay3 (F := Ideal) c = chunkMax c := by unfold chunkMax; rfl
theorem pay4_eq (c : FVec Ideal S4x455x256 .f32) : k0_pay4 (F := Ideal) c = chunkMax c := by unfold chunkMax; rfl
theorem pay5_eq (c : FVec Ideal S4x455x256 .f32) : k0_pay5 (F := Ideal) c = chunkMax c := by unfold chunkMax; rfl
theorem pay6_eq (c : FVec Ideal S4x455x256 .f32) : k0_pay6 (F := Ideal) c = chunkMax c := by unfold chunkMax; rfl
theorem pay7_eq (c : FVec Ideal S4x455x256 .f32) : k0_pay7 (F := Ideal) c = chunkMax c := by unfold chunkMax; rfl
theorem pay8_eq (c : FVec Ideal S4x455x256 .f32) : k0_pay8 (F := Ideal) c = chunkMax c := by unfold chunkMax; rfl
theorem pay9_eq (c : FVec Ideal S4x455x256 .f32) : k0_pay9 (F := Ideal) c = chunkMax c := by unfold chunkMax; rfl
theorem pay10_eq (c : FVec Ideal S4x455x256 .f32) : k0_pay10 (F := Ideal) c = chunkMax c := by unfold chunkMax; rfl

/-- The last row with its unit axis dropped. -/
@[irreducible] def lastRowOf (cl : FVec Ideal S4x1x256 .f32) : FVec Ideal S4x256 .f32 :=
  shapeCast S4x256 cl shapeCasts_S4x1x256_S4x256

theorem lastRowOf_apply (cl : FVec Ideal S4x1x256 .f32) (b : Fin 4) (d : Fin 256) :
    lastRowOf cl (ix2 b d) = cl (ix3 b (0 : Fin 1) d) := by
  unfold lastRowOf
  exact Cert.KerLayout.shapeCast_a1c_ac_apply (a := 4) (c := 256) cl shapeCasts_S4x1x256_S4x256 b d

theorem pay11_eq (cl : FVec Ideal S4x1x256 .f32) : k0_pay11 (F := Ideal) cl = lastRowOf cl := by unfold lastRowOf; rfl

/-- The last chunk's summary: the maximum of the last row and zero. -/
@[irreducible] def lastMax (rt : FVec Ideal S4x256 .f32) : FVec Ideal S4x256 .f32 :=
  maximumf rt (broadcast S4x256 (Scalar.ofBits .f32 0x00000000#32))

theorem lastMax_apply (rt : FVec Ideal S4x256 .f32) (b : Fin 4) (d : Fin 256) :
    lastMax rt (ix2 b d) = max (rt (ix2 b d)) Spec.zeroW := by
  unfold lastMax
  rfl

/-- The block attention of ten summary rows. -/
@[irreducible] def blockAtt (a0 a1 a2 a3 a4 a5 a6 a7 a8 a9 : FVec Ideal S4x256 .f32) : FVec Ideal S4x10x256 .f32 :=
  matmul dot_S4x10x10_S4x10x256_S4x10x256_2_1_1_2_0_0 (some .fp32)
    (normalize (expOf (blockScores (stackRows ![a0, a1, a2, a3, a4, a5, a6, a7, a8, a9])) (rowMaxSpread (blockScores (stackRows ![a0, a1, a2, a3, a4, a5, a6, a7, a8, a9]))
      reduces_S4x10x10_S4x10 shapeCasts_S4x10_S4x10x1 broadcasts_S4x10x1_S4x10x10 (.inl rfl) rfl))
      reduces_S4x10x10_S4x10 shapeCasts_S4x10_S4x10x1 broadcasts_S4x10x1_S4x10x10 (.inl rfl) rfl)
    (stackRows ![a0, a1, a2, a3, a4, a5, a6, a7, a8, a9]) (constant S4x10x256 .f32 0x00000000#32)

theorem blockAtt_rows_apply (a0 a1 a2 a3 a4 a5 a6 a7 a8 a9 : FVec Ideal S4x256 .f32) (b : Fin 4) (s : Fin 10) (d : Fin 256) :
    blockAtt a0 a1 a2 a3 a4 a5 a6 a7 a8 a9 (ix3 b s d)
      = Spec.attend (fun t : Fin 10 => Spec.score (fun e => (![a0, a1, a2, a3, a4, a5, a6, a7, a8, a9] : Fin 10 → FVec Ideal S4x256 .f32) s (ix2 b e))
            (fun e => (![a0, a1, a2, a3, a4, a5, a6, a7, a8, a9] : Fin 10 → FVec Ideal S4x256 .f32) t (ix2 b e)))
          (fun t => (![a0, a1, a2, a3, a4, a5, a6, a7, a8, a9] : Fin 10 → FVec Ideal S4x256 .f32) t (ix2 b d)) := by
  unfold blockAtt
  refine (blockAtt_apply (stackRows ![a0, a1, a2, a3, a4, a5, a6, a7, a8, a9]) _ _ _ _ b s d).trans ?_
  simp only [stackRows_apply]

theorem pay12_eq (a0 a1 a2 a3 a4 a5 a6 a7 a8 rt : FVec Ideal S4x256 .f32) :
    k0_pay12 (F := Ideal) a0 a1 a2 a3 a4 a5 a6 a7 a8 rt = blockAtt a0 a1 a2 a3 a4 a5 a6 a7 a8 (lastMax rt) := by
  unfold blockAtt lastMax
  rfl

/-- The step attentions, as the printed body spells them, are `stepAtt` of row s of the block attention. -/
theorem pay13_eq (c : FVec Ideal S4x455x256 .f32) (a0 a1 a2 a3 a4 a5 a6 a7 a8 rt : FVec Ideal S4x256 .f32) :
    k0_pay13 (F := Ideal) c a0 a1 a2 a3 a4 a5 a6 a7 a8 rt
      = stepAtt ![0, 0, 0] slices_S4x10x256_o0_0_0_S4x1x256 c (k0_pay12 (F := Ideal) a0 a1 a2 a3 a4 a5 a6 a7 a8 rt) := by
  unfold stepAtt
  rfl

theorem pay16_eq (c : FVec Ideal S4x455x256 .f32) (a0 a1 a2 a3 a4 a5 a6 a7 a8 rt : FVec Ideal S4x256 .f32) :
    k0_pay16 (F := Ideal) c (k0_pay14 (F := Ideal) a0 c a1 a2 a3 a4 a5 a6 a7 a8 rt) (k0_pay15 (F := Ideal) a0 c a1 a2 a3 a4 a5 a6 a7 a8 rt)
      = stepAtt ![0, 1, 0] slices_S4x10x256_o0_1_0_S4x1x256 c (k0_pay12 (F := Ideal) a0 a1 a2 a3 a4 a5 a6 a7 a8 rt) := by
  unfold stepAtt
  rfl

theorem pay17_eq (c : FVec Ideal S4x455x256 .f32) (qb : FVec Ideal S4x10x256 .f32) :
    k0_pay17 (F := Ideal) c qb = stepAtt ![0, 2, 0] slices_S4x10x256_o0_2_0_S4x1x256 c qb := by
  unfold stepAtt
  rfl

theorem pay18_eq (c : FVec Ideal S4x455x256 .f32) (qb : FVec Ideal S4x10x256 .f32) :
    k0_pay18 (F := Ideal) c qb = stepAtt ![0, 3, 0] slices_S4x10x256_o0_3_0_S4x1x256 c qb := by
  unfold stepAtt
  rfl

theorem pay22_eq (c : FVec Ideal S4x455x256 .f32) (qb : FVec Ideal S4x10x256 .f32) :
    k0_pay22 (F := Ideal) c qb = stepAtt ![0, 5, 0] slices_S4x10x256_o0_5_0_S4x1x256 c qb := by
  unfold stepAtt
  rfl

theorem pay23_eq (c : FVec Ideal S4x455x256 .f32) (qb : FVec Ideal S4x10x256 .f32) :
    k0_pay23 (F := Ideal) c qb = stepAtt ![0, 6, 0] slices_S4x10x256_o0_6_0_S4x1x256 c qb := by
  unfold stepAtt
  rfl

theorem pay27_eq (c : FVec Ideal S4x455x256 .f32) (qb : FVec Ideal S4x10x256 .f32) :
    k0_pay27 (F := Ideal) c qb = stepAtt ![0, 8, 0] slices_S4x10x256_o0_8_0_S4x1x256 c qb := by
  unfold stepAtt
  rfl

theorem pay21_eq (c : FVec Ideal S4x455x256 .f32) (qb : FVec Ideal S4x10x256 .f32) :
    k0_pay21 (F := Ideal) c (k0_pay19 (F := Ideal) c qb) (k0_pay20 (F := Ideal) c qb)
      = stepAtt ![0, 4, 0] slices_S4x10x256_o0_4_0_S4x1x256 c qb := by
  unfold stepAtt
  rfl

theorem pay26_eq (c : FVec Ideal S4x455x256 .f32) (qb : FVec Ideal S4x10x256 .f32) :
    k0_pay26 (F := Ideal) c (k0_pay24 (F := Ideal) c qb) (k0_pay25 (F := Ideal) c qb)
      = stepAtt ![0, 7, 0] slices_S4x10x256_o0_7_0_S4x1x256 c qb := by
  unfold stepAtt
  rfl

/-- The closed form of the last chunk, named. -/
@[irreducible] def lastStep (rt : FVec Ideal S4x256 .f32) (qb : FVec Ideal S4x10x256 .f32) : FVec Ideal S4x256 .f32 :=
  k0_pay28 (F := Ideal) rt qb

theorem pay28_eq (rt : FVec Ideal S4x256 .f32) (qb : FVec Ideal S4x10x256 .f32) : k0_pay28 (F := Ideal) rt qb = lastStep rt qb := by
  unfold lastStep
  rfl

end Cert.KerSide

end
-- ==== Proof.KerFusion.lean ====
/-
  The fusion layer of the kernel body read at an entry.

  The block-attention rows qb : [4, 10, 256] and the ten stacked step-attention rows are joined along the features into
  [4, 10, 512], flattened to 40 rows, multiplied by the transposed weights [512, 256], reshaped back and shifted by the
  bias row.  At (b, s, d) that is Σ_f fused[f] · wT[f, d] + bias[d], fused[f] being qb[b, s, f] for f < 256 and the
  step-attention row s at f - 256 otherwise.
-/
import proofs.«103608_j19327352832046_2_alg».proof.Proof.KerBody

noncomputable section

namespace Cert.KerSide

open Cert.KernelIdeal Cert.KernelIdeal.Gen Idealize.ShloMosaic Idealize.ShloMosaic.ValueIdx

/-- The joined features of row (b, s). -/
def fusedRow (qb : FVec Ideal S4x10x256 .f32) (qs : Fin 10 → FVec Ideal S4x256 .f32) (b : Fin 4) (s : Fin 10)
    (f : Fin 512) : EReal :=
  if h : f.val < 256 then qb (ix3 b s ⟨f.val, h⟩) else qs s (ix2 b ⟨f.val - 256, by have := f.isLt; omega⟩)

/-- The kernel's joined array at (b, s, f). -/
theorem joined_apply (qb : FVec Ideal S4x10x256 .f32) (qs : Fin 10 → FVec Ideal S4x256 .f32) (b : Fin 4) (s : Fin 10)
    (f : Fin 512) :
    concatenate S4x10x512 2 [⟨S4x10x256, qb⟩, ⟨S4x10x256, stackRows qs⟩] concatenates_S4x10x256_S4x10x256_S4x10x512_d2 (ix3 b s f)
      = fusedRow qb qs b s f := by
  unfold fusedRow
  split
  · next h =>
    exact Cert.KerLayout.joinLast_left (a := 4) (b := 10) (c := 256) (c2 := 512) qb (stackRows qs)
      concatenates_S4x10x256_S4x10x256_S4x10x512_d2 b s f ⟨f.val, h⟩ rfl
  · next h =>
    refine (Cert.KerLayout.joinLast_right (a := 4) (b := 10) (c := 256) (c2 := 512) qb (stackRows qs)
      concatenates_S4x10x256_S4x10x256_S4x10x512_d2 b s f ⟨f.val - 256, by have := f.isLt; omega⟩
      (by show f.val - 256 + 256 = f.val; omega)).trans ?_
    exact stackRows_apply qs b s _

/-- The fusion layer at an entry. -/
theorem fusion_apply (qb : FVec Ideal S4x10x256 .f32) (qs : Fin 10 → FVec Ideal S4x256 .f32)
    (w : FVec Ideal S512x256 .f32) (bias : FVec Ideal S1x256 .f32) (b : Fin 4) (s : Fin 10) (d : Fin 256) :
    k0_pay1 (F := Ideal) qb (qs 3) (qs 4) (qs 5) (qs 6) (qs 7) (qs 8) (qs 9) (k0_pay29 (qs 0)) (k0_pay30 (qs 1))
        (k0_pay31 (qs 2)) w bias (ix3 b s d)
      = (∑ f : Fin 512, fusedRow qb qs b s f * w (ix2 f d)) + bias (ix2 (0 : Fin 1) d) := by
  have hk : k0_pay1 (F := Ideal) qb (qs 3) (qs 4) (qs 5) (qs 6) (qs 7) (qs 8) (qs 9) (k0_pay29 (qs 0)) (k0_pay30 (qs 1))
        (k0_pay31 (qs 2)) w bias
      = addf (shapeCast S4x10x256 (matmul dot_S40x512_S512x256_S40x256_1_0_0_1_n_n (some .fp32)
            (shapeCast S40x512 (concatenate S4x10x512 2 [⟨S4x10x256, qb⟩, ⟨S4x10x256, stackRows qs⟩]
              concatenates_S4x10x256_S4x10x256_S4x10x512_d2) shapeCasts_S4x10x512_S40x512)
            (shapeCast S512x256 w shapeCasts_S512x256_S512x256) (constant S40x256 .f32 0x00000000#32))
          shapeCasts_S40x256_S4x10x256)
        (broadcastTo S4x10x256 (shapeCast S1x1x256 (shapeCast S1x256 bias shapeCasts_S1x256_S1x256) shapeCasts_S1x256_S1x1x256)
          broadcasts_S1x1x256_S4x10x256) := rfl
  rw [hk, addf_apply]
  have hr : ((⟨b.val * 10 + s.val, by have := b.isLt; have := s.isLt; omega⟩ : Fin 40)).val = b.val * 10 + s.val := rfl
  congr 1
  · refine (Cert.FlattenRows.split_apply (A := 4) (B := 10) (C := 256) (R := 40) _ shapeCasts_S40x256_S4x10x256 b s d
      ⟨b.val * 10 + s.val, by have := b.isLt; have := s.isLt; omega⟩ hr).trans ?_
    refine (dotFusion_apply (some .fp32) _ _ _ d).trans ?_
    refine Finset.sum_congr rfl fun f _ => ?_
    rw [shapeCast_self]
    refine congrArg (· * w (ix2 f d)) ?_
    refine (Cert.FlattenRows.merge_apply (A := 4) (B := 10) (C := 512) (R := 40) _ shapeCasts_S4x10x512_S40x512 b s f
      ⟨b.val * 10 + s.val, by have := b.isLt; have := s.isLt; omega⟩ hr).trans ?_
    exact joined_apply qb qs b s f
  · refine (Cert.PairLayout.broadcastTo_11c_abc_apply (a := 4) (b := 10) (c := 256) _ broadcasts_S1x1x256_S4x10x256 b s d).trans ?_
    refine (Cert.KerLayout.shapeCast_1c_11c_apply (c := 256) _ shapeCasts_S1x256_S1x1x256 0 0 d).trans ?_
    rw [shapeCast_self]

end Cert.KerSide

end
-- ==== Proof.KerPayload.lean ====
/-
  The block the kernel body leaves, read at an entry: it is the specification's result on the block's batch rows.

  The body reads its [4, 4096, 256] input block as nine chunks of 455 rows (rows 455·i … 455·i + 454) and the last
  row 4095.  Row b of the block is one batch row x_b; every stage of the body at (b, ·) is the specification's stage on
  x_b: the summaries, the block attention, the nine step attentions and the closed form of the tenth, the fusion layer
  with the transposed weights wT[f, d] = W[d, f] and the bias row.
-/
import proofs.«103608_j19327352832046_2_alg».proof.Proof.Gen.KernelIdeal.Frame
import proofs.«103608_j19327352832046_2_alg».proof.Proof.KerFusion

noncomputable section

namespace Cert.KerSide

open Cert.KernelIdeal Cert.KernelIdeal.Gen Idealize.ShloMosaic Idealize.ShloMosaic.ValueIdx Cert.KerSoftmax

variable (x0 : Vec Ideal S4x4096x256 .f32)

/-- Batch row b of the input block, as a sequence of 4096 feature rows. -/
def batchRow (b : Fin 4) : Fin 4096 → Fin 256 → EReal := fun t e => x0 (ix3 b t e)

/-! ## The loads -/

theorem ld_chunk0 (b : Fin 4) (k : Fin 455) (e : Fin 256) :
    View.ld x0 r0_0 (ix3 b k e) = x0 (ix3 b ⟨0 + k.val, by have := k.isLt; omega⟩ e) :=
  congrArg x0 (funext fun a => Fin.ext (by
    match a with
    | ⟨0, _⟩ => show 0 + 1 * b.val = b.val; omega
    | ⟨1, _⟩ => show 0 + 1 * k.val = 0 + k.val; omega
    | ⟨2, _⟩ => show 0 + 1 * e.val = e.val; omega))

theorem ld_chunk1 (b : Fin 4) (k : Fin 455) (e : Fin 256) :
    View.ld x0 r0_1 (ix3 b k e) = x0 (ix3 b ⟨455 + k.val, by have := k.isLt; omega⟩ e) :=
  congrArg x0 (funext fun a => Fin.ext (by
    match a with
    | ⟨0, _⟩ => show 0 + 1 * b.val = b.val; omega
    | ⟨1, _⟩ => show 455 + 1 * k.val = 455 + k.val; omega
    | ⟨2, _⟩ => show 0 + 1 * e.val = e.val; omega))

theorem ld_chunk2 (b : Fin 4) (k : Fin 455) (e : Fin 256) :
    View.ld x0 r0_2 (ix3 b k e) = x0 (ix3 b ⟨910 + k.val, by have := k.isLt; omega⟩ e) :=
  congrArg x0 (funext fun a => Fin.ext (by
    match a with
    | ⟨0, _⟩ => show 0 + 1 * b.val = b.val; omega
    | ⟨1, _⟩ => show 910 + 1 * k.val = 910 + k.val; omega
    | ⟨2, _⟩ => show 0 + 1 * e.val = e.val; omega))

theorem ld_chunk3 (b : Fin 4) (k : Fin 455) (e : Fin 256) :
    View.ld x0 r0_3 (ix3 b k e) = x0 (ix3 b ⟨1365 + k.val, by have := k.isLt; omega⟩ e) :=
  congrArg x0 (funext fun a => Fin.ext (by
    match a with
    | ⟨0, _⟩ => show 0 + 1 * b.val = b.val; omega
    | ⟨1, _⟩ => show 1365 + 1 * k.val = 1365 + k.val; omega
    | ⟨2, _⟩ => show 0 + 1 * e.val = e.val; omega))

theorem ld_chunk4 (b : Fin 4) (k : Fin 455) (e : Fin 256) :
    View.ld x0 r0_4 (ix3 b k e) = x0 (ix3 b ⟨1820 + k.val, by have := k.isLt; omega⟩ e) :=
  congrArg x0 (funext fun a => Fin.ext (by
    match a with
    | ⟨0, _⟩ => show 0 + 1 * b.val = b.val; omega
    | ⟨1, _⟩ => show 1820 + 1 * k.val = 1820 + k.val; omega
    | ⟨2, _⟩ => show 0 + 1 * e.val = e.val; omega))

theorem ld_chunk5 (b : Fin 4) (k : Fin 455) (e : Fin 256) :
    View.ld x0 r0_5 (ix3 b k e) = x0 (ix3 b ⟨2275 + k.val, by have := k.isLt; omega⟩ e) :=
  congrArg x0 (funext fun a => Fin.ext (by
    match a with
    | ⟨0, _⟩ => show 0 + 1 * b.val = b.val; omega
    | ⟨1, _⟩ => show 2275 + 1 * k.val = 2275 + k.val; omega
    | ⟨2, _⟩ => show 0 + 1 * e.val = e.val; omega))

theorem ld_chunk6 (b : Fin 4) (k : Fin 455) (e : Fin 256) :
    View.ld x0 r0_6 (ix3 b k e) = x0 (ix3 b ⟨2730 + k.val, by have := k.isLt; omega⟩ e) :=
  congrArg x0 (funext fun a => Fin.ext (by
    match a with
    | ⟨0, _⟩ => show 0 + 1 * b.val = b.val; omega
    | ⟨1, _⟩ => show 2730 + 1 * k.val = 2730 + k.val; omega
    | ⟨2, _⟩ => show 0 + 1 * e.val = e.val; omega))

theorem ld_chunk7 (b : Fin 4) (k : Fin 455) (e : Fin 256) :
    View.ld x0 r0_7 (ix3 b k e) = x0 (ix3 b ⟨3185 + k.val, by have := k.isLt; omega⟩ e) :=
  congrArg x0 (funext fun a => Fin.ext (by
    match a with
    | ⟨0, _⟩ => show 0 + 1 * b.val = b.val; omega
    | ⟨1, _⟩ => show 3185 + 1 * k.val = 3185 + k.val; omega
    | ⟨2, _⟩ => show 0 + 1 * e.val = e.val; omega))

theorem ld_chunk8 (b : Fin 4) (k : Fin 455) (e : Fin 256) :
    View.ld x0 r0_8 (ix3 b k e) = x0 (ix3 b ⟨3640 + k.val, by have := k.isLt; omega⟩ e) :=
  congrArg x0 (funext fun a => Fin.ext (by
    match a with
    | ⟨0, _⟩ => show 0 + 1 * b.val = b.val; omega
    | ⟨1, _⟩ => show 3640 + 1 * k.val = 3640 + k.val; omega
    | ⟨2, _⟩ => show 0 + 1 * e.val = e.val; omega))

theorem ld_lastRow (b : Fin 4) (u : Fin 1) (e : Fin 256) :
    View.ld x0 r0_9 (ix3 b u e) = x0 (ix3 b ⟨4095, by norm_num⟩ e) :=
  congrArg x0 (funext fun a => Fin.ext (by
    have hu : u.val = 0 := by omega
    match a with
    | ⟨0, _⟩ => show 0 + 1 * b.val = b.val; omega
    | ⟨1, _⟩ => show 4095 + 1 * u.val = 4095; omega
    | ⟨2, _⟩ => show 0 + 1 * e.val = e.val; omega))

/-! ## The stages over nine chunks and the last row given as variables -/

section Stages

variable (c0 c1 c2 c3 c4 c5 c6 c7 c8 : FVec Ideal S4x455x256 .f32) (cl : FVec Ideal S4x1x256 .f32)

/-- A chunk's columnwise maximum is the specification's summary, when the chunk holds rows o … o + 454 = 455·i … of
    the batch row. -/
theorem row_of_chunk (i : Fin 10) (hi : i.val < 9) (o : ℕ) (ho : o = i.val * 455) (c : FVec Ideal S4x455x256 .f32)
    (hc : ∀ (b : Fin 4) (k : Fin 455) (e : Fin 256), c (ix3 b k e) = x0 (ix3 b ⟨o + k.val, by have := k.isLt; omega⟩ e))
    (b : Fin 4) (e : Fin 256) : chunkMax c (ix2 b e) = Spec.summ (batchRow x0 b) i e := by
  subst ho
  rw [chunkMax_apply, Spec.summ_of_lt _ i hi e]
  congr 1
  funext k
  exact hc b k e

/-- The last row's maximum with zero is the specification's summary of the last chunk. -/
theorem row_of_last (hl : ∀ (b : Fin 4) (u : Fin 1) (e : Fin 256), cl (ix3 b u e) = x0 (ix3 b ⟨4095, by norm_num⟩ e))
    (b : Fin 4) (e : Fin 256) : lastMax (lastRowOf cl) (ix2 b e) = Spec.summ (batchRow x0 b) 9 e := by
  rw [lastMax_apply, lastRowOf_apply, hl]
  exact (Spec.summ_last (batchRow x0 b) e).symm

/-- A step attention is the specification's, when the chunk holds rows 455·i … of the batch row and qb is the block
    attention. -/
theorem step_of_chunk (i : Fin 10) (hi : i.val < 9) (o : ℕ) (ho : o = i.val * 455) (c : FVec Ideal S4x455x256 .f32)
    (hc : ∀ (b : Fin 4) (k : Fin 455) (e : Fin 256), c (ix3 b k e) = x0 (ix3 b ⟨o + k.val, by have := k.isLt; omega⟩ e))
    (qb : FVec Ideal S4x10x256 .f32) (b : Fin 4)
    (hqb : ∀ (s : Fin 10) (e : Fin 256), qb (ix3 b s e) = Spec.qblock (batchRow x0 b) s e)
    (off : Fin 3 → ℕ) (hs : S4x10x256.Slices off S4x1x256) (hoff : off = ![0, i.val, 0]) (e : Fin 256) :
    stepAtt off hs c qb (ix2 b e) = Spec.qstep (batchRow x0 b) i e := by
  subst ho
  refine (stepAtt_apply off hs i hoff c qb b e).trans ?_
  unfold Spec.qstep
  have hp : ∀ (k : Fin 455) (e' : Fin 256), c (ix3 b k e') = Spec.pchunk (batchRow x0 b) i k e' := fun k e' =>
    (hc b k e').trans (Spec.pchunk_of_lt (batchRow x0 b) i k e' (by have := k.isLt; omega)).symm
  simp only [hp, hqb]

/-- The closed form of the last chunk is the specification's step attention of the last chunk. -/
theorem step_of_last (hl : ∀ (b : Fin 4) (u : Fin 1) (e : Fin 256), cl (ix3 b u e) = x0 (ix3 b ⟨4095, by norm_num⟩ e))
    (qb : FVec Ideal S4x10x256 .f32) (b : Fin 4)
    (hqb : ∀ (s : Fin 10) (e : Fin 256), qb (ix3 b s e) = Spec.qblock (batchRow x0 b) s e) (e : Fin 256) :
    lastStep (lastRowOf cl) qb (ix2 b e) = Spec.qstep (batchRow x0 b) 9 e := by
  unfold lastStep
  rw [lastStep_apply]
  have hr : ∀ e' : Fin 256, lastRowOf cl (ix2 b e') = Spec.lastRow (batchRow x0 b) e' := fun e' => by
    rw [lastRowOf_apply, hl]
    rfl
  simp only [hr, hqb]
  unfold Spec.qstep
  exact (Spec.attend_last (batchRow x0 b) (Spec.qblock (batchRow x0 b) 9) e).symm

/-- The whole body over the nine chunks and the last row: its result at (b, s, d) is the specification's result of
    batch row b, the weights read transposed and the bias read off its one row. -/
theorem body_apply (w : FVec Ideal S512x256 .f32) (bias : FVec Ideal S1x256 .f32)
    (h0 : ∀ (b : Fin 4) (k : Fin 455) (e : Fin 256), c0 (ix3 b k e) = x0 (ix3 b ⟨0 + k.val, by have := k.isLt; omega⟩ e))
    (h1 : ∀ (b : Fin 4) (k : Fin 455) (e : Fin 256), c1 (ix3 b k e) = x0 (ix3 b ⟨455 + k.val, by have := k.isLt; omega⟩ e))
    (h2 : ∀ (b : Fin 4) (k : Fin 455) (e : Fin 256), c2 (ix3 b k e) = x0 (ix3 b ⟨910 + k.val, by have := k.isLt; omega⟩ e))
    (h3 : ∀ (b : Fin 4) (k : Fin 455) (e : Fin 256), c3 (ix3 b k e) = x0 (ix3 b ⟨1365 + k.val, by have := k.isLt; omega⟩ e))
    (h4 : ∀ (b : Fin 4) (k : Fin 455) (e : Fin 256), c4 (ix3 b k e) = x0 (ix3 b ⟨1820 + k.val, by have := k.isLt; omega⟩ e))
    (h5 : ∀ (b : Fin 4) (k : Fin 455) (e : Fin 256), c5 (ix3 b k e) = x0 (ix3 b ⟨2275 + k.val, by have := k.isLt; omega⟩ e))
    (h6 : ∀ (b : Fin 4) (k : Fin 455) (e : Fin 256), c6 (ix3 b k e) = x0 (ix3 b ⟨2730 + k.val, by have := k.isLt; omega⟩ e))
    (h7 : ∀ (b : Fin 4) (k : Fin 455) (e : Fin 256), c7 (ix3 b k e) = x0 (ix3 b ⟨3185 + k.val, by have := k.isLt; omega⟩ e))
    (h8 : ∀ (b : Fin 4) (k : Fin 455) (e : Fin 256), c8 (ix3 b k e) = x0 (ix3 b ⟨3640 + k.val, by have := k.isLt; omega⟩ e))
    (hl : ∀ (b : Fin 4) (u : Fin 1) (e : Fin 256), cl (ix3 b u e) = x0 (ix3 b ⟨4095, by norm_num⟩ e))
    (b : Fin 4) (s : Fin 10) (d : Fin 256) :
    k0_pay1 (F := Ideal) (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl)) (k0_pay18 (F := Ideal) c3 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay21 (F := Ideal) c4 (k0_pay19 (F := Ideal) c4 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay20 (F := Ideal) c4 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl)))) (k0_pay22 (F := Ideal) c5 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay23 (F := Ideal) c6 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay26 (F := Ideal) c7 (k0_pay24 (F := Ideal) c7 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay25 (F := Ideal) c7 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl)))) (k0_pay27 (F := Ideal) c8 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay28 (F := Ideal) (k0_pay11 (F := Ideal) cl) (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay29 (k0_pay13 (F := Ideal) c0 (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl))) (k0_pay30 (k0_pay16 (F := Ideal) c1 (k0_pay14 (F := Ideal) (k0_pay2 (F := Ideal) c0) c1 (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl)) (k0_pay15 (F := Ideal) (k0_pay2 (F := Ideal) c0) c1 (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl)))) (k0_pay31 (k0_pay17 (F := Ideal) c2 (k0_pay12 (F := Ideal) (k0_pay2 (F := Ideal) c0) (k0_pay3 (F := Ideal) c1) (k0_pay4 (F := Ideal) c2) (k0_pay5 (F := Ideal) c3) (k0_pay6 (F := Ideal) c4) (k0_pay7 (F := Ideal) c5) (k0_pay8 (F := Ideal) c6) (k0_pay9 (F := Ideal) c7) (k0_pay10 (F := Ideal) c8) (k0_pay11 (F := Ideal) cl)))) w bias (ix3 b s d)
      = Spec.out (batchRow x0 b) (fun e f => w (ix2 f e)) (fun e => bias (ix2 (0 : Fin 1) e)) s d := by
  -- the printed stages, named
  simp only [pay13_eq, pay16_eq, pay17_eq, pay18_eq, pay21_eq, pay22_eq, pay23_eq, pay26_eq, pay27_eq, pay28_eq]
  simp only [pay2_eq, pay3_eq, pay4_eq, pay5_eq, pay6_eq, pay7_eq, pay8_eq, pay9_eq, pay10_eq, pay11_eq, pay12_eq]
  -- the ten summary rows
  have hrow : ∀ (t : Fin 10) (e : Fin 256),
      (![chunkMax c0, chunkMax c1, chunkMax c2, chunkMax c3, chunkMax c4, chunkMax c5, chunkMax c6, chunkMax c7, chunkMax c8, lastMax (lastRowOf cl)] : Fin 10 → FVec Ideal S4x256 .f32) t (ix2 b e)
        = Spec.summ (batchRow x0 b) t e := fun t e => by
    match t with
    | ⟨0, _⟩ => exact row_of_chunk x0 0 (by decide) 0 rfl c0 h0 b e
    | ⟨1, _⟩ => exact row_of_chunk x0 1 (by decide) 455 rfl c1 h1 b e
    | ⟨2, _⟩ => exact row_of_chunk x0 2 (by decide) 910 rfl c2 h2 b e
    | ⟨3, _⟩ => exact row_of_chunk x0 3 (by decide) 1365 rfl c3 h3 b e
    | ⟨4, _⟩ => exact row_of_chunk x0 4 (by decide) 1820 rfl c4 h4 b e
    | ⟨5, _⟩ => exact row_of_chunk x0 5 (by decide) 2275 rfl c5 h5 b e
    | ⟨6, _⟩ => exact row_of_chunk x0 6 (by decide) 2730 rfl c6 h6 b e
    | ⟨7, _⟩ => exact row_of_chunk x0 7 (by decide) 3185 rfl c7 h7 b e
    | ⟨8, _⟩ => exact row_of_chunk x0 8 (by decide) 3640 rfl c8 h8 b e
    | ⟨9, _⟩ => exact row_of_last x0 cl hl b e
  -- the block attention
  have hqb : ∀ (t : Fin 10) (e : Fin 256), (blockAtt (chunkMax c0) (chunkMax c1) (chunkMax c2) (chunkMax c3) (chunkMax c4) (chunkMax c5) (chunkMax c6) (chunkMax c7) (chunkMax c8) (lastMax (lastRowOf cl))) (ix3 b t e) = Spec.qblock (batchRow x0 b) t e := fun t e => by
    rw [blockAtt_rows_apply]
    unfold Spec.qblock
    simp only [hrow]
  -- the ten step-attention rows
  have hqs : ∀ (t : Fin 10) (e : Fin 256),
      (![stepAtt ![0, 0, 0] slices_S4x10x256_o0_0_0_S4x1x256 c0 (blockAtt (chunkMax c0) (chunkMax c1) (chunkMax c2) (chunkMax c3) (chunkMax c4) (chunkMax c5) (chunkMax c6) (chunkMax c7) (chunkMax c8) (lastMax (lastRowOf cl))),
        stepAtt ![0, 1, 0] slices_S4x10x256_o0_1_0_S4x1x256 c1 (blockAtt (chunkMax c0) (chunkMax c1) (chunkMax c2) (chunkMax c3) (chunkMax c4) (chunkMax c5) (chunkMax c6) (chunkMax c7) (chunkMax c8) (lastMax (lastRowOf cl))),
        stepAtt ![0, 2, 0] slices_S4x10x256_o0_2_0_S4x1x256 c2 (blockAtt (chunkMax c0) (chunkMax c1) (chunkMax c2) (chunkMax c3) (chunkMax c4) (chunkMax c5) (chunkMax c6) (chunkMax c7) (chunkMax c8) (lastMax (lastRowOf cl))),
        stepAtt ![0, 3, 0] slices_S4x10x256_o0_3_0_S4x1x256 c3 (blockAtt (chunkMax c0) (chunkMax c1) (chunkMax c2) (chunkMax c3) (chunkMax c4) (chunkMax c5) (chunkMax c6) (chunkMax c7) (chunkMax c8) (lastMax (lastRowOf cl))),
        stepAtt ![0, 4, 0] slices_S4x10x256_o0_4_0_S4x1x256 c4 (blockAtt (chunkMax c0) (chunkMax c1) (chunkMax c2) (chunkMax c3) (chunkMax c4) (chunkMax c5) (chunkMax c6) (chunkMax c7) (chunkMax c8) (lastMax (lastRowOf cl))),
        stepAtt ![0, 5, 0] slices_S4x10x256_o0_5_0_S4x1x256 c5 (blockAtt (chunkMax c0) (chunkMax c1) (chunkMax c2) (chunkMax c3) (chunkMax c4) (chunkMax c5) (chunkMax c6) (chunkMax c7) (chunkMax c8) (lastMax (lastRowOf cl))),
        stepAtt ![0, 6, 0] slices_S4x10x256_o0_6_0_S4x1x256 c6 (blockAtt (chunkMax c0) (chunkMax c1) (chunkMax c2) (chunkMax c3) (chunkMax c4) (chunkMax c5) (chunkMax c6) (chunkMax c7) (chunkMax c8) (lastMax (lastRowOf cl))),
        stepAtt ![0, 7, 0] slices_S4x10x256_o0_7_0_S4x1x256 c7 (blockAtt (chunkMax c0) (chunkMax c1) (chunkMax c2) (chunkMax c3) (chunkMax c4) (chunkMax c5) (chunkMax c6) (chunkMax c7) (chunkMax c8) (lastMax (lastRowOf cl))),
        stepAtt ![0, 8, 0] slices_S4x10x256_o0_8_0_S4x1x256 c8 (blockAtt (chunkMax c0) (chunkMax c1) (chunkMax c2) (chunkMax c3) (chunkMax c4) (chunkMax c5) (chunkMax c6) (chunkMax c7) (chunkMax c8) (lastMax (lastRowOf cl))),
        lastStep (lastRowOf cl) (blockAtt (chunkMax c0) (chunkMax c1) (chunkMax c2) (chunkMax c3) (chunkMax c4) (chunkMax c5) (chunkMax c6) (chunkMax c7) (chunkMax c8) (lastMax (lastRowOf cl)))] : Fin 10 → FVec Ideal S4x256 .f32) t (ix2 b e)
        = Spec.qstep (batchRow x0 b) t e := fun t e => by
    match t with
    | ⟨0, _⟩ => exact step_of_chunk x0 0 (by decide) 0 rfl c0 h0 _ b hqb ![0, 0, 0] slices_S4x10x256_o0_0_0_S4x1x256 rfl e
    | ⟨1, _⟩ => exact step_of_chunk x0 1 (by decide) 455 rfl c1 h1 _ b hqb ![0, 1, 0] slices_S4x10x256_o0_1_0_S4x1x256 rfl e
    | ⟨2, _⟩ => exact step_of_chunk x0 2 (by decide) 910 rfl c2 h2 _ b hqb ![0, 2, 0] slices_S4x10x256_o0_2_0_S4x1x256 rfl e
    | ⟨3, _⟩ => exact step_of_chunk x0 3 (by decide) 1365 rfl c3 h3 _ b hqb ![0, 3, 0] slices_S4x10x256_o0_3_0_S4x1x256 rfl e
    | ⟨4, _⟩ => exact step_of_chunk x0 4 (by decide) 1820 rfl c4 h4 _ b hqb ![0, 4, 0] slices_S4x10x256_o0_4_0_S4x1x256 rfl e
    | ⟨5, _⟩ => exact step_of_chunk x0 5 (by decide) 2275 rfl c5 h5 _ b hqb ![0, 5, 0] slices_S4x10x256_o0_5_0_S4x1x256 rfl e
    | ⟨6, _⟩ => exact step_of_chunk x0 6 (by decide) 2730 rfl c6 h6 _ b hqb ![0, 6, 0] slices_S4x10x256_o0_6_0_S4x1x256 rfl e
    | ⟨7, _⟩ => exact step_of_chunk x0 7 (by decide) 3185 rfl c7 h7 _ b hqb ![0, 7, 0] slices_S4x10x256_o0_7_0_S4x1x256 rfl e
    | ⟨8, _⟩ => exact step_of_chunk x0 8 (by decide) 3640 rfl c8 h8 _ b hqb ![0, 8, 0] slices_S4x10x256_o0_8_0_S4x1x256 rfl e
    | ⟨9, _⟩ => exact step_of_last x0 cl hl _ b hqb e
  refine (fusion_apply (blockAtt (chunkMax c0) (chunkMax c1) (chunkMax c2) (chunkMax c3) (chunkMax c4) (chunkMax c5) (chunkMax c6) (chunkMax c7) (chunkMax c8) (lastMax (lastRowOf cl)))
    ![stepAtt ![0, 0, 0] slices_S4x10x256_o0_0_0_S4x1x256 c0 (blockAtt (chunkMax c0) (chunkMax c1) (chunkMax c2) (chunkMax c3) (chunkMax c4) (chunkMax c5) (chunkMax c6) (chunkMax c7) (chunkMax c8) (lastMax (lastRowOf cl))),
      stepAtt ![0, 1, 0] slices_S4x10x256_o0_1_0_S4x1x256 c1 (blockAtt (chunkMax c0) (chunkMax c1) (chunkMax c2) (chunkMax c3) (chunkMax c4) (chunkMax c5) (chunkMax c6) (chunkMax c7) (chunkMax c8) (lastMax (lastRowOf cl))),
      stepAtt ![0, 2, 0] slices_S4x10x256_o0_2_0_S4x1x256 c2 (blockAtt (chunkMax c0) (chunkMax c1) (chunkMax c2) (chunkMax c3) (chunkMax c4) (chunkMax c5) (chunkMax c6) (chunkMax c7) (chunkMax c8) (lastMax (lastRowOf cl))),
      stepAtt ![0, 3, 0] slices_S4x10x256_o0_3_0_S4x1x256 c3 (blockAtt (chunkMax c0) (chunkMax c1) (chunkMax c2) (chunkMax c3) (chunkMax c4) (chunkMax c5) (chunkMax c6) (chunkMax c7) (chunkMax c8) (lastMax (lastRowOf cl))),
      stepAtt ![0, 4, 0] slices_S4x10x256_o0_4_0_S4x1x256 c4 (blockAtt (chunkMax c0) (chunkMax c1) (chunkMax c2) (chunkMax c3) (chunkMax c4) (chunkMax c5) (chunkMax c6) (chunkMax c7) (chunkMax c8) (lastMax (lastRowOf cl))),
      stepAtt ![0, 5, 0] slices_S4x10x256_o0_5_0_S4x1x256 c5 (blockAtt (chunkMax c0) (chunkMax c1) (chunkMax c2) (chunkMax c3) (chunkMax c4) (chunkMax c5) (chunkMax c6) (chunkMax c7) (chunkMax c8) (lastMax (lastRowOf cl))),
      stepAtt ![0, 6, 0] slices_S4x10x256_o0_6_0_S4x1x256 c6 (blockAtt (chunkMax c0) (chunkMax c1) (chunkMax c2) (chunkMax c3) (chunkMax c4) (chunkMax c5) (chunkMax c6) (chunkMax c7) (chunkMax c8) (lastMax (lastRowOf cl))),
      stepAtt ![0, 7, 0] slices_S4x10x256_o0_7_0_S4x1x256 c7 (blockAtt (chunkMax c0) (chunkMax c1) (chunkMax c2) (chunkMax c3) (chunkMax c4) (chunkMax c5) (chunkMax c6) (chunkMax c7) (chunkMax c8) (lastMax (lastRowOf cl))),
      stepAtt ![0, 8, 0] slices_S4x10x256_o0_8_0_S4x1x256 c8 (blockAtt (chunkMax c0) (chunkMax c1) (chunkMax c2) (chunkMax c3) (chunkMax c4) (chunkMax c5) (chunkMax c6) (chunkMax c7) (chunkMax c8) (lastMax (lastRowOf cl))),
      lastStep (lastRowOf cl) (blockAtt (chunkMax c0) (chunkMax c1) (chunkMax c2) (chunkMax c3) (chunkMax c4) (chunkMax c5) (chunkMax c6) (chunkMax c7) (chunkMax c8) (lastMax (lastRowOf cl)))] w bias b s d).trans ?_
  unfold Spec.out
  congr 1
  refine Finset.sum_congr rfl fun f _ => ?_
  congr 1
  unfold fusedRow Spec.fused
  split
  · exact hqb s _
  · exact hqs s _

end Stages

/-! ## The whole body on the loads -/

/-- The block the body leaves at (b, s, d) is the specification's result of batch row b. -/
theorem out0_3_apply (x1 : Vec Ideal S512x256 .f32) (x2 : Vec Ideal S1x256 .f32) (b : Fin 4) (s : Fin 10) (d : Fin 256) :
    out0_3 (F := Ideal) x0 x1 x2 (ix3 b s d)
      = Spec.out (batchRow x0 b) (fun e f => x1 (ix2 f e)) (fun e => x2 (ix2 (0 : Fin 1) e)) s d := by
  have hz : (![0, 0, 0] : Fin 3 → ℕ) = fun _ => 0 := by
    funext a; match a with | ⟨0, _⟩ => rfl | ⟨1, _⟩ => rfl | ⟨2, _⟩ => rfl
  have hz2 : (![0, 0] : Fin 2 → ℕ) = fun _ => 0 := by
    funext a; match a with | ⟨0, _⟩ => rfl | ⟨1, _⟩ => rfl
  unfold out0_3
  rw [View.canon_unit_zero hz, View.ld_unit_zero (S := S512x256) hz2, View.ld_unit_zero (S := S1x256) hz2]
  exact body_apply x0 (View.ld x0 r0_0) (View.ld x0 r0_1) (View.ld x0 r0_2) (View.ld x0 r0_3) (View.ld x0 r0_4)
    (View.ld x0 r0_5) (View.ld x0 r0_6) (View.ld x0 r0_7) (View.ld x0 r0_8) (View.ld x0 r0_9) x1 x2
    (ld_chunk0 x0) (ld_chunk1 x0) (ld_chunk2 x0) (ld_chunk3 x0) (ld_chunk4 x0) (ld_chunk5 x0) (ld_chunk6 x0)
    (ld_chunk7 x0) (ld_chunk8 x0) (ld_lastRow x0) b s d

end Cert.KerSide

end
-- ==== Proof.KerValue.lean ====
/-
  From the kernel's blocks to its result array.

  The kernel runs over a grid of 12 points.  Point t stages block t of the sequence array (4 batch rows, whole), the whole
  transposed weight matrix and the whole bias row, and writes back block t of the result array (4 batch rows, whole).
  The body's result for a block is the specification's fusion-layer output of each of its 4 batch rows; a batch row of
  block t is batch row 4·t + b of the sequence array, so each point writes back its block of the specification's
  result array, and the 12 blocks cover that array.
-/
import proofs.«103608_j19327352832046_2_alg».proof.Proof.Gen.KernelIdeal.Value
import proofs.«103608_j19327352832046_2_alg».proof.Proof.Spec
import proofs.«103608_j19327352832046_2_alg».proof.Proof.KerPayload
import Idealize.ShloMosaic.Lib.StableHlo.Run
import Idealize.ShloMosaic.Lib.Pipeline.Value
import Idealize.ShloMosaic.Lib.ValueIdx

noncomputable section

namespace Cert.KerSide

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two host operations before the region -/

/-- The region finds the weight matrix transposed. -/
theorem V_v1 (c : Dev nD) :
    (V m c main_v1 : S512x256.Idx → EReal)
      = transpose S512x256 [1, 0] (m ((c : Thread nD τ).loc main_arg1)) transposes_S256x512_S512x256_1_0 := by
  dsimp only [Gen.V, Gen.hostOps0]; after_results

/-- The region finds the bias as one row. -/
theorem V_v0 (c : Dev nD) :
    (V m c main_v0 : S1x256.Idx → EReal) = shapeCast S1x256 (m ((c : Thread nD τ).loc main_arg2)) shapeCasts_S256_S1x256 := by
  dsimp only [Gen.V, Gen.hostOps0]; after_results; rfl

/-- The transposed weight matrix at (f, e) is the weight matrix at (e, f). -/
theorem wT_apply {α : Type} (W : S256x512.Idx → α) (f : Fin 512) (e : Fin 256) :
    transpose S512x256 [1, 0] W transposes_S256x512_S512x256_1_0 (ix2 f e) = W (ix2 e f) :=
  transpose_apply [1, 0] W transposes_S256x512_S512x256_1_0 (ix2 f e) (ix2 e f)
    (fun b => match b with | ⟨0, _⟩ => rfl | ⟨1, _⟩ => rfl)

/-- The bias row at (0, e) is the bias at e. -/
theorem biasRow_apply {α : Type} (b : S256.Idx → α) (u : Fin 1) (e : Fin 256) :
    shapeCast S1x256 b shapeCasts_S256_S1x256 (ix2 u e) = b (ix1 e) :=
  shapeCast_apply b shapeCasts_S256_S1x256 (ix2 u e) (ix1 e) (by
    rw [Shape.rowMajor_val_one, Shape.rowMajor_val_two]
    show e.val = u.val * 256 + e.val
    have := u.isLt; omega)

/-! ## The index maps, decided over the grid -/

/-- The sequence window moves with the result window along the batch axis and is whole along the others; the weight and
    bias windows do not move; the result window is whole along its last two axes. -/
theorem idx_facts : ∀ t : Fin cfg0.N, win0_0.index t (0 : Fin 3) = win0_3.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0
    ∧ win0_3.index t (0 : Fin 3) ≤ 11 :=
  (by decide +kernel : ∀ t : Fin grid0.N, _)

/-- Every block of the result array is some point's. -/
theorem idx_onto : ∀ q : Fin 12, ∃ t : Fin cfg0.N, win0_3.index t = ![q.val, 0, 0] :=
  (by decide +kernel : ∀ q : Fin 12, ∃ t : Fin grid0.N, win0_3.index t = ![q.val, 0, 0])

/-! ## What a point writes back -/

/-- The body's result at any index of its block, by the index's coordinates. -/
theorem out_at (x0 : Vec Ideal S4x4096x256 .f32) (x1 : Vec Ideal S512x256 .f32) (x2 : Vec Ideal S1x256 .f32) (j : S4x10x256.Idx) :
    out0_3 (F := Ideal) x0 x1 x2 j
      = Spec.out (batchRow x0 ⟨(j 0).val, (j 0).isLt⟩) (fun e f => x1 (ix2 f e)) (fun e => x2 (ix2 (0 : Fin 1) e))
          ⟨(j 1).val, (j 1).isLt⟩ ⟨(j 2).val, (j 2).isLt⟩ := by
  obtain ⟨b, s, d, rfl⟩ : ∃ (b : Fin 4) (s : Fin 10) (d : Fin 256), j = ix3 b s d :=
    ⟨⟨(j 0).val, (j 0).isLt⟩, ⟨(j 1).val, (j 1).isLt⟩, ⟨(j 2).val, (j 2).isLt⟩,
      funext fun a => match a with | ⟨0, _⟩ => rfl | ⟨1, _⟩ => rfl | ⟨2, _⟩ => rfl⟩
  exact out0_3_apply x0 x1 x2 b s d

/-- The fusion-layer output depends only on the values of its three argument functions and on the two coordinates. -/
theorem out_congr {xb xb' : Fin 4096 → Fin 256 → EReal} {W W' : Fin 256 → Fin 512 → EReal} {b b' : Fin 256 → EReal}
    {s s' : Fin 10} {d d' : Fin 256} (h1 : ∀ t e, xb t e = xb' t e) (h2 : ∀ e f, W e f = W' e f) (h3 : ∀ e, b e = b' e)
    (hs : s = s') (hd : d = d') : Spec.out xb W b s d = Spec.out xb' W' b' s' d' := by
  have e1 : xb = xb' := funext fun t => funext fun e => h1 t e
  have e2 : W = W' := funext fun e => funext fun f => h2 e f
  have e3 : b = b' := funext h3
  rw [e1, e2, e3, hs, hd]

/-- The specification's result array at an index, by the index's coordinates. -/
theorem G_apply (x : S48x4096x256.Idx → EReal) (W : S256x512.Idx → EReal) (b : S256.Idx → EReal) (i : S48x10x256.Idx) :
    Spec.G x W b i = Spec.out (fun t e => x (ix3 (i 0) t e)) (fun e f => W (ix2 e f)) (fun e => b (ix1 e)) (i 1) (i 2) := rfl

/-- Point t writes back block t of the specification's result array of the argument arrays. -/
theorem flushed_eq (c : Dev nD) (t : Fin cfg0.N) :
    (dats m 0 c).flushed 3 t = ((cfg0.win 3).blk t).view.read (Elt Ideal) (Spec.G (m ((c : Thread nD τ).loc main_arg0)) (m ((c : Thread nD τ).loc main_arg1)) (m ((c : Thread nD τ).loc main_arg2))) := by
  rw [Cert.KernelIdeal.Value.flushed3]
  obtain ⟨e00, e01, e02, e10, e11, e20, e21, e31, e32, e3⟩ := idx_facts t
  funext j
  show out0_3 (F := Ideal) (iblk m c 0 t) (iblk m c 1 t) (iblk m c 2 t) j = Spec.G _ _ _ (((cfg0.win 3).blk t).view.emb j)
  refine ((out_at (iblk m c 0 t) (iblk m c 1 t) (iblk m c 2 t) j).trans ?_).trans
    (G_apply (m ((c : Thread nD τ).loc main_arg0)) (m ((c : Thread nD τ).loc main_arg1)) (m ((c : Thread nD τ).loc main_arg2)) (((cfg0.win 3).blk t).view.emb j)).symm
  refine out_congr (fun t' e => ?_) (fun e f => ?_) (fun e => ?_) (Fin.ext ?_) (Fin.ext ?_)
  · -- a batch row of the staged block is that batch row of the sequence array
    show V m c main_arg0 (((cfg0.win 0).blk t).view.emb (ix3 (⟨(j 0).val, (j 0).isLt⟩ : Fin 4) t' e)) = m ((c : Thread nD τ).loc main_arg0) _
    rw [V_main_arg0]
    refine congrArg (m ((c : Thread nD τ).loc main_arg0)) (funext fun a => Fin.ext ?_)
    match a with
    | ⟨0, _⟩ => show win0_0.index t (0 : Fin 3) * 4 + 1 * (j 0).val = win0_3.index t (0 : Fin 3) * 4 + 1 * (j 0).val; omega
    | ⟨1, _⟩ => show win0_0.index t (1 : Fin 3) * 4096 + 1 * t'.val = t'.val; omega
    | ⟨2, _⟩ => show win0_0.index t (2 : Fin 3) * 256 + 1 * e.val = e.val; omega
  · -- the staged weight block is the whole transposed weight matrix
    show V m c main_v1 (((cfg0.win 1).blk t).view.emb (ix2 f e)) = m ((c : Thread nD τ).loc main_arg1) (ix2 e f)
    rw [V_v1, ← wT_apply (m ((c : Thread nD τ).loc main_arg1)) f e]
    refine congrArg _ (funext fun a => Fin.ext ?_)
    match a with
    | ⟨0, _⟩ => show win0_1.index t (0 : Fin 2) * 512 + 1 * f.val = f.val; omega
    | ⟨1, _⟩ => show win0_1.index t (1 : Fin 2) * 256 + 1 * e.val = e.val; omega
  · -- the staged bias block is the whole bias row
    show V m c main_v0 (((cfg0.win 2).blk t).view.emb (ix2 (0 : Fin 1) e)) = m ((c : Thread nD τ).loc main_arg2) (ix1 e)
    rw [V_v0, ← biasRow_apply (m ((c : Thread nD τ).loc main_arg2)) (0 : Fin 1) e]
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * e.val = e.val; omega
  · show (j 1).val = win0_3.index t (1 : Fin 3) * 10 + 1 * (j 1).val; omega
  · show (j 2).val = win0_3.index t (2 : Fin 3) * 256 + 1 * (j 2).val; omega

/-! ## The blocks cover the result array -/

/-- An index of the result array is in point t's block iff each coordinate is in the block's range on its axis. -/
theorem mem_blk (t : Fin cfg0.N) (i : S48x10x256.Idx) :
    i ∈ ((cfg0.win 3).blk t).view.set ↔ ∀ a : Fin 3, win0_3.index t a * S4x10x256.size a ≤ (i a).val ∧ (i a).val < win0_3.index t a * S4x10x256.size a + S4x10x256.size a := by
  show i ∈ ((View.whole main_v2).slice (win0_3.rect t)).set ↔ _
  rw [View.set_slice_whole, Rect.mem_set_unit]
  exact Iff.rfl

/-- Every index of the result array is in the block of the point whose block index is its batch row divided by 4. -/
theorem cover (i : S48x10x256.Idx) : ∃ t : Fin cfg0.N, (cfg0.win 3).flush t = true ∧ i ∈ ((cfg0.win 3).blk t).view.set := by
  have hi0 : (i 0).val < 48 := (i 0).isLt
  have hi1 : (i 1).val < 10 := (i 1).isLt
  have hi2 : (i 2).val < 256 := (i 2).isLt
  obtain ⟨t, ht⟩ := idx_onto ⟨(i 0).val / 4, by omega⟩
  have q0 : win0_3.index t (0 : Fin 3) = (i 0).val / 4 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 10 ≤ (i 1).val ∧ (i 1).val < win0_3.index t (1 : Fin 3) * 10 + 10; omega
  | ⟨2, _⟩ => show win0_3.index t (2 : Fin 3) * 256 ≤ (i 2).val ∧ (i 2).val < win0_3.index t (2 : Fin 3) * 256 + 256; omega

/-- The result array after the run is the specification's. -/
theorem final (c : Dev nD) : (dats m 0 c).arrAt 3 cfg0.N = (Spec.G (m ((c : Thread nD τ).loc main_arg0)) (m ((c : Thread nD τ).loc main_arg1)) (m ((c : Thread nD τ).loc main_arg2))) :=
  (dats m 0 c).arrAt_eq_of_cover 3 (Spec.G (m ((c : Thread nD τ).loc main_arg0)) (m ((c : Thread nD τ).loc main_arg1)) (m ((c : Thread nD τ).loc main_arg2))) (fun t _ => flushed_eq m c t) cover

/-! ## The run, read -/

/-- Every weakly fair execution of the kernel program's @main terminates with the result at the specification's array of
    the arguments' launch contents and the arguments unchanged. -/
theorem run : θ_run (defs (F := Ideal)) (onTc (τ := τ) (main (F := Ideal))) ⟨m, fun _ => 0, ρ⟩ fun r => ∀ c : Dev nD,
      r.2.mem ((c : Thread nD τ).loc main_v2) = (Spec.G (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KerSide

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.RefRun.lean ====
/-
  The reference program's host line, run: its 56 operations as a list, cut into six consecutive slices, each slice's
  result a named function ("stage") of the buffers it reads.  The whole run is the composition of the stages:
  chunks (pad, reshape), summaries (columnwise maximum), block-attention scores, their softmax and weighted sum,
  step-attention scores, their softmax, the weighted sum of the chunk rows, and the fusion layer.
-/
import proofs.«103608_j19327352832046_2_alg».proof.Proof.Gen.ReferenceIdeal
import proofs.«103608_j19327352832046_2_alg».proof.Proof.LibAfterSplit
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- An f32 array of shape S over the float values F. -/
abbrev Arr (F : FTy → Type) (S : Shape) : Type := (⟨S, .f32⟩ : BufTy).Contents (Elt F)

/-! ## The operations -/

/-- @main's 56 operations, in order. -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S48x4096x256, .f32⟩) main_arg0) (TRef.of (T := ⟨S_, .f32⟩) main_call0_v0) (TRef.of (T := ⟨S48x4550x256, .f32⟩) main_v0) (fun x v => pad S48x4550x256 ![0, 0, 0] ![0, 454, 0] ![0, 0, 0] x v pads_S48x4096x256_S48x4550x256_000_04540_000 h_S_),
    reshape main_v0 main_v1 rfl shapeCasts_S48x4550x256_S480x455x256,
    nullary main_cst (constant S_ .f32 0xFF800000#32),
    binary main_v1 main_cst main_v2 ((fun x v => Host.reduce FloatOps.maximumf x v reducesTo_S480x455x256_S480x256_d1 h_S_) : (⟨S480x455x256, .f32⟩ : BufTy).Contents (Elt F) → (⟨S_, .f32⟩ : BufTy).Contents (Elt F) → (⟨S480x256, .f32⟩ : BufTy).Contents (Elt F)),
    reshape main_v2 main_v3 rfl shapeCasts_S480x256_S48x10x256,
    unary main_v3 main_v4 ((transpose S48x256x10 [0, 2, 1] · transposes_S48x10x256_S48x256x10_0_2_1) : (⟨S48x10x256, .f32⟩ : BufTy).Contents (Elt F) → (⟨S48x256x10, .f32⟩ : BufTy).Contents (Elt F)),
    binary main_v3 main_v4 main_v5 ((fun l r => Host.dotGeneral dot_S48x10x256_S48x256x10_S48x10x10_2_1_1_2_0_0 none l r) : (⟨S48x10x256, .f32⟩ : BufTy).Contents (Elt F) → (⟨S48x256x10, .f32⟩ : BufTy).Contents (Elt F) → (⟨S48x10x10, .f32⟩ : BufTy).Contents (Elt F)),
    nullary main_cst_0 (constant S_ .f32 0x43800000#32),
    unary main_cst_0 main_v6 (Host.sqrt : (⟨S_, .f32⟩ : BufTy).Contents (Elt F) → (⟨S_, .f32⟩ : BufTy).Contents (Elt F)),
    unary main_v6 main_v7 (broadcastInDim S48x10x10 ![] bcast_S_S48x10x10 : (⟨S_, .f32⟩ : BufTy).Contents (Elt F) → (⟨S48x10x10, .f32⟩ : BufTy).Contents (Elt F)),
    binary main_v5 main_v7 main_v8 (Host.divf : (⟨S48x10x10, .f32⟩ : BufTy).Contents (Elt F) → (⟨S48x10x10, .f32⟩ : BufTy).Contents (Elt F) → (⟨S48x10x10, .f32⟩ : BufTy).Contents (Elt F)),
    nullary main_cst_1 (constant S_ .f32 0xFF800000#32),
    binary main_v8 main_cst_1 main_v9 ((fun x v => Host.reduce FloatOps.maximumf x v reducesTo_S48x10x10_S48x10_d2 h_S_) : (⟨S48x10x10, .f32⟩ : BufTy).Contents (Elt F) → (⟨S_, .f32⟩ : BufTy).Contents (Elt F) → (⟨S48x10, .f32⟩ : BufTy).Contents (Elt F)),
    nullary main_cst_2 (constant S_ .f32 0xFF800000#32),
    unary main_cst_2 main_v10 (broadcastInDim S48x10 ![] bcast_S_S48x10 : (⟨S_, .f32⟩ : BufTy).Contents (Elt F) → (⟨S48x10, .f32⟩ : BufTy).Contents (Elt F)),
    binary main_v10 main_v9 main_v11 (maximumf : (⟨S48x10, .f32⟩ : BufTy).Contents (Elt F) → (⟨S48x10, .f32⟩ : BufTy).Contents (Elt F) → (⟨S48x10, .f32⟩ : BufTy).Contents (Elt F)),
    unary main_v11 main_v12 (broadcastInDim S48x10x1 ![0, 1] bcast_S48x10_S48x10x1_0_1 : (⟨S48x10, .f32⟩ : BufTy).Contents (Elt F) → (⟨S48x10x1, .f32⟩ : BufTy).Contents (Elt F)),
    unary main_v12 main_v13 (broadcastInDim S48x10x10 ![0, 1, 2] bcast_S48x10x1_S48x10x10_0_1_2 : (⟨S48x10x1, .f32⟩ : BufTy).Contents (Elt F) → (⟨S48x10x10, .f32⟩ : BufTy).Contents (Elt F)),
    binary main_v8 main_v13 main_v14 (subf : (⟨S48x10x10, .f32⟩ : BufTy).Contents (Elt F) → (⟨S48x10x10, .f32⟩ : BufTy).Contents (Elt F) → (⟨S48x10x10, .f32⟩ : BufTy).Contents (Elt F)),
    unary main_v14 main_v15 (Host.exp : (⟨S48x10x10, .f32⟩ : BufTy).Contents (Elt F) → (⟨S48x10x10, .f32⟩ : BufTy).Contents (Elt F)),
    nullary main_cst_3 (constant S_ .f32 0x00000000#32),
    binary main_v15 main_cst_3 main_v16 ((fun x v => Host.reduceAdd x v reducesTo_S48x10x10_S48x10_d2 h_S_) : (⟨S48x10x10, .f32⟩ : BufTy).Contents (Elt F) → (⟨S_, .f32⟩ : BufTy).Contents (Elt F) → (⟨S48x10, .f32⟩ : BufTy).Contents (Elt F)),
    unary main_v16 main_v17 (broadcastInDim S48x10x1 ![0, 1] bcast_S48x10_S48x10x1_0_1 : (⟨S48x10, .f32⟩ : BufTy).Contents (Elt F) → (⟨S48x10x1, .f32⟩ : BufTy).Contents (Elt F)),
    unary main_v17 main_v18 (broadcastInDim S48x10x10 ![0, 1, 2] bcast_S48x10x1_S48x10x10_0_1_2 : (⟨S48x10x1, .f32⟩ : BufTy).Contents (Elt F) → (⟨S48x10x10, .f32⟩ : BufTy).Contents (Elt F)),
    binary main_v15 main_v18 main_v19 (Host.divf : (⟨S48x10x10, .f32⟩ : BufTy).Contents (Elt F) → (⟨S48x10x10, .f32⟩ : BufTy).Contents (Elt F) → (⟨S48x10x10, .f32⟩ : BufTy).Contents (Elt F)),
    binary main_v19 main_v3 main_v20 ((fun l r => Host.dotGeneral dot_S48x10x10_S48x10x256_S48x10x256_2_1_1_2_0_0 none l r) : (⟨S48x10x10, .f32⟩ : BufTy).Contents (Elt F) → (⟨S48x10x256, .f32⟩ : BufTy).Contents (Elt F) → (⟨S48x10x256, .f32⟩ : BufTy).Contents (Elt F)),
    reshape main_v20 main_v21 rfl shapeCasts_S48x10x256_S480x1x256,
    unary main_v1 main_v22 ((transpose S480x256x455 [0, 2, 1] · transposes_S480x455x256_S480x256x455_0_2_1) : (⟨S480x455x256, .f32⟩ : BufTy).Contents (Elt F) → (⟨S480x256x455, .f32⟩ : BufTy).Contents (Elt F)),
    binary main_v21 main_v22 main_v23 ((fun l r => Host.dotGeneral dot_S480x1x256_S480x256x455_S480x1x455_2_1_1_2_0_0 none l r) : (⟨S480x1x256, .f32⟩ : BufTy).Contents (Elt F) → (⟨S480x256x455, .f32⟩ : BufTy).Contents (Elt F) → (⟨S480x1x455, .f32⟩ : BufTy).Contents (Elt F)),
    nullary main_cst_4 (constant S_ .f32 0x43800000#32),
    unary main_cst_4 main_v24 (Host.sqrt : (⟨S_, .f32⟩ : BufTy).Contents (Elt F) → (⟨S_, .f32⟩ : BufTy).Contents (Elt F)),
    unary main_v24 main_v25 (broadcastInDim S480x1x455 ![] bcast_S_S480x1x455 : (⟨S_, .f32⟩ : BufTy).Contents (Elt F) → (⟨S480x1x455, .f32⟩ : BufTy).Contents (Elt F)),
    binary main_v23 main_v25 main_v26 (Host.divf : (⟨S480x1x455, .f32⟩ : BufTy).Contents (Elt F) → (⟨S480x1x455, .f32⟩ : BufTy).Contents (Elt F) → (⟨S480x1x455, .f32⟩ : BufTy).Contents (Elt F)),
    nullary main_cst_5 (constant S_ .f32 0xFF800000#32),
    binary main_v26 main_cst_5 main_v27 ((fun x v => Host.reduce FloatOps.maximumf x v reducesTo_S480x1x455_S480x1_d2 h_S_) : (⟨S480x1x455, .f32⟩ : BufTy).Contents (Elt F) → (⟨S_, .f32⟩ : BufTy).Contents (Elt F) → (⟨S480x1, .f32⟩ : BufTy).Contents (Elt F)),
    nullary main_cst_6 (constant S_ .f32 0xFF800000#32),
    unary main_cst_6 main_v28 (broadcastInDim S480x1 ![] bcast_S_S480x1 : (⟨S_, .f32⟩ : BufTy).Contents (Elt F) → (⟨S480x1, .f32⟩ : BufTy).Contents (Elt F)),
    binary main_v28 main_v27 main_v29 (maximumf : (⟨S480x1, .f32⟩ : BufTy).Contents (Elt F) → (⟨S480x1, .f32⟩ : BufTy).Contents (Elt F) → (⟨S480x1, .f32⟩ : BufTy).Contents (Elt F)),
    unary main_v29 main_v30 (broadcastInDim S480x1x1 ![0, 1] bcast_S480x1_S480x1x1_0_1 : (⟨S480x1, .f32⟩ : BufTy).Contents (Elt F) → (⟨S480x1x1, .f32⟩ : BufTy).Contents (Elt F)),
    unary main_v30 main_v31 (broadcastInDim S480x1x455 ![0, 1, 2] bcast_S480x1x1_S480x1x455_0_1_2 : (⟨S480x1x1, .f32⟩ : BufTy).Contents (Elt F) → (⟨S480x1x455, .f32⟩ : BufTy).Contents (Elt F)),
    binary main_v26 main_v31 main_v32 (subf : (⟨S480x1x455, .f32⟩ : BufTy).Contents (Elt F) → (⟨S480x1x455, .f32⟩ : BufTy).Contents (Elt F) → (⟨S480x1x455, .f32⟩ : BufTy).Contents (Elt F)),
    unary main_v32 main_v33 (Host.exp : (⟨S480x1x455, .f32⟩ : BufTy).Contents (Elt F) → (⟨S480x1x455, .f32⟩ : BufTy).Contents (Elt F)),
    nullary main_cst_7 (constant S_ .f32 0x00000000#32),
    binary main_v33 main_cst_7 main_v34 ((fun x v => Host.reduceAdd x v reducesTo_S480x1x455_S480x1_d2 h_S_) : (⟨S480x1x455, .f32⟩ : BufTy).Contents (Elt F) → (⟨S_, .f32⟩ : BufTy).Contents (Elt F) → (⟨S480x1, .f32⟩ : BufTy).Contents (Elt F)),
    unary main_v34 main_v35 (broadcastInDim S480x1x1 ![0, 1] bcast_S480x1_S480x1x1_0_1 : (⟨S480x1, .f32⟩ : BufTy).Contents (Elt F) → (⟨S480x1x1, .f32⟩ : BufTy).Contents (Elt F)),
    unary main_v35 main_v36 (broadcastInDim S480x1x455 ![0, 1, 2] bcast_S480x1x1_S480x1x455_0_1_2 : (⟨S480x1x1, .f32⟩ : BufTy).Contents (Elt F) → (⟨S480x1x455, .f32⟩ : BufTy).Contents (Elt F)),
    binary main_v33 main_v36 main_v37 (Host.divf : (⟨S480x1x455, .f32⟩ : BufTy).Contents (Elt F) → (⟨S480x1x455, .f32⟩ : BufTy).Contents (Elt F) → (⟨S480x1x455, .f32⟩ : BufTy).Contents (Elt F)),
    binary main_v37 main_v1 main_v38 ((fun l r => Host.dotGeneral dot_S480x1x455_S480x455x256_S480x1x256_2_1_1_2_0_0 none l r) : (⟨S480x1x455, .f32⟩ : BufTy).Contents (Elt F) → (⟨S480x455x256, .f32⟩ : BufTy).Contents (Elt F) → (⟨S480x1x256, .f32⟩ : BufTy).Contents (Elt F)),
    reshape main_v38 main_v39 rfl shapeCasts_S480x1x256_S48x10x256,
    binary main_v20 main_v39 main_v40 ((fun a b => concatenate S48x10x512 2 [⟨S48x10x256, a⟩, ⟨S48x10x256, b⟩] concatenates_S48x10x256_S48x10x256_S48x10x512_d2) : (⟨S48x10x256, .f32⟩ : BufTy).Contents (Elt F) → (⟨S48x10x256, .f32⟩ : BufTy).Contents (Elt F) → (⟨S48x10x512, .f32⟩ : BufTy).Contents (Elt F)),
    binary main_v40 main_arg1 main_v41 ((fun l r => Host.dotGeneral dot_S48x10x512_S256x512_S48x10x256_2_1_01_0_n_n none l r) : (⟨S48x10x512, .f32⟩ : BufTy).Contents (Elt F) → (⟨S256x512, .f32⟩ : BufTy).Contents (Elt F) → (⟨S48x10x256, .f32⟩ : BufTy).Contents (Elt F)),
    unary main_arg2 main_v42 (broadcastInDim S1x1x256 ![2] bcast_S256_S1x1x256_2 : (⟨S256, .f32⟩ : BufTy).Contents (Elt F) → (⟨S1x1x256, .f32⟩ : BufTy).Contents (Elt F)),
    unary main_v42 main_v43 (broadcastInDim S48x10x256 ![0, 1, 2] bcast_S1x1x256_S48x10x256_0_1_2 : (⟨S1x1x256, .f32⟩ : BufTy).Contents (Elt F) → (⟨S48x10x256, .f32⟩ : BufTy).Contents (Elt F)),
    binary main_v41 main_v43 main_v44 (addf : (⟨S48x10x256, .f32⟩ : BufTy).Contents (Elt F) → (⟨S48x10x256, .f32⟩ : BufTy).Contents (Elt F) → (⟨S48x10x256, .f32⟩ : BufTy).Contents (Elt F)) ]

/-- Operations 0 … 6. -/
def opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S48x4096x256, .f32⟩) main_arg0) (TRef.of (T := ⟨S_, .f32⟩) main_call0_v0) (TRef.of (T := ⟨S48x4550x256, .f32⟩) main_v0) (fun x v => pad S48x4550x256 ![0, 0, 0] ![0, 454, 0] ![0, 0, 0] x v pads_S48x4096x256_S48x4550x256_000_04540_000 h_S_),
    reshape main_v0 main_v1 rfl shapeCasts_S48x4550x256_S480x455x256,
    nullary main_cst (constant S_ .f32 0xFF800000#32),
    binary main_v1 main_cst main_v2 ((fun x v => Host.reduce FloatOps.maximumf x v reducesTo_S480x455x256_S480x256_d1 h_S_) : (⟨S480x455x256, .f32⟩ : BufTy).Contents (Elt F) → (⟨S_, .f32⟩ : BufTy).Contents (Elt F) → (⟨S480x256, .f32⟩ : BufTy).Contents (Elt F)),
    reshape main_v2 main_v3 rfl shapeCasts_S480x256_S48x10x256 ]

/-- Operations 7 … 12. -/
def opsB : List (HloOp τ sig (Elt F)) :=
  [ unary main_v3 main_v4 ((transpose S48x256x10 [0, 2, 1] · transposes_S48x10x256_S48x256x10_0_2_1) : (⟨S48x10x256, .f32⟩ : BufTy).Contents (Elt F) → (⟨S48x256x10, .f32⟩ : BufTy).Contents (Elt F)),
    binary main_v3 main_v4 main_v5 ((fun l r => Host.dotGeneral dot_S48x10x256_S48x256x10_S48x10x10_2_1_1_2_0_0 none l r) : (⟨S48x10x256, .f32⟩ : BufTy).Contents (Elt F) → (⟨S48x256x10, .f32⟩ : BufTy).Contents (Elt F) → (⟨S48x10x10, .f32⟩ : BufTy).Contents (Elt F)),
    nullary main_cst_0 (constant S_ .f32 0x43800000#32),
    unary main_cst_0 main_v6 (Host.sqrt : (⟨S_, .f32⟩ : BufTy).Contents (Elt F) → (⟨S_, .f32⟩ : BufTy).Contents (Elt F)),
    unary main_v6 main_v7 (broadcastInDim S48x10x10 ![] bcast_S_S48x10x10 : (⟨S_, .f32⟩ : BufTy).Contents (Elt F) → (⟨S48x10x10, .f32⟩ : BufTy).Contents (Elt F)),
    binary main_v5 main_v7 main_v8 (Host.divf : (⟨S48x10x10, .f32⟩ : BufTy).Contents (Elt F) → (⟨S48x10x10, .f32⟩ : BufTy).Contents (Elt F) → (⟨S48x10x10, .f32⟩ : BufTy).Contents (Elt F)) ]

/-- Operations 13 … 27. -/
def opsC : List (HloOp τ sig (Elt F)) :=
  [ nullary main_cst_1 (constant S_ .f32 0xFF800000#32),
    binary main_v8 main_cst_1 main_v9 ((fun x v => Host.reduce FloatOps.maximumf x v reducesTo_S48x10x10_S48x10_d2 h_S_) : (⟨S48x10x10, .f32⟩ : BufTy).Contents (Elt F) → (⟨S_, .f32⟩ : BufTy).Contents (Elt F) → (⟨S48x10, .f32⟩ : BufTy).Contents (Elt F)),
    nullary main_cst_2 (constant S_ .f32 0xFF800000#32),
    unary main_cst_2 main_v10 (broadcastInDim S48x10 ![] bcast_S_S48x10 : (⟨S_, .f32⟩ : BufTy).Contents (Elt F) → (⟨S48x10, .f32⟩ : BufTy).Contents (Elt F)),
    binary main_v10 main_v9 main_v11 (maximumf : (⟨S48x10, .f32⟩ : BufTy).Contents (Elt F) → (⟨S48x10, .f32⟩ : BufTy).Contents (Elt F) → (⟨S48x10, .f32⟩ : BufTy).Contents (Elt F)),
    unary main_v11 main_v12 (broadcastInDim S48x10x1 ![0, 1] bcast_S48x10_S48x10x1_0_1 : (⟨S48x10, .f32⟩ : BufTy).Contents (Elt F) → (⟨S48x10x1, .f32⟩ : BufTy).Contents (Elt F)),
    unary main_v12 main_v13 (broadcastInDim S48x10x10 ![0, 1, 2] bcast_S48x10x1_S48x10x10_0_1_2 : (⟨S48x10x1, .f32⟩ : BufTy).Contents (Elt F) → (⟨S48x10x10, .f32⟩ : BufTy).Contents (Elt F)),
    binary main_v8 main_v13 main_v14 (subf : (⟨S48x10x10, .f32⟩ : BufTy).Contents (Elt F) → (⟨S48x10x10, .f32⟩ : BufTy).Contents (Elt F) → (⟨S48x10x10, .f32⟩ : BufTy).Contents (Elt F)),
    unary main_v14 main_v15 (Host.exp : (⟨S48x10x10, .f32⟩ : BufTy).Contents (Elt F) → (⟨S48x10x10, .f32⟩ : BufTy).Contents (Elt F)),
    nullary main_cst_3 (constant S_ .f32 0x00000000#32),
    binary main_v15 main_cst_3 main_v16 ((fun x v => Host.reduceAdd x v reducesTo_S48x10x10_S48x10_d2 h_S_) : (⟨S48x10x10, .f32⟩ : BufTy).Contents (Elt F) → (⟨S_, .f32⟩ : BufTy).Contents (Elt F) → (⟨S48x10, .f32⟩ : BufTy).Contents (Elt F)),
    unary main_v16 main_v17 (broadcastInDim S48x10x1 ![0, 1] bcast_S48x10_S48x10x1_0_1 : (⟨S48x10, .f32⟩ : BufTy).Contents (Elt F) → (⟨S48x10x1, .f32⟩ : BufTy).Contents (Elt F)),
    unary main_v17 main_v18 (broadcastInDim S48x10x10 ![0, 1, 2] bcast_S48x10x1_S48x10x10_0_1_2 : (⟨S48x10x1, .f32⟩ : BufTy).Contents (Elt F) → (⟨S48x10x10, .f32⟩ : BufTy).Contents (Elt F)),
    binary main_v15 main_v18 main_v19 (Host.divf : (⟨S48x10x10, .f32⟩ : BufTy).Contents (Elt F) → (⟨S48x10x10, .f32⟩ : BufTy).Contents (Elt F) → (⟨S48x10x10, .f32⟩ : BufTy).Contents (Elt F)),
    binary main_v19 main_v3 main_v20 ((fun l r => Host.dotGeneral dot_S48x10x10_S48x10x256_S48x10x256_2_1_1_2_0_0 none l r) : (⟨S48x10x10, .f32⟩ : BufTy).Contents (Elt F) → (⟨S48x10x256, .f32⟩ : BufTy).Contents (Elt F) → (⟨S48x10x256, .f32⟩ : BufTy).Contents (Elt F)) ]

/-- Operations 28 … 34. -/
def opsD : List (HloOp τ sig (Elt F)) :=
  [ reshape main_v20 main_v21 rfl shapeCasts_S48x10x256_S480x1x256,
    unary main_v1 main_v22 ((transpose S480x256x455 [0, 2, 1] · transposes_S480x455x256_S480x256x455_0_2_1) : (⟨S480x455x256, .f32⟩ : BufTy).Contents (Elt F) → (⟨S480x256x455, .f32⟩ : BufTy).Contents (Elt F)),
    binary main_v21 main_v22 main_v23 ((fun l r => Host.dotGeneral dot_S480x1x256_S480x256x455_S480x1x455_2_1_1_2_0_0 none l r) : (⟨S480x1x256, .f32⟩ : BufTy).Contents (Elt F) → (⟨S480x256x455, .f32⟩ : BufTy).Contents (Elt F) → (⟨S480x1x455, .f32⟩ : BufTy).Contents (Elt F)),
    nullary main_cst_4 (constant S_ .f32 0x43800000#32),
    unary main_cst_4 main_v24 (Host.sqrt : (⟨S_, .f32⟩ : BufTy).Contents (Elt F) → (⟨S_, .f32⟩ : BufTy).Contents (Elt F)),
    unary main_v24 main_v25 (broadcastInDim S480x1x455 ![] bcast_S_S480x1x455 : (⟨S_, .f32⟩ : BufTy).Contents (Elt F) → (⟨S480x1x455, .f32⟩ : BufTy).Contents (Elt F)),
    binary main_v23 main_v25 main_v26 (Host.divf : (⟨S480x1x455, .f32⟩ : BufTy).Contents (Elt F) → (⟨S480x1x455, .f32⟩ : BufTy).Contents (Elt F) → (⟨S480x1x455, .f32⟩ : BufTy).Contents (Elt F)) ]

/-- Operations 35 … 48. -/
def opsE : List (HloOp τ sig (Elt F)) :=
  [ nullary main_cst_5 (constant S_ .f32 0xFF800000#32),
    binary main_v26 main_cst_5 main_v27 ((fun x v => Host.reduce FloatOps.maximumf x v reducesTo_S480x1x455_S480x1_d2 h_S_) : (⟨S480x1x455, .f32⟩ : BufTy).Contents (Elt F) → (⟨S_, .f32⟩ : BufTy).Contents (Elt F) → (⟨S480x1, .f32⟩ : BufTy).Contents (Elt F)),
    nullary main_cst_6 (constant S_ .f32 0xFF800000#32),
    unary main_cst_6 main_v28 (broadcastInDim S480x1 ![] bcast_S_S480x1 : (⟨S_, .f32⟩ : BufTy).Contents (Elt F) → (⟨S480x1, .f32⟩ : BufTy).Contents (Elt F)),
    binary main_v28 main_v27 main_v29 (maximumf : (⟨S480x1, .f32⟩ : BufTy).Contents (Elt F) → (⟨S480x1, .f32⟩ : BufTy).Contents (Elt F) → (⟨S480x1, .f32⟩ : BufTy).Contents (Elt F)),
    unary main_v29 main_v30 (broadcastInDim S480x1x1 ![0, 1] bcast_S480x1_S480x1x1_0_1 : (⟨S480x1, .f32⟩ : BufTy).Contents (Elt F) → (⟨S480x1x1, .f32⟩ : BufTy).Contents (Elt F)),
    unary main_v30 main_v31 (broadcastInDim S480x1x455 ![0, 1, 2] bcast_S480x1x1_S480x1x455_0_1_2 : (⟨S480x1x1, .f32⟩ : BufTy).Contents (Elt F) → (⟨S480x1x455, .f32⟩ : BufTy).Contents (Elt F)),
    binary main_v26 main_v31 main_v32 (subf : (⟨S480x1x455, .f32⟩ : BufTy).Contents (Elt F) → (⟨S480x1x455, .f32⟩ : BufTy).Contents (Elt F) → (⟨S480x1x455, .f32⟩ : BufTy).Contents (Elt F)),
    unary main_v32 main_v33 (Host.exp : (⟨S480x1x455, .f32⟩ : BufTy).Contents (Elt F) → (⟨S480x1x455, .f32⟩ : BufTy).Contents (Elt F)),
    nullary main_cst_7 (constant S_ .f32 0x00000000#32),
    binary main_v33 main_cst_7 main_v34 ((fun x v => Host.reduceAdd x v reducesTo_S480x1x455_S480x1_d2 h_S_) : (⟨S480x1x455, .f32⟩ : BufTy).Contents (Elt F) → (⟨S_, .f32⟩ : BufTy).Contents (Elt F) → (⟨S480x1, .f32⟩ : BufTy).Contents (Elt F)),
    unary main_v34 main_v35 (broadcastInDim S480x1x1 ![0, 1] bcast_S480x1_S480x1x1_0_1 : (⟨S480x1, .f32⟩ : BufTy).Contents (Elt F) → (⟨S480x1x1, .f32⟩ : BufTy).Contents (Elt F)),
    unary main_v35 main_v36 (broadcastInDim S480x1x455 ![0, 1, 2] bcast_S480x1x1_S480x1x455_0_1_2 : (⟨S480x1x1, .f32⟩ : BufTy).Contents (Elt F) → (⟨S480x1x455, .f32⟩ : BufTy).Contents (Elt F)),
    binary main_v33 main_v36 main_v37 (Host.divf : (⟨S480x1x455, .f32⟩ : BufTy).Contents (Elt F) → (⟨S480x1x455, .f32⟩ : BufTy).Contents (Elt F) → (⟨S480x1x455, .f32⟩ : BufTy).Contents (Elt F)) ]

/-- Operations 49 … 55. -/
def opsF : List (HloOp τ sig (Elt F)) :=
  [ binary main_v37 main_v1 main_v38 ((fun l r => Host.dotGeneral dot_S480x1x455_S480x455x256_S480x1x256_2_1_1_2_0_0 none l r) : (⟨S480x1x455, .f32⟩ : BufTy).Contents (Elt F) → (⟨S480x455x256, .f32⟩ : BufTy).Contents (Elt F) → (⟨S480x1x256, .f32⟩ : BufTy).Contents (Elt F)),
    reshape main_v38 main_v39 rfl shapeCasts_S480x1x256_S48x10x256,
    binary main_v20 main_v39 main_v40 ((fun a b => concatenate S48x10x512 2 [⟨S48x10x256, a⟩, ⟨S48x10x256, b⟩] concatenates_S48x10x256_S48x10x256_S48x10x512_d2) : (⟨S48x10x256, .f32⟩ : BufTy).Contents (Elt F) → (⟨S48x10x256, .f32⟩ : BufTy).Contents (Elt F) → (⟨S48x10x512, .f32⟩ : BufTy).Contents (Elt F)),
    binary main_v40 main_arg1 main_v41 ((fun l r => Host.dotGeneral dot_S48x10x512_S256x512_S48x10x256_2_1_01_0_n_n none l r) : (⟨S48x10x512, .f32⟩ : BufTy).Contents (Elt F) → (⟨S256x512, .f32⟩ : BufTy).Contents (Elt F) → (⟨S48x10x256, .f32⟩ : BufTy).Contents (Elt F)),
    unary main_arg2 main_v42 (broadcastInDim S1x1x256 ![2] bcast_S256_S1x1x256_2 : (⟨S256, .f32⟩ : BufTy).Contents (Elt F) → (⟨S1x1x256, .f32⟩ : BufTy).Contents (Elt F)),
    unary main_v42 main_v43 (broadcastInDim S48x10x256 ![0, 1, 2] bcast_S1x1x256_S48x10x256_0_1_2 : (⟨S1x1x256, .f32⟩ : BufTy).Contents (Elt F) → (⟨S48x10x256, .f32⟩ : BufTy).Contents (Elt F)),
    binary main_v41 main_v43 main_v44 (addf : (⟨S48x10x256, .f32⟩ : BufTy).Contents (Elt F) → (⟨S48x10x256, .f32⟩ : BufTy).Contents (Elt F) → (⟨S48x10x256, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., reshape_bufs_sub .., nullary_bufs_sub .., binary_bufs_sub .., reshape_bufs_sub .., unary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., unary_bufs_sub .., binary_bufs_sub .., nullary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., binary_bufs_sub .., unary_bufs_sub .., unary_bufs_sub .., binary_bufs_sub ..⟩

set_option maxRecDepth 8192 in
theorem ops_split : (ops : List (HloOp τ sig (Elt F))) = opsA ++ (opsB ++ (opsC ++ (opsD ++ (opsE ++ opsF)))) := rfl

/-! ## The stages -/

/-- The padded sequence cut into 480 chunks of 455 rows. -/
def stChunked (x : Arr F S48x4096x256) : Arr F S480x455x256 :=
  shapeCast S480x455x256 (pad S48x4550x256 ![0, 0, 0] ![0, 454, 0] ![0, 0, 0] x (sitofp .f32 (constantI S_ 32 0#32)) pads_S48x4096x256_S48x4550x256_000_04540_000 h_S_) shapeCasts_S48x4550x256_S480x455x256

/-- The chunks' columnwise maxima, as [48, 10, 256]. -/
def stQ (ch : Arr F S480x455x256) : Arr F S48x10x256 :=
  shapeCast S48x10x256 (Host.reduce FloatOps.maximumf ch (constant S_ .f32 0xFF800000#32) reducesTo_S480x455x256_S480x256_d1 h_S_) shapeCasts_S480x256_S48x10x256

/-- Block-attention scores: q · qᵀ over the features, divided by sqrt 256. -/
def stSc1 (q : Arr F S48x10x256) : Arr F S48x10x10 :=
  Host.divf (Host.dotGeneral dot_S48x10x256_S48x256x10_S48x10x10_2_1_1_2_0_0 none q (transpose S48x256x10 [0, 2, 1] q transposes_S48x10x256_S48x256x10_0_2_1))
    (broadcastInDim S48x10x10 ![] bcast_S_S48x10x10 (Host.sqrt (constant S_ .f32 0x43800000#32)))

/-- The row maxima of the block-attention scores. -/
def stMax1 (sc : Arr F S48x10x10) : Arr F S48x10 :=
  maximumf (broadcastInDim S48x10 ![] bcast_S_S48x10 (constant S_ .f32 0xFF800000#32))
    (Host.reduce FloatOps.maximumf sc (constant S_ .f32 0xFF800000#32) reducesTo_S48x10x10_S48x10_d2 h_S_)

/-- The exponentials of the scores' distances to their row maxima. -/
def stEx1 (sc : Arr F S48x10x10) : Arr F S48x10x10 :=
  Host.exp (subf sc (broadcastInDim S48x10x10 ![0, 1, 2] bcast_S48x10x1_S48x10x10_0_1_2 (broadcastInDim S48x10x1 ![0, 1] bcast_S48x10_S48x10x1_0_1 (stMax1 sc))))

/-- The row sums of the exponentials. -/
def stDen1 (e : Arr F S48x10x10) : Arr F S48x10 :=
  Host.reduceAdd e (constant S_ .f32 0x00000000#32) reducesTo_S48x10x10_S48x10_d2 h_S_

/-- The softmax weights of the block attention. -/
def stP1 (sc : Arr F S48x10x10) : Arr F S48x10x10 :=
  Host.divf (stEx1 sc) (broadcastInDim S48x10x10 ![0, 1, 2] bcast_S48x10x1_S48x10x10_0_1_2 (broadcastInDim S48x10x1 ![0, 1] bcast_S48x10_S48x10x1_0_1 (stDen1 (stEx1 sc))))

/-- The block attention's weighted sum of the summaries. -/
def stAtt1 (p : Arr F S48x10x10) (q : Arr F S48x10x256) : Arr F S48x10x256 :=
  Host.dotGeneral dot_S48x10x10_S48x10x256_S48x10x256_2_1_1_2_0_0 none p q

/-- Step-attention scores: each block-attention row against the rows of its chunk, divided by sqrt 256. -/
def stSc2 (qb : Arr F S48x10x256) (ch : Arr F S480x455x256) : Arr F S480x1x455 :=
  Host.divf (Host.dotGeneral dot_S480x1x256_S480x256x455_S480x1x455_2_1_1_2_0_0 none (shapeCast S480x1x256 qb shapeCasts_S48x10x256_S480x1x256)
      (transpose S480x256x455 [0, 2, 1] ch transposes_S480x455x256_S480x256x455_0_2_1))
    (broadcastInDim S480x1x455 ![] bcast_S_S480x1x455 (Host.sqrt (constant S_ .f32 0x43800000#32)))

/-- The row maxima of the step-attention scores. -/
def stMax2 (sc : Arr F S480x1x455) : Arr F S480x1 :=
  maximumf (broadcastInDim S480x1 ![] bcast_S_S480x1 (constant S_ .f32 0xFF800000#32))
    (Host.reduce FloatOps.maximumf sc (constant S_ .f32 0xFF800000#32) reducesTo_S480x1x455_S480x1_d2 h_S_)

/-- The exponentials of the step-attention scores' distances to their row maxima. -/
def stEx2 (sc : Arr F S480x1x455) : Arr F S480x1x455 :=
  Host.exp (subf sc (broadcastInDim S480x1x455 ![0, 1, 2] bcast_S480x1x1_S480x1x455_0_1_2 (broadcastInDim S480x1x1 ![0, 1] bcast_S480x1_S480x1x1_0_1 (stMax2 sc))))

/-- The row sums of those exponentials. -/
def stDen2 (e : Arr F S480x1x455) : Arr F S480x1 :=
  Host.reduceAdd e (constant S_ .f32 0x00000000#32) reducesTo_S480x1x455_S480x1_d2 h_S_

/-- The softmax weights of the step attention. -/
def stP2 (sc : Arr F S480x1x455) : Arr F S480x1x455 :=
  Host.divf (stEx2 sc) (broadcastInDim S480x1x455 ![0, 1, 2] bcast_S480x1x1_S480x1x455_0_1_2 (broadcastInDim S480x1x1 ![0, 1] bcast_S480x1_S480x1x1_0_1 (stDen2 (stEx2 sc))))

/-- The step attention's weighted sum of the chunk rows, as [48, 10, 256]. -/
def stQS (p : Arr F S480x1x455) (ch : Arr F S480x455x256) : Arr F S48x10x256 :=
  shapeCast S48x10x256 (Host.dotGeneral dot_S480x1x455_S480x455x256_S480x1x256_2_1_1_2_0_0 none p ch) shapeCasts_S480x1x256_S48x10x256

/-- The fusion layer: the two attention results side by side, times the weight matrix, plus the bias. -/
def stFuse (qb qs : Arr F S48x10x256) (W : Arr F S256x512) (b : Arr F S256) : Arr F S48x10x256 :=
  addf (Host.dotGeneral dot_S48x10x512_S256x512_S48x10x256_2_1_01_0_n_n none
      (concatenate S48x10x512 2 [⟨S48x10x256, qb⟩, ⟨S48x10x256, qs⟩] concatenates_S48x10x256_S48x10x256_S48x10x512_d2) W)
    (broadcastInDim S48x10x256 ![0, 1, 2] bcast_S1x1x256_S48x10x256_0_1_2 (broadcastInDim S1x1x256 ![2] bcast_S256_S1x1x256_2 b))

/-- The block attention as a function of the summaries. -/
def stQB (q : Arr F S48x10x256) : Arr F S48x10x256 := stAtt1 (stP1 (stSc1 q)) q

/-- The whole reference as a function of its three arguments. -/
def refOut (x : Arr F S48x4096x256) (W : Arr F S256x512) (b : Arr F S256) : Arr F S48x10x256 :=
  stFuse (stQB (stQ (stChunked x))) (stQS (stP2 (stSc2 (stQB (stQ (stChunked x))) (stChunked x))) (stChunked x)) W b

/-! ## Each slice, from arbitrary contents -/

section Slices

variable (V : Valuation τ sig (Elt F))

theorem opsA_v1 : after opsA V (Proc.devRef .tc main_v1) = stChunked (V (Proc.devRef .tc main_arg0)) := by
  unfold opsA; after_results_simp <;> rfl
theorem opsA_v3 : after opsA V (Proc.devRef .tc main_v3) = stQ (stChunked (V (Proc.devRef .tc main_arg0))) := by
  unfold opsA; after_results_simp <;> rfl
theorem opsA_arg0 : after opsA V (Proc.devRef .tc main_arg0) = V (Proc.devRef .tc main_arg0) := by
  unfold opsA; after_results_simp <;> rfl
theorem opsA_arg1 : after opsA V (Proc.devRef .tc main_arg1) = V (Proc.devRef .tc main_arg1) := by
  unfold opsA; after_results_simp <;> rfl
theorem opsA_arg2 : after opsA V (Proc.devRef .tc main_arg2) = V (Proc.devRef .tc main_arg2) := by
  unfold opsA; after_results_simp <;> rfl
theorem opsB_v8 : after opsB V (Proc.devRef .tc main_v8) = stSc1 (V (Proc.devRef .tc main_v3)) := by
  unfold opsB; after_results_simp <;> rfl
theorem opsB_arg0 : after opsB V (Proc.devRef .tc main_arg0) = V (Proc.devRef .tc main_arg0) := by
  unfold opsB; after_results_simp <;> rfl
theorem opsB_arg1 : after opsB V (Proc.devRef .tc main_arg1) = V (Proc.devRef .tc main_arg1) := by
  unfold opsB; after_results_simp <;> rfl
theorem opsB_arg2 : after opsB V (Proc.devRef .tc main_arg2) = V (Proc.devRef .tc main_arg2) := by
  unfold opsB; after_results_simp <;> rfl
theorem opsB_v1 : after opsB V (Proc.devRef .tc main_v1) = V (Proc.devRef .tc main_v1) := by
  unfold opsB; after_results_simp <;> rfl
theorem opsB_v3 : after opsB V (Proc.devRef .tc main_v3) = V (Proc.devRef .tc main_v3) := by
  unfold opsB; after_results_simp <;> rfl
theorem opsC_v20 : after opsC V (Proc.devRef .tc main_v20) = stAtt1 (stP1 (V (Proc.devRef .tc main_v8))) (V (Proc.devRef .tc main_v3)) := by
  unfold opsC; after_results_simp <;> rfl
theorem opsC_arg0 : after opsC V (Proc.devRef .tc main_arg0) = V (Proc.devRef .tc main_arg0) := by
  unfold opsC; after_results_simp <;> rfl
theorem opsC_arg1 : after opsC V (Proc.devRef .tc main_arg1) = V (Proc.devRef .tc main_arg1) := by
  unfold opsC; after_results_simp <;> rfl
theorem opsC_arg2 : after opsC V (Proc.devRef .tc main_arg2) = V (Proc.devRef .tc main_arg2) := by
  unfold opsC; after_results_simp <;> rfl
theorem opsC_v1 : after opsC V (Proc.devRef .tc main_v1) = V (Proc.devRef .tc main_v1) := by
  unfold opsC; after_results_simp <;> rfl
theorem opsD_v26 : after opsD V (Proc.devRef .tc main_v26) = stSc2 (V (Proc.devRef .tc main_v20)) (V (Proc.devRef .tc main_v1)) := by
  unfold opsD; after_results_simp <;> rfl
theorem opsD_arg0 : after opsD V (Proc.devRef .tc main_arg0) = V (Proc.devRef .tc main_arg0) := by
  unfold opsD; after_results_simp <;> rfl
theorem opsD_arg1 : after opsD V (Proc.devRef .tc main_arg1) = V (Proc.devRef .tc main_arg1) := by
  unfold opsD; after_results_simp <;> rfl
theorem opsD_arg2 : after opsD V (Proc.devRef .tc main_arg2) = V (Proc.devRef .tc main_arg2) := by
  unfold opsD; after_results_simp <;> rfl
theorem opsD_v1 : after opsD V (Proc.devRef .tc main_v1) = V (Proc.devRef .tc main_v1) := by
  unfold opsD; after_results_simp <;> rfl
theorem opsD_v20 : after opsD V (Proc.devRef .tc main_v20) = V (Proc.devRef .tc main_v20) := by
  unfold opsD; after_results_simp <;> rfl
theorem opsE_v37 : after opsE V (Proc.devRef .tc main_v37) = stP2 (V (Proc.devRef .tc main_v26)) := by
  unfold opsE; after_results_simp <;> rfl
theorem opsE_arg0 : after opsE V (Proc.devRef .tc main_arg0) = V (Proc.devRef .tc main_arg0) := by
  unfold opsE; after_results_simp <;> rfl
theorem opsE_arg1 : after opsE V (Proc.devRef .tc main_arg1) = V (Proc.devRef .tc main_arg1) := by
  unfold opsE; after_results_simp <;> rfl
theorem opsE_arg2 : after opsE V (Proc.devRef .tc main_arg2) = V (Proc.devRef .tc main_arg2) := by
  unfold opsE; after_results_simp <;> rfl
theorem opsE_v1 : after opsE V (Proc.devRef .tc main_v1) = V (Proc.devRef .tc main_v1) := by
  unfold opsE; after_results_simp <;> rfl
theorem opsE_v20 : after opsE V (Proc.devRef .tc main_v20) = V (Proc.devRef .tc main_v20) := by
  unfold opsE; after_results_simp <;> rfl
theorem opsF_v44 : after opsF V (Proc.devRef .tc main_v44) = stFuse (V (Proc.devRef .tc main_v20)) (stQS (V (Proc.devRef .tc main_v37)) (V (Proc.devRef .tc main_v1))) (V (Proc.devRef .tc main_arg1)) (V (Proc.devRef .tc main_arg2)) := by
  unfold opsF; after_results_simp <;> rfl
theorem opsF_arg0 : after opsF V (Proc.devRef .tc main_arg0) = V (Proc.devRef .tc main_arg0) := by
  unfold opsF; after_results_simp <;> rfl
theorem opsF_arg1 : after opsF V (Proc.devRef .tc main_arg1) = V (Proc.devRef .tc main_arg1) := by
  unfold opsF; after_results_simp <;> rfl
theorem opsF_arg2 : after opsF V (Proc.devRef .tc main_arg2) = V (Proc.devRef .tc main_arg2) := by
  unfold opsF; after_results_simp <;> rfl

/-! ## The whole line -/

theorem after_ops_eq : after ops V = after opsF (after opsE (after opsD (after opsC (after opsB (after opsA V))))) :=
  (congrArg (fun l => after l V) (ops_split (F := F))).trans (by
    show after (opsA ++ (opsB ++ (opsC ++ (opsD ++ (opsE ++ opsF))))) V = _
    rw [Cert.AfterSplit.after_append, Cert.AfterSplit.after_append, Cert.AfterSplit.after_append, Cert.AfterSplit.after_append,
      Cert.AfterSplit.after_append])

theorem after_ops_v44 : after ops V (Proc.devRef .tc main_v44) = refOut (V (Proc.devRef .tc main_arg0)) (V (Proc.devRef .tc main_arg1)) (V (Proc.devRef .tc main_arg2)) := by
  rw [after_ops_eq, opsF_v44, opsE_v20, opsE_v37, opsE_v1, opsE_arg1, opsE_arg2,
    opsD_v20, opsD_v26, opsD_v1, opsD_arg1, opsD_arg2,
    opsC_v20, opsC_v1, opsC_arg1, opsC_arg2,
    opsB_v8, opsB_v3, opsB_v1, opsB_arg1, opsB_arg2,
    opsA_v3, opsA_v1, opsA_arg1, opsA_arg2]
  rfl
theorem after_ops_arg0 : after ops V (Proc.devRef .tc main_arg0) = V (Proc.devRef .tc main_arg0) := by
  rw [after_ops_eq, opsF_arg0, opsE_arg0, opsD_arg0, opsC_arg0, opsB_arg0, opsA_arg0]
theorem after_ops_arg1 : after ops V (Proc.devRef .tc main_arg1) = V (Proc.devRef .tc main_arg1) := by
  rw [after_ops_eq, opsF_arg1, opsE_arg1, opsD_arg1, opsC_arg1, opsB_arg1, opsA_arg1]
theorem after_ops_arg2 : after ops V (Proc.devRef .tc main_arg2) = V (Proc.devRef .tc main_arg2) := by
  rw [after_ops_eq, opsF_arg2, opsE_arg2, opsD_arg2, opsC_arg2, opsB_arg2, opsA_arg2]

end Slices

/-- On every device, for any float values, from any memory with zero counters: every weakly fair execution of
    @main terminates with the result buffer at the composition of the stages applied to the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v44).trans (after_ops_v44 _),
      (h c main_arg0).trans (after_ops_arg0 _),
      (h c main_arg1).trans (after_ops_arg1 _),
      (h c main_arg2).trans (after_ops_arg2 _)⟩)
    (run_seq scopedRefs_eq scopedSems_eq defs main (fun _ => ops) main_eq (fun _ => ops_sub) m ρ)

end Cert.RefRun

end
-- ==== Proof.RefDots.lean ====
/-
  The reference's five matrix products read at an entry: each contracts one axis, so an entry of the result is the sum,
  over that axis's coordinates, of the products of the two operands' entries.
    summaries × summariesᵀ        [48,10,256] × [48,256,10] → [48,10,10]
    weights × summaries           [48,10,10]  × [48,10,256] → [48,10,256]
    block rows × chunkᵀ           [480,1,256] × [480,256,455] → [480,1,455]
    weights × chunk               [480,1,455] × [480,455,256] → [480,1,256]
    fused × weight matrixᵀ        [48,10,512] × [256,512] → [48,10,256]
-/
import proofs.«103608_j19327352832046_2_alg».proof.Proof.RefRun
import proofs.«103608_j19327352832046_2_alg».proof.Proof.Spec

import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.ValueIdx Cert.RefRun

theorem dotQQ_l0 (i : S48x10x10.Idx) (q : dot_S48x10x256_S48x256x10_S48x10x10_2_1_1_2_0_0.contr.Idx) :
    (dot_S48x10x256_S48x256x10_S48x10x10_2_1_1_2_0_0.lhsIdx i q 0).val = (i 0).val := by
  unfold DotDims.lhsIdx
  rw [dif_pos (show (0 : Fin S48x10x256.rank) ∈ dot_S48x10x256_S48x256x10_S48x10x10_2_1_1_2_0_0.lhsBatch by decide)]
  rfl
theorem dotQQ_l1 (i : S48x10x10.Idx) (q : dot_S48x10x256_S48x256x10_S48x10x10_2_1_1_2_0_0.contr.Idx) :
    (dot_S48x10x256_S48x256x10_S48x10x10_2_1_1_2_0_0.lhsIdx i q 1).val = (i 1).val := by
  unfold DotDims.lhsIdx
  rw [dif_neg (show ¬(1 : Fin S48x10x256.rank) ∈ dot_S48x10x256_S48x256x10_S48x10x10_2_1_1_2_0_0.lhsBatch by decide), dif_pos (show (1 : Fin S48x10x256.rank) ∈ dot_S48x10x256_S48x256x10_S48x10x10_2_1_1_2_0_0.lhsNonContracting by decide)]
  rfl
theorem dotQQ_l2 (i : S48x10x10.Idx) (q : dot_S48x10x256_S48x256x10_S48x10x10_2_1_1_2_0_0.contr.Idx) :
    (dot_S48x10x256_S48x256x10_S48x10x10_2_1_1_2_0_0.lhsIdx i q 2).val = (q ⟨0, by decide⟩).val :=
  dot_S48x10x256_S48x256x10_S48x10x10_2_1_1_2_0_0.lhsIdx_val_of_single rfl i q
theorem dotQQ_r0 (i : S48x10x10.Idx) (q : dot_S48x10x256_S48x256x10_S48x10x10_2_1_1_2_0_0.contr.Idx) :
    (dot_S48x10x256_S48x256x10_S48x10x10_2_1_1_2_0_0.rhsIdx i q 0).val = (i 0).val := by
  unfold DotDims.rhsIdx
  rw [dif_pos (show (0 : Fin S48x256x10.rank) ∈ dot_S48x10x256_S48x256x10_S48x10x10_2_1_1_2_0_0.rhsBatch by decide)]
  rfl
theorem dotQQ_r1 (i : S48x10x10.Idx) (q : dot_S48x10x256_S48x256x10_S48x10x10_2_1_1_2_0_0.contr.Idx) :
    (dot_S48x10x256_S48x256x10_S48x10x10_2_1_1_2_0_0.rhsIdx i q 1).val = (q ⟨0, by decide⟩).val :=
  dot_S48x10x256_S48x256x10_S48x10x10_2_1_1_2_0_0.rhsIdx_val_of_single rfl i q
theorem dotQQ_r2 (i : S48x10x10.Idx) (q : dot_S48x10x256_S48x256x10_S48x10x10_2_1_1_2_0_0.contr.Idx) :
    (dot_S48x10x256_S48x256x10_S48x10x10_2_1_1_2_0_0.rhsIdx i q 2).val = (i 2).val := by
  unfold DotDims.rhsIdx
  rw [dif_neg (show ¬(2 : Fin S48x256x10.rank) ∈ dot_S48x10x256_S48x256x10_S48x10x10_2_1_1_2_0_0.rhsBatch by decide), dif_pos (show (2 : Fin S48x256x10.rank) ∈ dot_S48x10x256_S48x256x10_S48x10x10_2_1_1_2_0_0.rhsNonContracting by decide)]
  rfl
theorem dotQQ_apply (l : FVec Ideal S48x10x256 .f32) (r : FVec Ideal S48x256x10 .f32) (b : Fin 48) (m : Fin 10) (n : Fin 10) :
    Host.dotGeneral (F := Ideal) dot_S48x10x256_S48x256x10_S48x10x10_2_1_1_2_0_0 none l r (ix3 b m n) = ∑ k : Fin 256, l (ix3 b m k) * r (ix3 b k n) := by
  simp only [Host.dotGeneral]
  rw [Ideal.dotGeneral_apply, ← Equiv.sum_comp (contrEquiv1 dot_S48x10x256_S48x256x10_S48x10x10_2_1_1_2_0_0 256 rfl rfl).symm]
  refine Finset.sum_congr rfl fun k _ => ?_
  have hk := contrEquiv1_symm_val dot_S48x10x256_S48x256x10_S48x10x10_2_1_1_2_0_0 256 rfl rfl k
  have el : dot_S48x10x256_S48x256x10_S48x10x10_2_1_1_2_0_0.lhsIdx (ix3 b m n) ((contrEquiv1 dot_S48x10x256_S48x256x10_S48x10x10_2_1_1_2_0_0 256 rfl rfl).symm k) = ix3 b m k := funext fun a => Fin.ext (by
    match a with
    | ⟨0, _⟩ => exact dotQQ_l0 _ _
    | ⟨1, _⟩ => exact dotQQ_l1 _ _
    | ⟨2, _⟩ => exact (dotQQ_l2 _ _).trans hk)
  have er : dot_S48x10x256_S48x256x10_S48x10x10_2_1_1_2_0_0.rhsIdx (ix3 b m n) ((contrEquiv1 dot_S48x10x256_S48x256x10_S48x10x10_2_1_1_2_0_0 256 rfl rfl).symm k) = ix3 b k n := funext fun a => Fin.ext (by
    match a with
    | ⟨0, _⟩ => exact dotQQ_r0 _ _
    | ⟨1, _⟩ => exact (dotQQ_r1 _ _).trans hk
    | ⟨2, _⟩ => exact dotQQ_r2 _ _)
  rw [el, er]

theorem dotPQ_l0 (i : S48x10x256.Idx) (q : dot_S48x10x10_S48x10x256_S48x10x256_2_1_1_2_0_0.contr.Idx) :
    (dot_S48x10x10_S48x10x256_S48x10x256_2_1_1_2_0_0.lhsIdx i q 0).val = (i 0).val := by
  unfold DotDims.lhsIdx
  rw [dif_pos (show (0 : Fin S48x10x10.rank) ∈ dot_S48x10x10_S48x10x256_S48x10x256_2_1_1_2_0_0.lhsBatch by decide)]
  rfl
theorem dotPQ_l1 (i : S48x10x256.Idx) (q : dot_S48x10x10_S48x10x256_S48x10x256_2_1_1_2_0_0.contr.Idx) :
    (dot_S48x10x10_S48x10x256_S48x10x256_2_1_1_2_0_0.lhsIdx i q 1).val = (i 1).val := by
  unfold DotDims.lhsIdx
  rw [dif_neg (show ¬(1 : Fin S48x10x10.rank) ∈ dot_S48x10x10_S48x10x256_S48x10x256_2_1_1_2_0_0.lhsBatch by decide), dif_pos (show (1 : Fin S48x10x10.rank) ∈ dot_S48x10x10_S48x10x256_S48x10x256_2_1_1_2_0_0.lhsNonContracting by decide)]
  rfl
theorem dotPQ_l2 (i : S48x10x256.Idx) (q : dot_S48x10x10_S48x10x256_S48x10x256_2_1_1_2_0_0.contr.Idx) :
    (dot_S48x10x10_S48x10x256_S48x10x256_2_1_1_2_0_0.lhsIdx i q 2).val = (q ⟨0, by decide⟩).val :=
  dot_S48x10x10_S48x10x256_S48x10x256_2_1_1_2_0_0.lhsIdx_val_of_single rfl i q
theorem dotPQ_r0 (i : S48x10x256.Idx) (q : dot_S48x10x10_S48x10x256_S48x10x256_2_1_1_2_0_0.contr.Idx) :
    (dot_S48x10x10_S48x10x256_S48x10x256_2_1_1_2_0_0.rhsIdx i q 0).val = (i 0).val := by
  unfold DotDims.rhsIdx
  rw [dif_pos (show (0 : Fin S48x10x256.rank) ∈ dot_S48x10x10_S48x10x256_S48x10x256_2_1_1_2_0_0.rhsBatch by decide)]
  rfl
theorem dotPQ_r1 (i : S48x10x256.Idx) (q : dot_S48x10x10_S48x10x256_S48x10x256_2_1_1_2_0_0.contr.Idx) :
    (dot_S48x10x10_S48x10x256_S48x10x256_2_1_1_2_0_0.rhsIdx i q 1).val = (q ⟨0, by decide⟩).val :=
  dot_S48x10x10_S48x10x256_S48x10x256_2_1_1_2_0_0.rhsIdx_val_of_single rfl i q
theorem dotPQ_r2 (i : S48x10x256.Idx) (q : dot_S48x10x10_S48x10x256_S48x10x256_2_1_1_2_0_0.contr.Idx) :
    (dot_S48x10x10_S48x10x256_S48x10x256_2_1_1_2_0_0.rhsIdx i q 2).val = (i 2).val := by
  unfold DotDims.rhsIdx
  rw [dif_neg (show ¬(2 : Fin S48x10x256.rank) ∈ dot_S48x10x10_S48x10x256_S48x10x256_2_1_1_2_0_0.rhsBatch by decide), dif_pos (show (2 : Fin S48x10x256.rank) ∈ dot_S48x10x10_S48x10x256_S48x10x256_2_1_1_2_0_0.rhsNonContracting by decide)]
  rfl
theorem dotPQ_apply (l : FVec Ideal S48x10x10 .f32) (r : FVec Ideal S48x10x256 .f32) (b : Fin 48) (m : Fin 10) (n : Fin 256) :
    Host.dotGeneral (F := Ideal) dot_S48x10x10_S48x10x256_S48x10x256_2_1_1_2_0_0 none l r (ix3 b m n) = ∑ k : Fin 10, l (ix3 b m k) * r (ix3 b k n) := by
  simp only [Host.dotGeneral]
  rw [Ideal.dotGeneral_apply, ← Equiv.sum_comp (contrEquiv1 dot_S48x10x10_S48x10x256_S48x10x256_2_1_1_2_0_0 10 rfl rfl).symm]
  refine Finset.sum_congr rfl fun k _ => ?_
  have hk := contrEquiv1_symm_val dot_S48x10x10_S48x10x256_S48x10x256_2_1_1_2_0_0 10 rfl rfl k
  have el : dot_S48x10x10_S48x10x256_S48x10x256_2_1_1_2_0_0.lhsIdx (ix3 b m n) ((contrEquiv1 dot_S48x10x10_S48x10x256_S48x10x256_2_1_1_2_0_0 10 rfl rfl).symm k) = ix3 b m k := funext fun a => Fin.ext (by
    match a with
    | ⟨0, _⟩ => exact dotPQ_l0 _ _
    | ⟨1, _⟩ => exact dotPQ_l1 _ _
    | ⟨2, _⟩ => exact (dotPQ_l2 _ _).trans hk)
  have er : dot_S48x10x10_S48x10x256_S48x10x256_2_1_1_2_0_0.rhsIdx (ix3 b m n) ((contrEquiv1 dot_S48x10x10_S48x10x256_S48x10x256_2_1_1_2_0_0 10 rfl rfl).symm k) = ix3 b k n := funext fun a => Fin.ext (by
    match a with
    | ⟨0, _⟩ => exact dotPQ_r0 _ _
    | ⟨1, _⟩ => exact (dotPQ_r1 _ _).trans hk
    | ⟨2, _⟩ => exact dotPQ_r2 _ _)
  rw [el, er]

theorem dotQC_l0 (i : S480x1x455.Idx) (q : dot_S480x1x256_S480x256x455_S480x1x455_2_1_1_2_0_0.contr.Idx) :
    (dot_S480x1x256_S480x256x455_S480x1x455_2_1_1_2_0_0.lhsIdx i q 0).val = (i 0).val := by
  unfold DotDims.lhsIdx
  rw [dif_pos (show (0 : Fin S480x1x256.rank) ∈ dot_S480x1x256_S480x256x455_S480x1x455_2_1_1_2_0_0.lhsBatch by decide)]
  rfl
theorem dotQC_l1 (i : S480x1x455.Idx) (q : dot_S480x1x256_S480x256x455_S480x1x455_2_1_1_2_0_0.contr.Idx) :
    (dot_S480x1x256_S480x256x455_S480x1x455_2_1_1_2_0_0.lhsIdx i q 1).val = (i 1).val := by
  unfold DotDims.lhsIdx
  rw [dif_neg (show ¬(1 : Fin S480x1x256.rank) ∈ dot_S480x1x256_S480x256x455_S480x1x455_2_1_1_2_0_0.lhsBatch by decide), dif_pos (show (1 : Fin S480x1x256.rank) ∈ dot_S480x1x256_S480x256x455_S480x1x455_2_1_1_2_0_0.lhsNonContracting by decide)]
  rfl
theorem dotQC_l2 (i : S480x1x455.Idx) (q : dot_S480x1x256_S480x256x455_S480x1x455_2_1_1_2_0_0.contr.Idx) :
    (dot_S480x1x256_S480x256x455_S480x1x455_2_1_1_2_0_0.lhsIdx i q 2).val = (q ⟨0, by decide⟩).val :=
  dot_S480x1x256_S480x256x455_S480x1x455_2_1_1_2_0_0.lhsIdx_val_of_single rfl i q
theorem dotQC_r0 (i : S480x1x455.Idx) (q : dot_S480x1x256_S480x256x455_S480x1x455_2_1_1_2_0_0.contr.Idx) :
    (dot_S480x1x256_S480x256x455_S480x1x455_2_1_1_2_0_0.rhsIdx i q 0).val = (i 0).val := by
  unfold DotDims.rhsIdx
  rw [dif_pos (show (0 : Fin S480x256x455.rank) ∈ dot_S480x1x256_S480x256x455_S480x1x455_2_1_1_2_0_0.rhsBatch by decide)]
  rfl
theorem dotQC_r1 (i : S480x1x455.Idx) (q : dot_S480x1x256_S480x256x455_S480x1x455_2_1_1_2_0_0.contr.Idx) :
    (dot_S480x1x256_S480x256x455_S480x1x455_2_1_1_2_0_0.rhsIdx i q 1).val = (q ⟨0, by decide⟩).val :=
  dot_S480x1x256_S480x256x455_S480x1x455_2_1_1_2_0_0.rhsIdx_val_of_single rfl i q
theorem dotQC_r2 (i : S480x1x455.Idx) (q : dot_S480x1x256_S480x256x455_S480x1x455_2_1_1_2_0_0.contr.Idx) :
    (dot_S480x1x256_S480x256x455_S480x1x455_2_1_1_2_0_0.rhsIdx i q 2).val = (i 2).val := by
  unfold DotDims.rhsIdx
  rw [dif_neg (show ¬(2 : Fin S480x256x455.rank) ∈ dot_S480x1x256_S480x256x455_S480x1x455_2_1_1_2_0_0.rhsBatch by decide), dif_pos (show (2 : Fin S480x256x455.rank) ∈ dot_S480x1x256_S480x256x455_S480x1x455_2_1_1_2_0_0.rhsNonContracting by decide)]
  rfl
theorem dotQC_apply (l : FVec Ideal S480x1x256 .f32) (r : FVec Ideal S480x256x455 .f32) (b : Fin 480) (m : Fin 1) (n : Fin 455) :
    Host.dotGeneral (F := Ideal) dot_S480x1x256_S480x256x455_S480x1x455_2_1_1_2_0_0 none l r (ix3 b m n) = ∑ k : Fin 256, l (ix3 b m k) * r (ix3 b k n) := by
  simp only [Host.dotGeneral]
  rw [Ideal.dotGeneral_apply, ← Equiv.sum_comp (contrEquiv1 dot_S480x1x256_S480x256x455_S480x1x455_2_1_1_2_0_0 256 rfl rfl).symm]
  refine Finset.sum_congr rfl fun k _ => ?_
  have hk := contrEquiv1_symm_val dot_S480x1x256_S480x256x455_S480x1x455_2_1_1_2_0_0 256 rfl rfl k
  have el : dot_S480x1x256_S480x256x455_S480x1x455_2_1_1_2_0_0.lhsIdx (ix3 b m n) ((contrEquiv1 dot_S480x1x256_S480x256x455_S480x1x455_2_1_1_2_0_0 256 rfl rfl).symm k) = ix3 b m k := funext fun a => Fin.ext (by
    match a with
    | ⟨0, _⟩ => exact dotQC_l0 _ _
    | ⟨1, _⟩ => exact dotQC_l1 _ _
    | ⟨2, _⟩ => exact (dotQC_l2 _ _).trans hk)
  have er : dot_S480x1x256_S480x256x455_S480x1x455_2_1_1_2_0_0.rhsIdx (ix3 b m n) ((contrEquiv1 dot_S480x1x256_S480x256x455_S480x1x455_2_1_1_2_0_0 256 rfl rfl).symm k) = ix3 b k n := funext fun a => Fin.ext (by
    match a with
    | ⟨0, _⟩ => exact dotQC_r0 _ _
    | ⟨1, _⟩ => exact (dotQC_r1 _ _).trans hk
    | ⟨2, _⟩ => exact dotQC_r2 _ _)
  rw [el, er]

theorem dotPC_l0 (i : S480x1x256.Idx) (q : dot_S480x1x455_S480x455x256_S480x1x256_2_1_1_2_0_0.contr.Idx) :
    (dot_S480x1x455_S480x455x256_S480x1x256_2_1_1_2_0_0.lhsIdx i q 0).val = (i 0).val := by
  unfold DotDims.lhsIdx
  rw [dif_pos (show (0 : Fin S480x1x455.rank) ∈ dot_S480x1x455_S480x455x256_S480x1x256_2_1_1_2_0_0.lhsBatch by decide)]
  rfl
theorem dotPC_l1 (i : S480x1x256.Idx) (q : dot_S480x1x455_S480x455x256_S480x1x256_2_1_1_2_0_0.contr.Idx) :
    (dot_S480x1x455_S480x455x256_S480x1x256_2_1_1_2_0_0.lhsIdx i q 1).val = (i 1).val := by
  unfold DotDims.lhsIdx
  rw [dif_neg (show ¬(1 : Fin S480x1x455.rank) ∈ dot_S480x1x455_S480x455x256_S480x1x256_2_1_1_2_0_0.lhsBatch by decide), dif_pos (show (1 : Fin S480x1x455.rank) ∈ dot_S480x1x455_S480x455x256_S480x1x256_2_1_1_2_0_0.lhsNonContracting by decide)]
  rfl
theorem dotPC_l2 (i : S480x1x256.Idx) (q : dot_S480x1x455_S480x455x256_S480x1x256_2_1_1_2_0_0.contr.Idx) :
    (dot_S480x1x455_S480x455x256_S480x1x256_2_1_1_2_0_0.lhsIdx i q 2).val = (q ⟨0, by decide⟩).val :=
  dot_S480x1x455_S480x455x256_S480x1x256_2_1_1_2_0_0.lhsIdx_val_of_single rfl i q
theorem dotPC_r0 (i : S480x1x256.Idx) (q : dot_S480x1x455_S480x455x256_S480x1x256_2_1_1_2_0_0.contr.Idx) :
    (dot_S480x1x455_S480x455x256_S480x1x256_2_1_1_2_0_0.rhsIdx i q 0).val = (i 0).val := by
  unfold DotDims.rhsIdx
  rw [dif_pos (show (0 : Fin S480x455x256.rank) ∈ dot_S480x1x455_S480x455x256_S480x1x256_2_1_1_2_0_0.rhsBatch by decide)]
  rfl
theorem dotPC_r1 (i : S480x1x256.Idx) (q : dot_S480x1x455_S480x455x256_S480x1x256_2_1_1_2_0_0.contr.Idx) :
    (dot_S480x1x455_S480x455x256_S480x1x256_2_1_1_2_0_0.rhsIdx i q 1).val = (q ⟨0, by decide⟩).val :=
  dot_S480x1x455_S480x455x256_S480x1x256_2_1_1_2_0_0.rhsIdx_val_of_single rfl i q
theorem dotPC_r2 (i : S480x1x256.Idx) (q : dot_S480x1x455_S480x455x256_S480x1x256_2_1_1_2_0_0.contr.Idx) :
    (dot_S480x1x455_S480x455x256_S480x1x256_2_1_1_2_0_0.rhsIdx i q 2).val = (i 2).val := by
  unfold DotDims.rhsIdx
  rw [dif_neg (show ¬(2 : Fin S480x455x256.rank) ∈ dot_S480x1x455_S480x455x256_S480x1x256_2_1_1_2_0_0.rhsBatch by decide), dif_pos (show (2 : Fin S480x455x256.rank) ∈ dot_S480x1x455_S480x455x256_S480x1x256_2_1_1_2_0_0.rhsNonContracting by decide)]
  rfl
theorem dotPC_apply (l : FVec Ideal S480x1x455 .f32) (r : FVec Ideal S480x455x256 .f32) (b : Fin 480) (m : Fin 1) (n : Fin 256) :
    Host.dotGeneral (F := Ideal) dot_S480x1x455_S480x455x256_S480x1x256_2_1_1_2_0_0 none l r (ix3 b m n) = ∑ k : Fin 455, l (ix3 b m k) * r (ix3 b k n) := by
  simp only [Host.dotGeneral]
  rw [Ideal.dotGeneral_apply, ← Equiv.sum_comp (contrEquiv1 dot_S480x1x455_S480x455x256_S480x1x256_2_1_1_2_0_0 455 rfl rfl).symm]
  refine Finset.sum_congr rfl fun k _ => ?_
  have hk := contrEquiv1_symm_val dot_S480x1x455_S480x455x256_S480x1x256_2_1_1_2_0_0 455 rfl rfl k
  have el : dot_S480x1x455_S480x455x256_S480x1x256_2_1_1_2_0_0.lhsIdx (ix3 b m n) ((contrEquiv1 dot_S480x1x455_S480x455x256_S480x1x256_2_1_1_2_0_0 455 rfl rfl).symm k) = ix3 b m k := funext fun a => Fin.ext (by
    match a with
    | ⟨0, _⟩ => exact dotPC_l0 _ _
    | ⟨1, _⟩ => exact dotPC_l1 _ _
    | ⟨2, _⟩ => exact (dotPC_l2 _ _).trans hk)
  have er : dot_S480x1x455_S480x455x256_S480x1x256_2_1_1_2_0_0.rhsIdx (ix3 b m n) ((contrEquiv1 dot_S480x1x455_S480x455x256_S480x1x256_2_1_1_2_0_0 455 rfl rfl).symm k) = ix3 b k n := funext fun a => Fin.ext (by
    match a with
    | ⟨0, _⟩ => exact dotPC_r0 _ _
    | ⟨1, _⟩ => exact (dotPC_r1 _ _).trans hk
    | ⟨2, _⟩ => exact dotPC_r2 _ _)
  rw [el, er]

theorem dotFW_l0 (i : S48x10x256.Idx) (q : dot_S48x10x512_S256x512_S48x10x256_2_1_01_0_n_n.contr.Idx) :
    (dot_S48x10x512_S256x512_S48x10x256_2_1_01_0_n_n.lhsIdx i q 0).val = (i 0).val := by
  unfold DotDims.lhsIdx
  rw [dif_neg (show ¬(0 : Fin S48x10x512.rank) ∈ dot_S48x10x512_S256x512_S48x10x256_2_1_01_0_n_n.lhsBatch by decide), dif_pos (show (0 : Fin S48x10x512.rank) ∈ dot_S48x10x512_S256x512_S48x10x256_2_1_01_0_n_n.lhsNonContracting by decide)]
  rfl
theorem dotFW_l1 (i : S48x10x256.Idx) (q : dot_S48x10x512_S256x512_S48x10x256_2_1_01_0_n_n.contr.Idx) :
    (dot_S48x10x512_S256x512_S48x10x256_2_1_01_0_n_n.lhsIdx i q 1).val = (i 1).val := by
  unfold DotDims.lhsIdx
  rw [dif_neg (show ¬(1 : Fin S48x10x512.rank) ∈ dot_S48x10x512_S256x512_S48x10x256_2_1_01_0_n_n.lhsBatch by decide), dif_pos (show (1 : Fin S48x10x512.rank) ∈ dot_S48x10x512_S256x512_S48x10x256_2_1_01_0_n_n.lhsNonContracting by decide)]
  rfl
theorem dotFW_l2 (i : S48x10x256.Idx) (q : dot_S48x10x512_S256x512_S48x10x256_2_1_01_0_n_n.contr.Idx) :
    (dot_S48x10x512_S256x512_S48x10x256_2_1_01_0_n_n.lhsIdx i q 2).val = (q ⟨0, by decide⟩).val :=
  dot_S48x10x512_S256x512_S48x10x256_2_1_01_0_n_n.lhsIdx_val_of_single rfl i q
theorem dotFW_r0 (i : S48x10x256.Idx) (q : dot_S48x10x512_S256x512_S48x10x256_2_1_01_0_n_n.contr.Idx) :
    (dot_S48x10x512_S256x512_S48x10x256_2_1_01_0_n_n.rhsIdx i q 0).val = (i 2).val := by
  unfold DotDims.rhsIdx
  rw [dif_neg (show ¬(0 : Fin S256x512.rank) ∈ dot_S48x10x512_S256x512_S48x10x256_2_1_01_0_n_n.rhsBatch by decide), dif_pos (show (0 : Fin S256x512.rank) ∈ dot_S48x10x512_S256x512_S48x10x256_2_1_01_0_n_n.rhsNonContracting by decide)]
  rfl
theorem dotFW_r1 (i : S48x10x256.Idx) (q : dot_S48x10x512_S256x512_S48x10x256_2_1_01_0_n_n.contr.Idx) :
    (dot_S48x10x512_S256x512_S48x10x256_2_1_01_0_n_n.rhsIdx i q 1).val = (q ⟨0, by decide⟩).val :=
  dot_S48x10x512_S256x512_S48x10x256_2_1_01_0_n_n.rhsIdx_val_of_single rfl i q
theorem dotFW_apply (l : FVec Ideal S48x10x512 .f32) (r : FVec Ideal S256x512 .f32) (b : Fin 48) (m : Fin 10) (n : Fin 256) :
    Host.dotGeneral (F := Ideal) dot_S48x10x512_S256x512_S48x10x256_2_1_01_0_n_n none l r (ix3 b m n) = ∑ k : Fin 512, l (ix3 b m k) * r (ix2 n k) := by
  simp only [Host.dotGeneral]
  rw [Ideal.dotGeneral_apply, ← Equiv.sum_comp (contrEquiv1 dot_S48x10x512_S256x512_S48x10x256_2_1_01_0_n_n 512 rfl rfl).symm]
  refine Finset.sum_congr rfl fun k _ => ?_
  have hk := contrEquiv1_symm_val dot_S48x10x512_S256x512_S48x10x256_2_1_01_0_n_n 512 rfl rfl k
  have el : dot_S48x10x512_S256x512_S48x10x256_2_1_01_0_n_n.lhsIdx (ix3 b m n) ((contrEquiv1 dot_S48x10x512_S256x512_S48x10x256_2_1_01_0_n_n 512 rfl rfl).symm k) = ix3 b m k := funext fun a => Fin.ext (by
    match a with
    | ⟨0, _⟩ => exact dotFW_l0 _ _
    | ⟨1, _⟩ => exact dotFW_l1 _ _
    | ⟨2, _⟩ => exact (dotFW_l2 _ _).trans hk)
  have er : dot_S48x10x512_S256x512_S48x10x256_2_1_01_0_n_n.rhsIdx (ix3 b m n) ((contrEquiv1 dot_S48x10x512_S256x512_S48x10x256_2_1_01_0_n_n 512 rfl rfl).symm k) = ix2 n k := funext fun a => Fin.ext (by
    match a with
    | ⟨0, _⟩ => exact dotFW_r0 _ _
    | ⟨1, _⟩ => exact (dotFW_r1 _ _).trans hk)
  rw [el, er]

end Cert.RefRead

end
-- ==== Proof.RefRead1.lean ====
/-
  The reference's first two stages read at an entry: the padded sequence cut into chunks is the specification's
  chunk rows, and the chunks' columnwise maxima are its summaries.

  Row r = b·10 + s of the [480, 455, 256] chunk array is chunk s of batch row b; in row-major order its entry
  (r, k, d) is entry (b, s·455 + k, d) of the padded [48, 4550, 256] array, which is x[b, s·455 + k, d] below
  row 4096 and the padding value, zero, from there on.
-/
import proofs.«103608_j19327352832046_2_alg».proof.Proof.RefRun
import proofs.«103608_j19327352832046_2_alg».proof.Proof.Spec
import proofs.«103608_j19327352832046_2_alg».proof.Proof.LibFlattenRows
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.ValueIdx Cert.RefRun

/-- The row of the chunk array that holds chunk s of batch row b. -/
abbrev row (bi : Fin 48) (s : Fin 10) : Fin 480 := ⟨bi.val * 10 + s.val, by have := bi.isLt; have := s.isLt; omega⟩

/-- The padded array at (b, t, d): the operand below row 4096, the padding value from there on. -/
theorem pad_apply {α : Type} (x : S48x4096x256.Idx → α) (v : S_.Idx → α) (bi : Fin 48) (t : Fin 4550) (d : Fin 256) :
    pad S48x4550x256 ![0, 0, 0] ![0, 454, 0] ![0, 0, 0] x v pads_S48x4096x256_S48x4550x256_000_04540_000 h_S_ (ix3 bi t d)
      = if h : t.val < 4096 then x (ix3 bi ⟨t.val, h⟩ d) else v (Shape.Idx.first h_S_) := by
  unfold pad
  split
  · rename_i hin
    have h1 : (t.val - 0) / (0 + 1) < 4096 := (hin 1).2.2
    have h : t.val < 4096 := by omega
    rw [dif_pos h]
    refine congrArg x (funext fun a => Fin.ext ?_)
    match a with
    | ⟨0, _⟩ => show (bi.val - 0) / (0 + 1) = bi.val; omega
    | ⟨1, _⟩ => show (t.val - 0) / (0 + 1) = t.val; omega
    | ⟨2, _⟩ => show (d.val - 0) / (0 + 1) = d.val; omega
  · rename_i hin
    have h : ¬ t.val < 4096 := fun h => hin fun a => by
      match a with
      | ⟨0, _⟩ => show 0 ≤ bi.val ∧ (bi.val - 0) % (0 + 1) = 0 ∧ (bi.val - 0) / (0 + 1) < 48; have := bi.isLt; omega
      | ⟨1, _⟩ => show 0 ≤ t.val ∧ (t.val - 0) % (0 + 1) = 0 ∧ (t.val - 0) / (0 + 1) < 4096; omega
      | ⟨2, _⟩ => show 0 ≤ d.val ∧ (d.val - 0) % (0 + 1) = 0 ∧ (d.val - 0) / (0 + 1) < 256; have := d.isLt; omega
    rw [dif_neg h]

/-- The padding value: the integer zero converted, which is zero. -/
theorem padValue (i : S_.Idx) : sitofp (F := Ideal) .f32 (constantI S_ 32 0#32) i = (0 : EReal) := by
  show (((0#32 : BitVec 32).toInt : ℝ) : EReal) = 0
  simp

/-- The chunk array at (b·10 + s, k, d) is the specification's chunk row. -/
theorem stChunked_apply (x : Arr Ideal S48x4096x256) (bi : Fin 48) (s : Fin 10) (k : Fin 455) (d : Fin 256) :
    stChunked (F := Ideal) x (ix3 (row bi s) k d) = Cert.Spec.pchunk (fun t e => x (ix3 bi t e)) s k d := by
  have hk : s.val * 455 + k.val < 4550 := by have := s.isLt; have := k.isLt; omega
  unfold stChunked
  rw [shapeCast_apply _ shapeCasts_S48x4550x256_S480x455x256 (ix3 (row bi s) k d) (ix3 bi (⟨s.val * 455 + k.val, hk⟩ : Fin 4550) d) (by
    rw [Shape.rowMajor_val_three, Shape.rowMajor_val_three]
    show (bi.val * 4550 + (s.val * 455 + k.val)) * 256 + d.val = ((bi.val * 10 + s.val) * 455 + k.val) * 256 + d.val
    ring)]
  rw [pad_apply]
  unfold Cert.Spec.pchunk
  by_cases h : s.val * 455 + k.val < 4096
  · rw [dif_pos h, dif_pos h]
  · rw [dif_neg h, dif_neg h, padValue]

/-- The summaries at (b, s, d): the maximum, from minus infinity, of column d over the 455 rows of chunk b·10 + s. -/
theorem stQ_apply (ch : Arr Ideal S480x455x256) (bi : Fin 48) (s : Fin 10) (d : Fin 256) :
    stQ (F := Ideal) ch (ix3 bi s d)
      = (Finset.univ : Finset (Fin 455)).fold max Cert.Spec.ninf (fun k => ch (ix3 (row bi s) k d)) := by
  unfold stQ
  rw [Cert.FlattenRows.split_apply _ shapeCasts_S480x256_S48x10x256 bi s d (row bi s) rfl]
  have hr : S480x455x256.Reduces [1] S480x256 := by decide
  have h := Host.reduce_eq_fold_single (FloatOps.maximumf (F := Ideal) (φ := .f32)) ch (constant (F := Ideal) S_ .f32 0xFF800000#32)
    reducesTo_S480x455x256_S480x256_d1 hr h_S_ (ix2 (row bi s) d)
  refine h.trans ?_
  exact congrArg (fun f : Fin 455 → EReal => (Finset.univ : Finset (Fin 455)).fold max Cert.Spec.ninf f)
    (funext fun k => congrArg ch (funext fun a => Fin.ext (by match a with | ⟨0, _⟩ => rfl | ⟨1, _⟩ => rfl | ⟨2, _⟩ => rfl)))

/-- The summaries of the chunk array are the specification's summaries. -/
theorem stQ_chunked (x : Arr Ideal S48x4096x256) (bi : Fin 48) (s : Fin 10) (d : Fin 256) :
    stQ (F := Ideal) (stChunked (F := Ideal) x) (ix3 bi s d) = Cert.Spec.summ (fun t e => x (ix3 bi t e)) s d := by
  rw [stQ_apply]
  unfold Cert.Spec.summ
  congr 1
  funext k
  exact stChunked_apply x bi s k d

end Cert.RefRead

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibRowBroadcasts.lean ====
/-
  Reusable lemmas: the two broadcasts by which a host program subtracts a row statistic from, or divides by it, every
  entry of the row of a rank-3 array.

  A reduction over the last axis of an [A, B, C] array leaves an [A, B] array of row statistics.  jnp puts the reduced
  axis back as a unit axis ([A, B] to [A, B, 1], axes mapped [0, 1]) and then repeats the statistic along that axis
  ([A, B, 1] to [A, B, C], axes mapped [0, 1, 2]):
      keep    [A, B] → [A, B, 1]      at (a, b, u)  is the operand at (a, b);
      spread  [A, B, 1] → [A, B, C]   at (a, b, c)  is the operand at (a, b, 0).
  Generic in the extents (either of A, B may itself be 1) and in the element type.
-/
import Idealize.ShloMosaic.Lib.Pipeline.Value
import Idealize.ShloMosaic.Lib.ValueIdx

noncomputable section

namespace Cert.RowBroadcasts

open Idealize.ShloMosaic Idealize.ShloMosaic.ValueIdx

variable {α : Type} {A B C : ℕ}

/-- A row statistic with its reduced axis put back reads, at (a, b, u), the statistic at (a, b). -/
theorem keep_apply (v : (⟨2, ![A, B]⟩ : Shape).Idx → α)
    (h : (⟨2, ![A, B]⟩ : Shape).BroadcastsInDim ⟨3, ![A, B, 1]⟩ (![0, 1] : Fin 2 → Fin 3)) (a : Fin A) (b : Fin B) (u : Fin 1) :
    broadcastInDim ⟨3, ![A, B, 1]⟩ (![0, 1] : Fin 2 → Fin 3) h v (ix3 a b u) = v (ix2 a b) := by
  refine broadcastInDim_apply (![0, 1] : Fin 2 → Fin 3) h v (ix3 a b u) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- A kept statistic repeated along the row reads, at (a, b, c), the statistic at (a, b, 0). -/
theorem spread_apply (v : (⟨3, ![A, B, 1]⟩ : Shape).Idx → α)
    (h : (⟨3, ![A, B, 1]⟩ : Shape).BroadcastsInDim ⟨3, ![A, B, C]⟩ (![0, 1, 2] : Fin 3 → Fin 3)) (a : Fin A) (b : Fin B) (c : Fin C) :
    broadcastInDim ⟨3, ![A, B, C]⟩ (![0, 1, 2] : Fin 3 → Fin 3) h v (ix3 a b c) = v (ix3 a b (0 : Fin 1)) := by
  refine broadcastInDim_apply (![0, 1, 2] : Fin 3 → Fin 3) h v (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show (0 : ℕ) = if (1 : ℕ) = 1 then 0 else c.val
    rw [if_pos rfl]

/-- The two together: the statistic of row (a, b) at every entry of the row. -/
theorem spread_keep_apply (v : (⟨2, ![A, B]⟩ : Shape).Idx → α)
    (h₁ : (⟨2, ![A, B]⟩ : Shape).BroadcastsInDim ⟨3, ![A, B, 1]⟩ (![0, 1] : Fin 2 → Fin 3))
    (h₂ : (⟨3, ![A, B, 1]⟩ : Shape).BroadcastsInDim ⟨3, ![A, B, C]⟩ (![0, 1, 2] : Fin 3 → Fin 3)) (a : Fin A) (b : Fin B) (c : Fin C) :
    broadcastInDim ⟨3, ![A, B, C]⟩ (![0, 1, 2] : Fin 3 → Fin 3) h₂ (broadcastInDim ⟨3, ![A, B, 1]⟩ (![0, 1] : Fin 2 → Fin 3) h₁ v) (ix3 a b c)
      = v (ix2 a b) := by
  rw [spread_apply, keep_apply]

end Cert.RowBroadcasts

end
-- ==== Proof.RefRead2.lean ====
/-
  The reference's block attention read at an entry: the scores of the ten summaries of a batch row against one
  another (dot products over the 256 features, divided by sqrt 256), their softmax along the keys as the program
  computes it (running maximum from minus infinity, exponentials of the differences, their sum from zero, quotients),
  and the weighted sum of the summaries.
-/
import proofs.«103608_j19327352832046_2_alg».proof.Proof.RefRun
import proofs.«103608_j19327352832046_2_alg».proof.Proof.Spec
import proofs.«103608_j19327352832046_2_alg».proof.Proof.SpecLaws
import proofs.«103608_j19327352832046_2_alg».proof.Proof.RefDots
import proofs.«103608_j19327352832046_2_alg».proof.Proof.LibHostBroadcasts
import proofs.«103608_j19327352832046_2_alg».proof.Proof.LibRowBroadcasts
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.ValueIdx Cert.RefRun

/-- The square root of 256 spread over any shape reads that square root everywhere. -/
theorem sqrt256_apply {t : Shape} (dims : Fin 0 → Fin t.rank) (h : S_.BroadcastsInDim t dims) (j : t.Idx) :
    broadcastInDim t dims h (Host.sqrt (F := Ideal) (constant (F := Ideal) S_ .f32 0x43800000#32)) j
      = Ideal.sqrt (Ideal.ofBits .f32 0x43800000#32) := by
  rw [Cert.HostBroadcasts.scalar_apply]; rfl

/-- Minus infinity spread over any shape reads minus infinity everywhere. -/
theorem ninf_bcast_apply {t : Shape} (dims : Fin 0 → Fin t.rank) (h : S_.BroadcastsInDim t dims) (j : t.Idx) :
    broadcastInDim t dims h (constant (F := Ideal) S_ .f32 0xFF800000#32) j = Cert.Spec.ninf := by
  rw [Cert.HostBroadcasts.scalar_apply]; rfl

/-- A running maximum is at least the value it started from. -/
theorem max_fold_self {ι : Type} (s : Finset ι) (b : EReal) (f : ι → EReal) : max b (s.fold max b f) = s.fold max b f :=
  max_eq_right ((Finset.le_fold_max b).mpr (Or.inl le_rfl))

/-- The transposed summaries at (b, e, t) are the summaries at (b, t, e). -/
theorem transQ_apply {α : Type} (q : S48x10x256.Idx → α) (bi : Fin 48) (e : Fin 256) (t : Fin 10) :
    transpose S48x256x10 [0, 2, 1] q transposes_S48x10x256_S48x256x10_0_2_1 (ix3 bi e t) = q (ix3 bi t e) :=
  transpose_apply [0, 2, 1] q transposes_S48x10x256_S48x256x10_0_2_1 (ix3 bi e t) (ix3 bi t e)
    (fun b => match b with | ⟨0, _⟩ => rfl | ⟨1, _⟩ => rfl | ⟨2, _⟩ => rfl)

/-- The block-attention scores at (b, s, t): the scaled dot product of summaries s and t. -/
theorem stSc1_apply (q : Arr Ideal S48x10x256) (bi : Fin 48) (s t : Fin 10) :
    stSc1 (F := Ideal) q (ix3 bi s t) = Cert.Spec.score (fun e => q (ix3 bi s e)) (fun e => q (ix3 bi t e)) := by
  unfold stSc1 Cert.Spec.score
  show Ideal.div _ _ = _
  rw [dotQQ_apply, sqrt256_apply, Cert.Spec.div_sqrt256]
  exact congrArg (· * Cert.Spec.sixteenth) (Finset.sum_congr rfl fun e _ => by rw [transQ_apply])

/-- The row maxima at (a, b): the running maximum, from minus infinity, of the row's scores. -/
theorem stMax1_apply (sc : Arr Ideal S48x10x10) (a : Fin 48) (b : Fin 10) :
    stMax1 (F := Ideal) sc (ix2 a b) = Cert.Spec.rowMax (fun c : Fin 10 => sc (ix3 a b c)) := by
  unfold stMax1 Cert.Spec.rowMax
  have hr : S48x10x10.Reduces [2] S48x10 := by decide
  have h := Host.reduce_eq_fold_single (FloatOps.maximumf (F := Ideal) (φ := .f32)) sc (constant (F := Ideal) S_ .f32 0xFF800000#32)
    reducesTo_S48x10x10_S48x10_d2 hr h_S_ (ix2 a b)
  have h' := h.trans (congrArg (fun f : Fin 10 → EReal => (Finset.univ : Finset (Fin 10)).fold max Cert.Spec.ninf f)
    (show (sc ∘ hr.lift (ix2 a b)) = fun c : Fin 10 => sc (ix3 a b c) from
      funext fun k => congrArg sc (funext fun ax => Fin.ext (by match ax with | ⟨0, _⟩ => rfl | ⟨1, _⟩ => rfl | ⟨2, _⟩ => rfl))))
  show max _ _ = _
  exact (congrArg₂ max (ninf_bcast_apply _ _ _) h').trans (max_fold_self _ _ _)

/-- The exponentials at (a, b, c). -/
theorem stEx1_apply (sc : Arr Ideal S48x10x10) (a : Fin 48) (b : Fin 10) (c : Fin 10) :
    stEx1 (F := Ideal) sc (ix3 a b c) = Cert.Spec.ex (fun c : Fin 10 => sc (ix3 a b c)) c := by
  unfold stEx1 Cert.Spec.ex
  show Ideal.exp (sc (ix3 a b c) - _) = _
  rw [Cert.RowBroadcasts.spread_keep_apply, stMax1_apply]

/-- The row sums at (a, b): zero plus the sum of the row. -/
theorem stDen1_apply (e : Arr Ideal S48x10x10) (a : Fin 48) (b : Fin 10) :
    stDen1 (F := Ideal) e (ix2 a b) = ∑ c : Fin 10, e (ix3 a b c) := by
  unfold stDen1
  simp only [Host.reduceAdd, Ideal.hostReduceAdd_def]
  rw [Ideal.hostReduceAdd_single reducesTo_S48x10x10_S48x10_d2 (by decide)]
  rw [show (constant (F := Ideal) S_ .f32 0x00000000#32) (Shape.Idx.first h_S_) = (0 : EReal) from Ideal.ofBits_zero_f32, zero_add]
  exact Finset.sum_congr rfl fun k _ => congrArg e (funext fun ax => Fin.ext (by match ax with | ⟨0, _⟩ => rfl | ⟨1, _⟩ => rfl | ⟨2, _⟩ => rfl))

/-- The softmax weights at (a, b, c). -/
theorem stP1_apply (sc : Arr Ideal S48x10x10) (a : Fin 48) (b : Fin 10) (c : Fin 10) :
    stP1 (F := Ideal) sc (ix3 a b c) = Cert.Spec.prob (fun c : Fin 10 => sc (ix3 a b c)) c := by
  unfold stP1 Cert.Spec.prob Cert.Spec.den
  show Ideal.div (stEx1 (F := Ideal) sc (ix3 a b c)) _ = _
  rw [Cert.RowBroadcasts.spread_keep_apply, stDen1_apply]
  simp only [stEx1_apply]

/-- The block attention at (b, s, d): the softmax of row s of the scores, weighting the summaries' column d. -/
theorem stQB_apply (q : Arr Ideal S48x10x256) (bi : Fin 48) (s : Fin 10) (d : Fin 256) :
    stQB (F := Ideal) q (ix3 bi s d)
      = Cert.Spec.attend (fun t : Fin 10 => Cert.Spec.score (fun e => q (ix3 bi s e)) (fun e => q (ix3 bi t e))) (fun t => q (ix3 bi t d)) := by
  unfold stQB stAtt1 Cert.Spec.attend
  rw [dotPQ_apply]
  simp only [stP1_apply, stSc1_apply]

end Cert.RefRead

end
-- ==== Proof.RefRead3.lean ====
/-
  The reference's step attention read at an entry: row s of the block attention of batch row b against the 455 rows of
  chunk b·10 + s (dot products over the 256 features, divided by sqrt 256), the softmax along the chunk's rows as the
  program computes it, and the weighted sum of the chunk's rows.
-/
import proofs.«103608_j19327352832046_2_alg».proof.Proof.RefRun
import proofs.«103608_j19327352832046_2_alg».proof.Proof.Spec
import proofs.«103608_j19327352832046_2_alg».proof.Proof.SpecLaws
import proofs.«103608_j19327352832046_2_alg».proof.Proof.RefDots
import proofs.«103608_j19327352832046_2_alg».proof.Proof.LibHostBroadcasts
import proofs.«103608_j19327352832046_2_alg».proof.Proof.LibRowBroadcasts
import proofs.«103608_j19327352832046_2_alg».proof.Proof.RefRead1
import proofs.«103608_j19327352832046_2_alg».proof.Proof.RefRead2
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.ValueIdx Cert.RefRun

/-- The block attention viewed as 480 single rows reads, at (b·10 + s, 0, e), its entry (b, s, e). -/
theorem rowsOf_apply {α : Type} (x : S48x10x256.Idx → α) (bi : Fin 48) (s : Fin 10) (u : Fin 1) (e : Fin 256) :
    shapeCast S480x1x256 x shapeCasts_S48x10x256_S480x1x256 (ix3 (row bi s) u e) = x (ix3 bi s e) :=
  shapeCast_apply x _ _ _ (by
    rw [Shape.rowMajor_val_three, Shape.rowMajor_val_three]
    show (bi.val * 10 + s.val) * 256 + e.val = ((bi.val * 10 + s.val) * 1 + u.val) * 256 + e.val
    have := u.isLt; omega)

/-- The 480 single result rows viewed as [48, 10, 256] read, at (b, s, d), entry (b·10 + s, 0, d). -/
theorem ofRows_apply {α : Type} (x : S480x1x256.Idx → α) (bi : Fin 48) (s : Fin 10) (d : Fin 256) :
    shapeCast S48x10x256 x shapeCasts_S480x1x256_S48x10x256 (ix3 bi s d) = x (ix3 (row bi s) (0 : Fin 1) d) :=
  shapeCast_apply x _ _ _ (by
    rw [Shape.rowMajor_val_three, Shape.rowMajor_val_three]
    show ((bi.val * 10 + s.val) * 1 + 0) * 256 + d.val = (bi.val * 10 + s.val) * 256 + d.val
    omega)

/-- The transposed chunk at (r, e, k) is the chunk at (r, k, e). -/
theorem transC_apply {α : Type} (ch : S480x455x256.Idx → α) (r : Fin 480) (e : Fin 256) (k : Fin 455) :
    transpose S480x256x455 [0, 2, 1] ch transposes_S480x455x256_S480x256x455_0_2_1 (ix3 r e k) = ch (ix3 r k e) :=
  transpose_apply [0, 2, 1] ch transposes_S480x455x256_S480x256x455_0_2_1 (ix3 r e k) (ix3 r k e)
    (fun b => match b with | ⟨0, _⟩ => rfl | ⟨1, _⟩ => rfl | ⟨2, _⟩ => rfl)

/-- The step-attention scores at (b·10 + s, 0, k): the scaled dot product of block-attention row (b, s) and row k of
    the chunk. -/
theorem stSc2_apply (qb : Arr Ideal S48x10x256) (ch : Arr Ideal S480x455x256) (bi : Fin 48) (s : Fin 10) (u : Fin 1) (k : Fin 455) :
    stSc2 (F := Ideal) qb ch (ix3 (row bi s) u k)
      = Cert.Spec.score (fun e => qb (ix3 bi s e)) (fun e => ch (ix3 (row bi s) k e)) := by
  unfold stSc2 Cert.Spec.score
  show Ideal.div _ _ = _
  rw [dotQC_apply, sqrt256_apply, Cert.Spec.div_sqrt256]
  exact congrArg (· * Cert.Spec.sixteenth) (Finset.sum_congr rfl fun e _ => by rw [transC_apply, rowsOf_apply])

/-- The row maxima at (a, b): the running maximum, from minus infinity, of the row's scores. -/
theorem stMax2_apply (sc : Arr Ideal S480x1x455) (a : Fin 480) (b : Fin 1) :
    stMax2 (F := Ideal) sc (ix2 a b) = Cert.Spec.rowMax (fun c : Fin 455 => sc (ix3 a b c)) := by
  unfold stMax2 Cert.Spec.rowMax
  have hr : S480x1x455.Reduces [2] S480x1 := by decide
  have h := Host.reduce_eq_fold_single (FloatOps.maximumf (F := Ideal) (φ := .f32)) sc (constant (F := Ideal) S_ .f32 0xFF800000#32)
    reducesTo_S480x1x455_S480x1_d2 hr h_S_ (ix2 a b)
  have h' := h.trans (congrArg (fun f : Fin 455 → EReal => (Finset.univ : Finset (Fin 455)).fold max Cert.Spec.ninf f)
    (show (sc ∘ hr.lift (ix2 a b)) = fun c : Fin 455 => sc (ix3 a b c) from
      funext fun k => congrArg sc (funext fun ax => Fin.ext (by match ax with | ⟨0, _⟩ => rfl | ⟨1, _⟩ => rfl | ⟨2, _⟩ => rfl))))
  show max _ _ = _
  exact (congrArg₂ max (ninf_bcast_apply _ _ _) h').trans (max_fold_self _ _ _)

/-- The exponentials at (a, b, c). -/
theorem stEx2_apply (sc : Arr Ideal S480x1x455) (a : Fin 480) (b : Fin 1) (c : Fin 455) :
    stEx2 (F := Ideal) sc (ix3 a b c) = Cert.Spec.ex (fun c : Fin 455 => sc (ix3 a b c)) c := by
  unfold stEx2 Cert.Spec.ex
  show Ideal.exp (sc (ix3 a b c) - _) = _
  rw [Cert.RowBroadcasts.spread_keep_apply, stMax2_apply]

/-- The row sums at (a, b): zero plus the sum of the row. -/
theorem stDen2_apply (e : Arr Ideal S480x1x455) (a : Fin 480) (b : Fin 1) :
    stDen2 (F := Ideal) e (ix2 a b) = ∑ c : Fin 455, e (ix3 a b c) := by
  unfold stDen2
  simp only [Host.reduceAdd, Ideal.hostReduceAdd_def]
  rw [Ideal.hostReduceAdd_single reducesTo_S480x1x455_S480x1_d2 (by decide)]
  rw [show (constant (F := Ideal) S_ .f32 0x00000000#32) (Shape.Idx.first h_S_) = (0 : EReal) from Ideal.ofBits_zero_f32, zero_add]
  exact Finset.sum_congr rfl fun k _ => congrArg e (funext fun ax => Fin.ext (by match ax with | ⟨0, _⟩ => rfl | ⟨1, _⟩ => rfl | ⟨2, _⟩ => rfl))

/-- The softmax weights at (a, b, c). -/
theorem stP2_apply (sc : Arr Ideal S480x1x455) (a : Fin 480) (b : Fin 1) (c : Fin 455) :
    stP2 (F := Ideal) sc (ix3 a b c) = Cert.Spec.prob (fun c : Fin 455 => sc (ix3 a b c)) c := by
  unfold stP2 Cert.Spec.prob Cert.Spec.den
  show Ideal.div (stEx2 (F := Ideal) sc (ix3 a b c)) _ = _
  rw [Cert.RowBroadcasts.spread_keep_apply, stDen2_apply]
  simp only [stEx2_apply]

/-- The step attention at (b, s, d): the softmax weights of row b·10 + s times column d of the chunk's rows. -/
theorem stQS_apply (p : Arr Ideal S480x1x455) (ch : Arr Ideal S480x455x256) (bi : Fin 48) (s : Fin 10) (d : Fin 256) :
    stQS (F := Ideal) p ch (ix3 bi s d) = ∑ k : Fin 455, p (ix3 (row bi s) (0 : Fin 1) k) * ch (ix3 (row bi s) k d) := by
  unfold stQS
  rw [ofRows_apply, dotPC_apply]

/-- The step attention of a block-attention array qb against a chunk array ch, at (b, s, d). -/
theorem stQS_step (qb : Arr Ideal S48x10x256) (ch : Arr Ideal S480x455x256) (bi : Fin 48) (s : Fin 10) (d : Fin 256) :
    stQS (F := Ideal) (stP2 (F := Ideal) (stSc2 (F := Ideal) qb ch)) ch (ix3 bi s d)
      = Cert.Spec.attend (fun k : Fin 455 => Cert.Spec.score (fun e => qb (ix3 bi s e)) (fun e => ch (ix3 (row bi s) k e)))
          (fun k => ch (ix3 (row bi s) k d)) := by
  rw [stQS_apply]
  unfold Cert.Spec.attend
  simp only [stP2_apply, stSc2_apply]

end Cert.RefRead

end
-- ==== Proof.RefRead4.lean ====
/-
  The reference's fusion layer read at an entry, and the whole reference against the specification.

  The two attention results are laid side by side along the features (the first 256 from the block attention, the last
  256 from the step attention), contracted with the rows of the weight matrix, and the bias, spread over batch rows and
  chunks, is added.
-/
import proofs.«103608_j19327352832046_2_alg».proof.Proof.RefRun
import proofs.«103608_j19327352832046_2_alg».proof.Proof.Spec
import proofs.«103608_j19327352832046_2_alg».proof.Proof.SpecLaws
import proofs.«103608_j19327352832046_2_alg».proof.Proof.RefDots
import proofs.«103608_j19327352832046_2_alg».proof.Proof.RefRead1
import proofs.«103608_j19327352832046_2_alg».proof.Proof.RefRead2
import proofs.«103608_j19327352832046_2_alg».proof.Proof.RefRead3
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.ValueIdx Cert.RefRun

/-- The two attention results side by side at (b, s, f): the first below feature 256, the second from there on. -/
theorem concat_apply {α : Type} (u v : S48x10x256.Idx → α) (bi : Fin 48) (s : Fin 10) (f : Fin 512) :
    concatenate S48x10x512 2 [⟨S48x10x256, u⟩, ⟨S48x10x256, v⟩] concatenates_S48x10x256_S48x10x256_S48x10x512_d2 (ix3 bi s f)
      = if h : f.val < 256 then u (ix3 bi s ⟨f.val, h⟩) else v (ix3 bi s ⟨f.val - 256, by have := f.isLt; omega⟩) := by
  by_cases h : f.val < 256
  · rw [dif_pos h]
    exact concatenate_pair_apply_left 2 u v concatenates_S48x10x256_S48x10x256_S48x10x512_d2 (ix3 bi s f) rfl (ix3 bi s ⟨f.val, h⟩)
      (fun b => match b with | ⟨0, _⟩ => rfl | ⟨1, _⟩ => rfl | ⟨2, _⟩ => rfl)
  · rw [dif_neg h]
    exact concatenate_pair_apply_right 2 u v concatenates_S48x10x256_S48x10x256_S48x10x512_d2 (ix3 bi s f) rfl rfl
      (ix3 bi s ⟨f.val - 256, by have := f.isLt; omega⟩)
      (fun b hb => match b, hb with
        | ⟨0, _⟩, _ => rfl
        | ⟨1, _⟩, _ => rfl
        | ⟨2, _⟩, hb => absurd rfl hb)
      (by show f.val - 256 + 256 = f.val; omega)

/-- The bias spread over batch rows and chunks reads, at (b, s, d), its entry d. -/
theorem bias_apply {α : Type} (b : S256.Idx → α) (bi : Fin 48) (s : Fin 10) (d : Fin 256) :
    broadcastInDim S48x10x256 ![0, 1, 2] bcast_S1x1x256_S48x10x256_0_1_2 (broadcastInDim S1x1x256 ![2] bcast_S256_S1x1x256_2 b) (ix3 bi s d)
      = b (ix1 d) := by
  rw [broadcastInDim_apply _ bcast_S1x1x256_S48x10x256_0_1_2 _ (ix3 bi s d) (ix3 (0 : Fin 1) (0 : Fin 1) d) (fun a => match a with
    | ⟨0, _⟩ => by show (0 : ℕ) = if (1 : ℕ) = 1 then 0 else bi.val; rw [if_pos rfl]
    | ⟨1, _⟩ => by show (0 : ℕ) = if (1 : ℕ) = 1 then 0 else s.val; rw [if_pos rfl]
    | ⟨2, _⟩ => by show d.val = if (256 : ℕ) = 1 then 0 else d.val; rw [if_neg (by decide)])]
  exact broadcastInDim_apply _ bcast_S256_S1x1x256_2 b (ix3 (0 : Fin 1) (0 : Fin 1) d) (ix1 d) (fun a => match a with
    | ⟨0, _⟩ => by show d.val = if (256 : ℕ) = 1 then 0 else d.val; rw [if_neg (by decide)])

/-- The fusion layer at (b, s, d). -/
theorem stFuse_apply (qb qs : Arr Ideal S48x10x256) (W : Arr Ideal S256x512) (b : Arr Ideal S256) (bi : Fin 48) (s : Fin 10) (d : Fin 256) :
    stFuse (F := Ideal) qb qs W b (ix3 bi s d)
      = (∑ f : Fin 512, (if h : f.val < 256 then qb (ix3 bi s ⟨f.val, h⟩) else qs (ix3 bi s ⟨f.val - 256, by have := f.isLt; omega⟩)) * W (ix2 d f))
        + b (ix1 d) := by
  unfold stFuse
  show _ + _ = _
  rw [dotFW_apply, bias_apply]
  simp only [concat_apply]

/-- The block attention of the summaries of the chunk array is the specification's block attention. -/
theorem qb_spec (x : Arr Ideal S48x4096x256) (bi : Fin 48) (s : Fin 10) (e : Fin 256) :
    stQB (F := Ideal) (stQ (F := Ideal) (stChunked (F := Ideal) x)) (ix3 bi s e) = Cert.Spec.qblock (fun t e => x (ix3 bi t e)) s e := by
  rw [stQB_apply]
  simp only [stQ_chunked]
  rfl

/-- The step attention of that block attention against the chunk array is the specification's step attention. -/
theorem qs_spec (x : Arr Ideal S48x4096x256) (bi : Fin 48) (s : Fin 10) (e : Fin 256) :
    stQS (F := Ideal) (stP2 (F := Ideal) (stSc2 (F := Ideal) (stQB (F := Ideal) (stQ (F := Ideal) (stChunked (F := Ideal) x))) (stChunked (F := Ideal) x)))
        (stChunked (F := Ideal) x) (ix3 bi s e)
      = Cert.Spec.qstep (fun t e => x (ix3 bi t e)) s e := by
  rw [stQS_step]
  simp only [qb_spec, stChunked_apply]
  rfl

/-- The whole reference at (b, s, d) is the specification. -/
theorem refOut_apply (x : Arr Ideal S48x4096x256) (W : Arr Ideal S256x512) (b : Arr Ideal S256) (bi : Fin 48) (s : Fin 10) (d : Fin 256) :
    refOut (F := Ideal) x W b (ix3 bi s d) = Cert.Spec.Gc x W b bi s d := by
  unfold refOut
  rw [stFuse_apply]
  simp only [qb_spec, qs_spec]
  rfl

/-- The whole reference is the specification's result array. -/
theorem refOut_eq (x : Arr Ideal S48x4096x256) (W : Arr Ideal S256x512) (b : Arr Ideal S256) :
    refOut (F := Ideal) x W b = Cert.Spec.G x W b := by
  funext (i : S48x10x256.Idx)
  obtain ⟨bi, s, d, rfl⟩ : ∃ (bi : Fin 48) (s : Fin 10) (d : Fin 256), i = ix3 bi s d :=
    ⟨⟨(i 0).val, (i 0).isLt⟩, ⟨(i 1).val, (i 1).isLt⟩, ⟨(i 2).val, (i 2).isLt⟩,
      funext fun a => match a with | ⟨0, _⟩ => rfl | ⟨1, _⟩ => rfl | ⟨2, _⟩ => rfl⟩
  rw [refOut_apply, Cert.Spec.G_ix3]

end Cert.RefRead

end
-- ==== Proof.RefSide.lean ====
/-
  The reference program's run, stated against the specification: on every device the result buffer ends at the
  specification's array of the three argument arrays' launch contents, and the arguments are unchanged.

  The run gives the result as the composition of the program's stages; read entry by entry, that composition is the
  specification.
-/
import proofs.«103608_j19327352832046_2_alg».proof.Proof.RefRun
import proofs.«103608_j19327352832046_2_alg».proof.Proof.RefRead4
import proofs.«103608_j19327352832046_2_alg».proof.Proof.Spec

noncomputable section

namespace Cert.RefSide

open Idealize.ShloMosaic Idealize.ShloMosaic.TcCoe Idealize.SL.Sem Idealize.ShloMosaic.StableHlo

/-- Every weakly fair execution of the reference's @main terminates with the result at the specification's array of
    the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v44)
            = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run (Cert.ReferenceIdeal.defs (F := Ideal)) _ _).mono
    (fun _ h c => ⟨(h c).1.trans (Cert.RefRead.refOut_eq _ _ _), (h c).2⟩)
    (Cert.RefRun.run (F := Ideal) m ρ)

end Cert.RefSide

end
-- ==== Proof.lean ====
/-
  The certificate of a fused attention-pooling layer: hierarchical max-pool summaries, block attention, step attention
  and a fusion linear map, computed by one kernel over blocks of four batch rows, against the plain array program.

  Over the extended reals both programs compute ONE function of the three argument arrays (Proof/Spec.lean): for every
  batch row, the ten chunk summaries (columnwise maxima, the last chunk being one row padded with zeros), the block
  attention of the summaries, the step attention of each block-attention row against its own chunk, and the fusion
  layer on the two results joined along the features.  The programs differ in three places, each an identity of the
  extended reals (Proof/SpecLaws.lean): the kernel multiplies the scores by 1/16 where the reference divides by
  sqrt 256; the kernel takes the last chunk's summary as max(row, 0) where the reference folds max over the padded
  chunk; and the kernel evaluates the last chunk's step attention in closed form (the 454 zero keys have score zero,
  weigh exp(0 - m) each and contribute nothing to the weighted sum) where the reference attends over the padded chunk.
  No law used needs the inputs to be finite.

  The kernel's run is read block by block (Proof/KerValue.lean, over the body's payload read at an entry in
  Proof/KerPayload.lean); the reference's run is read stage by stage (Proof/RefSide.lean).  The word-level kernel's
  frame and the idealized kernel's frame are the generated ones; the idealization rewrote nothing.
-/
import proofs.«103608_j19327352832046_2_alg».proof.Defs
import proofs.«103608_j19327352832046_2_alg».proof.Proof.Gen.Kernel
import proofs.«103608_j19327352832046_2_alg».proof.Proof.Gen.Kernel.Skeleton
import proofs.«103608_j19327352832046_2_alg».proof.Proof.Gen.Kernel.Launch
import proofs.«103608_j19327352832046_2_alg».proof.Proof.Gen.Kernel.Points
import proofs.«103608_j19327352832046_2_alg».proof.Proof.Gen.Kernel.Frame
import proofs.«103608_j19327352832046_2_alg».proof.Proof.Gen.KernelIdeal
import proofs.«103608_j19327352832046_2_alg».proof.Proof.Gen.KernelIdeal.Skeleton
import proofs.«103608_j19327352832046_2_alg».proof.Proof.Gen.KernelIdeal.Launch
import proofs.«103608_j19327352832046_2_alg».proof.Proof.Gen.KernelIdeal.Points
import proofs.«103608_j19327352832046_2_alg».proof.Proof.Gen.KernelIdeal.Frame
import proofs.«103608_j19327352832046_2_alg».proof.Proof.Gen.KernelIdeal.Value
import proofs.«103608_j19327352832046_2_alg».proof.Proof.Gen.ReferenceIdeal
import proofs.«103608_j19327352832046_2_alg».proof.Proof.Gen.Pre_finite_inputs
import proofs.«103608_j19327352832046_2_alg».proof.Proof.KerValue
import proofs.«103608_j19327352832046_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefSide.run m ρ)

/-- From memories that agree on the arguments both idealized programs end with the specification's array of the
    arguments: the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KerSide.run m ρ, ?_⟩
  refine (θ_run (Cert.ReferenceIdeal.defs (F := Ideal)) _ _).mono (fun _ h c => ⟨(h c).1.trans ?_, (h c).2⟩)
    (Cert.RefSide.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
